-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v258) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S5x64x64 : Shape := ⟨3, ![5, 64, 64]⟩
abbrev S192x64 : Shape := ⟨2, ![192, 64]⟩
abbrev S192 : Shape := ⟨1, ![192]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S5x64x64 : S_.BroadcastsInDim S5x64x64 (![] : Fin 0 → Fin S5x64x64.rank)
  reducesTo_S5x64x64_S_d0_1_2 : S5x64x64.ReducesTo [0, 1, 2] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_

variable [Facts]

def fn_part1 {F : FTy → Type} [FloatOps F] (main_arg5 : FVec F S192 .f32) (main_arg6 : FVec F S192 .f32) (main_v13 : IVec S_ 1) (main_v16 : IVec S192x64 1) : IVec S_ 1 :=
  let main_c_5 : IVec S_ 1 := constantI S_ 1 1#1
  let main_v17 : IVec S_ 1 := (fun x v => Host.reduce IntOp.andi x v reducesTo_S192x64_S_d0_1 h_S_) main_v16 main_c_5
  let main_v18 : IVec S_ 1 := andi main_v13 main_v17
  let main_v19 : FVec F S192 .f32 := Host.absf main_arg5
  let main_cst_6 : FVec F S_ .f32 := constant S_ .f32 0x7F800000#32
  let main_v20 : FVec F S192 .f32 := broadcastInDim S192 ![] bcast_S_S192 main_cst_6
  let main_v21 : IVec S192 1 := cmpf .olt main_v19 main_v20
  let main_c_7 : IVec S_ 1 := constantI S_ 1 1#1
  let main_v22 : IVec S_ 1 := (fun x v => Host.reduce IntOp.andi x v reducesTo_S192_S_d0 h_S_) main_v21 main_c_7
  let main_v23 : IVec S_ 1 := andi main_v18 main_v22
  let main_v24 : FVec F S192 .f32 := Host.absf main_arg6
  let main_cst_8 : FVec F S_ .f32 := constant S_ .f32 0x7F800000#32
  let main_v25 : FVec F S192 .f32 := broadcastInDim S192 ![] bcast_S_S192 main_cst_8
  let main_v26 : IVec S192 1 := cmpf .olt main_v24 main_v25
  let main_c_9 : IVec S_ 1 := constantI S_ 1 1#1
  let main_v27 : IVec S_ 1 := (fun x v => Host.reduce IntOp.andi x v reducesTo_S192_S_d0 h_S_) main_v26 main_c_9
  let main_v28 : IVec S_ 1 := andi main_v23 main_v27
  main_v28

def fn {F : FTy → Type} [FloatOps F] (main_arg0 : FVec F S50000x64 .f32) (main_arg1 : IVec S2x800000 32) (main_arg2 : FVec F S5x64x64 .f32) (main_arg3 : FVec F S192x64 .f32) (main_arg4 : FVec F S192x64 .f32) (main_arg5 : FVec F S192 .f32) (main_arg6 : FVec F S192 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S5x64x64 .f32 := Host.absf main_arg2
  let main_cst_0 : FVec F S_ .f32 := constant S_ .f32 0x7F800000#32
  let main_v5 : FVec F S5x64x64 .f32 := broadcastInDim S5x64x64 ![] bcast_S_S5x64x64 main_cst_0
  let main_v6 : IVec S5x64x64 1 := cmpf .olt main_v4 main_v5
  let main_c_1 : IVec S_ 1 := constantI S_ 1 1#1
  let main_v7 : IVec S_ 1 := (fun x v => Host.reduce IntOp.andi x v reducesTo_S5x64x64_S_d0_1_2 h_S_) main_v6 main_c_1
  let main_v8 : IVec S_ 1 := andi main_v3 main_v7
  let main_v9 : FVec F S192x64 .f32 := Host.absf main_arg3
  let main_cst_2 : FVec F S_ .f32 := constant S_ .f32 0x7F800000#32
  let main_v10 : FVec F S192x64 .f32 := broadcastInDim S192x64 ![] bcast_S_S192x64 main_cst_2
  let main_v11 : IVec S192x64 1 := cmpf .olt main_v9 main_v10
  let main_c_3 : IVec S_ 1 := constantI S_ 1 1#1
  let main_v12 : IVec S_ 1 := (fun x v => Host.reduce IntOp.andi x v reducesTo_S192x64_S_d0_1 h_S_) main_v11 main_c_3
  let main_v13 : IVec S_ 1 := andi main_v8 main_v12
  let main_v14 : FVec F S192x64 .f32 := Host.absf main_arg4
  let main_cst_4 : FVec F S_ .f32 := constant S_ .f32 0x7F800000#32
  let main_v15 : FVec F S192x64 .f32 := broadcastInDim S192x64 ![] bcast_S_S192x64 main_cst_4
  let main_v16 : IVec S192x64 1 := cmpf .olt main_v14 main_v15
  fn_part1 (F := F) main_arg5 main_arg6 main_v13 main_v16
-- ==== Kernel.lean ====
abbrev S50000x64 : Shape := ⟨2, ![50000, 64]⟩
abbrev S2x800000 : Shape := ⟨2, ![2, 800000]⟩
abbrev S5x64x64 : Shape := ⟨3, ![5, 64, 64]⟩
abbrev S192x64 : Shape := ⟨2, ![192, 64]⟩
abbrev S192 : Shape := ⟨1, ![192]⟩
abbrev S1x800000 : Shape := ⟨2, ![1, 800000]⟩
abbrev S800000 : Shape := ⟨1, ![800000]⟩
abbrev S64x192 : Shape := ⟨2, ![64, 192]⟩
abbrev S1x192 : Shape := ⟨2, ![1, 192]⟩
abbrev S1x64x64 : Shape := ⟨3, ![1, 64, 64]⟩
abbrev S64x64 : Shape := ⟨2, ![64, 64]⟩
abbrev S2000x64 : Shape := ⟨2, ![2000, 64]⟩
abbrev S_ : Shape := ⟨0, ![]⟩
abbrev S800000x1 : Shape := ⟨2, ![800000, 1]⟩
abbrev S800000x64 : Shape := ⟨2, ![800000, 64]⟩
abbrev S2000x192 : Shape := ⟨2, ![2000, 192]⟩

abbrev nBuf : Space → Nat
  | .hbm => 100
  | .vmem => 75
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S5x64x64, .f32⟩
  | .hbm, ⟨3, _⟩ => ⟨S192x64, .f32⟩
  | .hbm, ⟨4, _⟩ => ⟨S192x64, .f32⟩
  | .hbm, ⟨5, _⟩ => ⟨S192, .f32⟩
  | .hbm, ⟨6, _⟩ => ⟨S192, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S64x192, .f32⟩
  | .hbm, ⟨12, _⟩ => ⟨S64x192, .f32⟩
  | .hbm, ⟨13, _⟩ => ⟨S1x192, .f32⟩
  | .hbm, ⟨14, _⟩ => ⟨S1x192, .f32⟩
  | .hbm, ⟨15, _⟩ => ⟨S1x64x64, .f32⟩
  | .hbm, ⟨16, _⟩ => ⟨S64x64, .f32⟩
  | .hbm, ⟨17, _⟩ => ⟨S50000x64, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S_, .f32⟩
  | .hbm, ⟨28, _⟩ => ⟨S50000x64, .f32⟩
  | .hbm, ⟨29, _⟩ => ⟨S800000x1, .i32⟩
  | .hbm, ⟨30, _⟩ => ⟨S50000x64, .f32⟩
  | .hbm, ⟨31, _⟩ => ⟨S50000x64, .f32⟩
  | .hbm, ⟨32, _⟩ => ⟨S1x64x64, .f32⟩
  | .hbm, ⟨33, _⟩ => ⟨S64x64, .f32⟩
  | .hbm, ⟨34, _⟩ => ⟨S50000x64, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x64, .f32⟩
  | .hbm, ⟨44, _⟩ => ⟨S_, .f32⟩
  | .hbm, ⟨45, _⟩ => ⟨S50000x64, .f32⟩
  | .hbm, ⟨46, _⟩ => ⟨S800000x1, .i32⟩
  | .hbm, ⟨47, _⟩ => ⟨S50000x64, .f32⟩
  | .hbm, ⟨48, _⟩ => ⟨S50000x64, .f32⟩
  | .hbm, ⟨49, _⟩ => ⟨S1x64x64, .f32⟩
  | .hbm, ⟨50, _⟩ => ⟨S64x64, .f32⟩
  | .hbm, ⟨51, _⟩ => ⟨S50000x64, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x64, .f32⟩
  | .hbm, ⟨61, _⟩ => ⟨S_, .f32⟩
  | .hbm, ⟨62, _⟩ => ⟨S50000x64, .f32⟩
  | .hbm, ⟨63, _⟩ => ⟨S800000x1, .i32⟩
  | .hbm, ⟨64, _⟩ => ⟨S50000x64, .f32⟩
  | .hbm, ⟨65, _⟩ => ⟨S50000x64, .f32⟩
  | .hbm, ⟨66, _⟩ => ⟨S1x64x64, .f32⟩
  | .hbm, ⟨67, _⟩ => ⟨S64x64, .f32⟩
  | .hbm, ⟨68, _⟩ => ⟨S50000x64, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x64, .f32⟩
  | .hbm, ⟨78, _⟩ => ⟨S_, .f32⟩
  | .hbm, ⟨79, _⟩ => ⟨S50000x64, .f32⟩
  | .hbm, ⟨80, _⟩ => ⟨S800000x1, .i32⟩
  | .hbm, ⟨81, _⟩ => ⟨S50000x64, .f32⟩
  | .hbm, ⟨82, _⟩ => ⟨S50000x64, .f32⟩
  | .hbm, ⟨83, _⟩ => ⟨S1x64x64, .f32⟩
  | .hbm, ⟨84, _⟩ => ⟨S64x64, .f32⟩
  | .hbm, ⟨85, _⟩ => ⟨S50000x64, .f32⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000x64, .f32⟩
  | .hbm, ⟨95, _⟩ => ⟨S_, .f32⟩
  | .hbm, ⟨96, _⟩ => ⟨S50000x64, .f32⟩
  | .hbm, ⟨97, _⟩ => ⟨S800000x1, .i32⟩
  | .hbm, ⟨98, _⟩ => ⟨S50000x64, .f32⟩
  | .hbm, ⟨99, _⟩ => ⟨S50000x64, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S64x192, .f32⟩
  | .local _ .vmem, ⟨10, _⟩ => ⟨S64x192, .f32⟩
  | .local _ .vmem, ⟨11, _⟩ => ⟨S1x192, .f32⟩
  | .local _ .vmem, ⟨12, _⟩ => ⟨S1x192, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S64x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S64x192, .f32⟩
  | .local _ .vmem, ⟨25, _⟩ => ⟨S64x192, .f32⟩
  | .local _ .vmem, ⟨26, _⟩ => ⟨S1x192, .f32⟩
  | .local _ .vmem, ⟨27, _⟩ => ⟨S1x192, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S64x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x64, .f32⟩
  | .local _ .vmem, ⟨38, _⟩ => ⟨S2000x64, .f32⟩
  | .local _ .vmem, ⟨39, _⟩ => ⟨S64x192, .f32⟩
  | .local _ .vmem, ⟨40, _⟩ => ⟨S64x192, .f32⟩
  | .local _ .vmem, ⟨41, _⟩ => ⟨S1x192, .f32⟩
  | .local _ .vmem, ⟨42, _⟩ => ⟨S1x192, .f32⟩
  | .local _ .vmem, ⟨43, _⟩ => ⟨S2000x64, .f32⟩
  | .local _ .vmem, ⟨44, _⟩ => ⟨S2000x64, .f32⟩
  | .local _ .vmem, ⟨45, _⟩ => ⟨S2000x64, .f32⟩
  | .local _ .vmem, ⟨46, _⟩ => ⟨S2000x64, .f32⟩
  | .local _ .vmem, ⟨47, _⟩ => ⟨S64x64, .f32⟩
  | .local _ .vmem, ⟨48, _⟩ => ⟨S2000x64, .f32⟩
  | .local _ .vmem, ⟨49, _⟩ => ⟨S2000x64, .f32⟩
  | .local _ .vmem, ⟨50, _⟩ => ⟨S2000x64, .f32⟩
  | .local _ .vmem, ⟨51, _⟩ => ⟨S2000x64, .f32⟩
  | .local _ .vmem, ⟨52, _⟩ => ⟨S2000x64, .f32⟩
  | .local _ .vmem, ⟨53, _⟩ => ⟨S2000x64, .f32⟩
  | .local _ .vmem, ⟨54, _⟩ => ⟨S64x192, .f32⟩
  | .local _ .vmem, ⟨55, _⟩ => ⟨S64x192, .f32⟩
  | .local _ .vmem, ⟨56, _⟩ => ⟨S1x192, .f32⟩
  | .local _ .vmem, ⟨57, _⟩ => ⟨S1x192, .f32⟩
  | .local _ .vmem, ⟨58, _⟩ => ⟨S2000x64, .f32⟩
  | .local _ .vmem, ⟨59, _⟩ => ⟨S2000x64, .f32⟩
  | .local _ .vmem, ⟨60, _⟩ => ⟨S2000x64, .f32⟩
  | .local _ .vmem, ⟨61, _⟩ => ⟨S2000x64, .f32⟩
  | .local _ .vmem, ⟨62, _⟩ => ⟨S64x64, .f32⟩
  | .local _ .vmem, ⟨63, _⟩ => ⟨S2000x64, .f32⟩
  | .local _ .vmem, ⟨64, _⟩ => ⟨S2000x64, .f32⟩
  | .local _ .vmem, ⟨65, _⟩ => ⟨S2000x64, .f32⟩
  | .local _ .vmem, ⟨66, _⟩ => ⟨S2000x64, .f32⟩
  | .local _ .vmem, ⟨67, _⟩ => ⟨S2000x64, .f32⟩
  | .local _ .vmem, ⟨68, _⟩ => ⟨S2000x64, .f32⟩
  | .local _ .vmem, ⟨69, _⟩ => ⟨S64x192, .f32⟩
  | .local _ .vmem, ⟨70, _⟩ => ⟨S64x192, .f32⟩
  | .local _ .vmem, ⟨71, _⟩ => ⟨S1x192, .f32⟩
  | .local _ .vmem, ⟨72, _⟩ => ⟨S1x192, .f32⟩
  | .local _ .vmem, ⟨73, _⟩ => ⟨S2000x64, .f32⟩
  | .local _ .vmem, ⟨74, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_1 : Ref sig .tc := ⟨.hbm, 35, rfl⟩
abbrev main_v25 : Ref sig .tc := ⟨.hbm, 36, rfl⟩
abbrev main_v26 : Ref sig .tc := ⟨.hbm, 37, rfl⟩
abbrev main_c_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_4 : Ref sig .tc := ⟨.hbm, 52, rfl⟩
abbrev main_v39 : Ref sig .tc := ⟨.hbm, 53, rfl⟩
abbrev main_v40 : Ref sig .tc := ⟨.hbm, 54, rfl⟩
abbrev main_c_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c_7 : Ref sig .tc := ⟨.hbm, 69, rfl⟩
abbrev main_v53 : Ref sig .tc := ⟨.hbm, 70, rfl⟩
abbrev main_v54 : Ref sig .tc := ⟨.hbm, 71, rfl⟩
abbrev main_c_8 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_9 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_c_10 : Ref sig .tc := ⟨.hbm, 86, rfl⟩
abbrev main_v67 : Ref sig .tc := ⟨.hbm, 87, rfl⟩
abbrev main_v68 : Ref sig .tc := ⟨.hbm, 88, rfl⟩
abbrev main_c_11 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_12 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_stg6_0 : Ref sig .tc := ⟨.vmem, 43, rfl⟩
abbrev cc5_stg6_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg2_0 : Ref sig .tc := ⟨.vmem, 48, rfl⟩
abbrev cc6_stg2_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg1_1 : Ref sig .tc := ⟨.vmem, 53, rfl⟩
abbrev cc7_stg2_0 : Ref sig .tc := ⟨.vmem, 54, rfl⟩
abbrev cc7_stg3_0 : Ref sig .tc := ⟨.vmem, 55, rfl⟩
abbrev cc7_stg4_0 : Ref sig .tc := ⟨.vmem, 56, rfl⟩
abbrev cc7_stg5_0 : Ref sig .tc := ⟨.vmem, 57, rfl⟩
abbrev cc7_stg6_0 : Ref sig .tc := ⟨.vmem, 58, rfl⟩
abbrev cc7_stg6_1 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg2_0 : Ref sig .tc := ⟨.vmem, 63, rfl⟩
abbrev cc8_stg2_1 : Ref sig .tc := ⟨.vmem, 64, rfl⟩
abbrev cc9_stg0_0 : Ref sig .tc := ⟨.vmem, 65, rfl⟩
abbrev cc9_stg0_1 : Ref sig .tc := ⟨.vmem, 66, rfl⟩
abbrev cc9_stg1_0 : Ref sig .tc := ⟨.vmem, 67, rfl⟩
abbrev cc9_stg1_1 : Ref sig .tc := ⟨.vmem, 68, rfl⟩
abbrev cc9_stg2_0 : Ref sig .tc := ⟨.vmem, 69, rfl⟩
abbrev cc9_stg3_0 : Ref sig .tc := ⟨.vmem, 70, rfl⟩
abbrev cc9_stg4_0 : Ref sig .tc := ⟨.vmem, 71, rfl⟩
abbrev cc9_stg5_0 : Ref sig .tc := ⟨.vmem, 72, rfl⟩
abbrev cc9_stg6_0 : Ref sig .tc := ⟨.vmem, 73, rfl⟩
abbrev cc9_stg6_1 : Ref sig .tc := ⟨.vmem, 74, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem6_0 : DmaSem sig := 43
abbrev cc5_sem6_1 : DmaSem sig := 44
abbrev cc6_sem0_0 : DmaSem sig := 45
abbrev cc6_sem0_1 : DmaSem sig := 46
abbrev cc6_sem1_0 : DmaSem sig := 47
abbrev cc6_sem2_0 : DmaSem sig := 48
abbrev cc6_sem2_1 : DmaSem sig := 49
abbrev cc7_sem0_0 : DmaSem sig := 50
abbrev cc7_sem0_1 : DmaSem sig := 51
abbrev cc7_sem1_0 : DmaSem sig := 52
abbrev cc7_sem1_1 : DmaSem sig := 53
abbrev cc7_sem2_0 : DmaSem sig := 54
abbrev cc7_sem3_0 : DmaSem sig := 55
abbrev cc7_sem4_0 : DmaSem sig := 56
abbrev cc7_sem5_0 : DmaSem sig := 57
abbrev cc7_sem6_0 : DmaSem sig := 58
abbrev cc7_sem6_1 : DmaSem sig := 59
abbrev cc8_sem0_0 : DmaSem sig := 60
abbrev cc8_sem0_1 : DmaSem sig := 61
abbrev cc8_sem1_0 : DmaSem sig := 62
abbrev cc8_sem2_0 : DmaSem sig := 63
abbrev cc8_sem2_1 : DmaSem sig := 64
abbrev cc9_sem0_0 : DmaSem sig := 65
abbrev cc9_sem0_1 : DmaSem sig := 66
abbrev cc9_sem1_0 : DmaSem sig := 67
abbrev cc9_sem1_1 : DmaSem sig := 68
abbrev cc9_sem2_0 : DmaSem sig := 69
abbrev cc9_sem3_0 : DmaSem sig := 70
abbrev cc9_sem4_0 : DmaSem sig := 71
abbrev cc9_sem5_0 : DmaSem sig := 72
abbrev cc9_sem6_0 : DmaSem sig := 73
abbrev cc9_sem6_1 : DmaSem sig := 74

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x192 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x192 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x192 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x192 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x192 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x192 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x192 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x192 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x192 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x192 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x192 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S2000x64 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S2000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S64x192 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S64x192 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x192 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x192 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S2000x64 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S192x64_S64x192_1_0 : S192x64.Transposes [1, 0] S64x192
  shapeCasts_S192_S1x192 : S192.ShapeCasts S1x192
  slices_S5x64x64_S1x64x64_0_0_0 : S5x64x64.Slices ![0, 0, 0] S1x64x64
  shapeCasts_S1x64x64_S64x64 : S1x64x64.ShapeCasts S64x64
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S2000x64_S2000x64 : S2000x64.ShapeCasts S2000x64
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S2000x192 : S1x192.Broadcasts S2000x192
  slices_S2000x192_o0_0_S2000x64 : S2000x192.Slices ![0, 0] S2000x64
  slices_S2000x192_o0_64_S2000x64 : S2000x192.Slices ![0, 64] S2000x64
  slices_S2000x192_o0_128_S2000x64 : S2000x192.Slices ![0, 128] S2000x64
  slices_S5x64x64_S1x64x64_1_0_0 : S5x64x64.Slices ![1, 0, 0] S1x64x64
  slices_S5x64x64_S1x64x64_2_0_0 : S5x64x64.Slices ![2, 0, 0] S1x64x64
  slices_S5x64x64_S1x64x64_3_0_0 : S5x64x64.Slices ![3, 0, 0] S1x64x64
  slices_S5x64x64_S1x64x64_4_0_0 : S5x64x64.Slices ![4, 0, 0] S1x64x64
  dot_S2000x64_S64x64_S2000x64_1_0_0_1_n_n_wf : DotDims.WF S2000x64 S64x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x192_S2000x192_1_0_0_1_n_n_wf : DotDims.WF S2000x64 S64x192 S2000x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x192.size a ≤ S64x192.size a
  hwx1_2 : ∀ i : grid1.Coords, EltTy.bits .f32 = 32 ∨ (Rect.block (s := S64x192) S64x192.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x192.size a ≤ S64x192.size a
  hwx1_3 : ∀ i : grid1.Coords, EltTy.bits .f32 = 32 ∨ (Rect.block (s := S64x192) S64x192.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x192.size a ≤ S1x192.size a
  hwx1_4 : ∀ i : grid1.Coords, EltTy.bits .f32 = 32 ∨ (Rect.block (s := S1x192) S1x192.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x192.size a ≤ S1x192.size a
  hwx1_5 : ∀ i : grid1.Coords, EltTy.bits .f32 = 32 ∨ (Rect.block (s := S1x192) S1x192.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S50000x64.size a
  hwx1_6 : ∀ i : grid1.Coords, EltTy.bits .f32 = 32 ∨ (Rect.block (s := S50000x64) S2000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x192.size a ≤ S64x192.size a
  hwx3_2 : ∀ i : grid3.Coords, EltTy.bits .f32 = 32 ∨ (Rect.block (s := S64x192) S64x192.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x192.size a ≤ S64x192.size a
  hwx3_3 : ∀ i : grid3.Coords, EltTy.bits .f32 = 32 ∨ (Rect.block (s := S64x192) S64x192.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x192.size a ≤ S1x192.size a
  hwx3_4 : ∀ i : grid3.Coords, EltTy.bits .f32 = 32 ∨ (Rect.block (s := S1x192) S1x192.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x192.size a ≤ S1x192.size a
  hwx3_5 : ∀ i : grid3.Coords, EltTy.bits .f32 = 32 ∨ (Rect.block (s := S1x192) S1x192.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x64.size a ≤ S50000x64.size a
  hwx3_6 : ∀ i : grid3.Coords, EltTy.bits .f32 = 32 ∨ (Rect.block (s := S50000x64) S2000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S50000x64.size a
  hwx4_2 : ∀ i : grid4.Coords, EltTy.bits .f32 = 32 ∨ (Rect.block (s := S50000x64) S2000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S50000x64.size a
  hwx5_1 : ∀ i : grid5.Coords, EltTy.bits .f32 = 32 ∨ (Rect.block (s := S50000x64) S2000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x192.size a ≤ S64x192.size a
  hwx5_2 : ∀ i : grid5.Coords, EltTy.bits .f32 = 32 ∨ (Rect.block (s := S64x192) S64x192.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x192.size a ≤ S64x192.size a
  hwx5_3 : ∀ i : grid5.Coords, EltTy.bits .f32 = 32 ∨ (Rect.block (s := S64x192) S64x192.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x192.size a ≤ S1x192.size a
  hwx5_4 : ∀ i : grid5.Coords, EltTy.bits .f32 = 32 ∨ (Rect.block (s := S1x192) S1x192.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x192.size a ≤ S1x192.size a
  hwx5_5 : ∀ i : grid5.Coords, EltTy.bits .f32 = 32 ∨ (Rect.block (s := S1x192) S1x192.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x64.size a ≤ S50000x64.size a
  hwx5_6 : ∀ i : grid5.Coords, EltTy.bits .f32 = 32 ∨ (Rect.block (s := S50000x64) S2000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x64.size a ≤ S50000x64.size a
  hwx6_2 : ∀ i : grid6.Coords, EltTy.bits .f32 = 32 ∨ (Rect.block (s := S50000x64) S2000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S50000x64.size a
  hwx7_0 : ∀ i : grid7.Coords, EltTy.bits .f32 = 32 ∨ (Rect.block (s := S50000x64) S2000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x64.size a ≤ S50000x64.size a
  hwx7_1 : ∀ i : grid7.Coords, EltTy.bits .f32 = 32 ∨ (Rect.block (s := S50000x64) S2000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x192.size a ≤ S64x192.size a
  hwx7_2 : ∀ i : grid7.Coords, EltTy.bits .f32 = 32 ∨ (Rect.block (s := S64x192) S64x192.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x192.size a ≤ S64x192.size a
  hwx7_3 : ∀ i : grid7.Coords, EltTy.bits .f32 = 32 ∨ (Rect.block (s := S64x192) S64x192.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x192.size a ≤ S1x192.size a
  hwx7_4 : ∀ i : grid7.Coords, EltTy.bits .f32 = 32 ∨ (Rect.block (s := S1x192) S1x192.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x192.size a ≤ S1x192.size a
  hwx7_5 : ∀ i : grid7.Coords, EltTy.bits .f32 = 32 ∨ (Rect.block (s := S1x192) S1x192.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S2000x64.size a ≤ S50000x64.size a
  hwx7_6 : ∀ i : grid7.Coords, EltTy.bits .f32 = 32 ∨ (Rect.block (s := S50000x64) S2000x64.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x64.size a ≤ S50000x64.size a
  hwx8_0 : ∀ i : grid8.Coords, EltTy.bits .f32 = 32 ∨ (Rect.block (s := S50000x64) S2000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x64.size a ≤ S50000x64.size a
  hwx8_2 : ∀ i : grid8.Coords, EltTy.bits .f32 = 32 ∨ (Rect.block (s := S50000x64) S2000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x64.size a ≤ S50000x64.size a
  hwx9_0 : ∀ i : grid9.Coords, EltTy.bits .f32 = 32 ∨ (Rect.block (s := S50000x64) S2000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x64.size a ≤ S50000x64.size a
  hwx9_1 : ∀ i : grid9.Coords, EltTy.bits .f32 = 32 ∨ (Rect.block (s := S50000x64) S2000x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64x192.size a ≤ S64x192.size a
  hwx9_2 : ∀ i : grid9.Coords, EltTy.bits .f32 = 32 ∨ (Rect.block (s := S64x192) S64x192.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64x192.size a ≤ S64x192.size a
  hwx9_3 : ∀ i : grid9.Coords, EltTy.bits .f32 = 32 ∨ (Rect.block (s := S64x192) S64x192.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x192.size a ≤ S1x192.size a
  hwx9_4 : ∀ i : grid9.Coords, EltTy.bits .f32 = 32 ∨ (Rect.block (s := S1x192) S1x192.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x192.size a ≤ S1x192.size a
  hwx9_5 : ∀ i : grid9.Coords, EltTy.bits .f32 = 32 ∨ (Rect.block (s := S1x192) S1x192.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S2000x64.size a ≤ S50000x64.size a
  hwx9_6 : ∀ i : grid9.Coords, EltTy.bits .f32 = 32 ∨ (Rect.block (s := S50000x64) S2000x64.size (cc9_transform_6 i) (hinb9_6 i)).WholeWords (EltTy.packing .f32)

variable [Facts₀]

def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x192_S2000x192_1_0_0_1_n_n : DotDims S2000x64 S64x192 S2000x192 where
  lhsContracting := [1]
  rhsContracting := [0]
  lhsNonContracting := [0]
  rhsNonContracting := [1]
  lhsBatch := []
  rhsBatch := []
  wf := dot_S2000x64_S64x192_S2000x192_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v20) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S64x192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S64x192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x192.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v21) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v34) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S64x192.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v5) S64x192.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v6) S1x192.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v7) S1x192.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v35) S2000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v35) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v37) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v38) S2000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v48) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v35) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v4) S64x192.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v5) S64x192.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v6) S1x192.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v7) S1x192.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v49) S2000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v49) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v51) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v52) S2000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v62) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v49) S2000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v4) S64x192.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v5) S64x192.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v6) S1x192.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v7) S1x192.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v63) S2000x64.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v63) S2000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v65) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v66) S2000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v76) S2000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v63) S2000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v4) S64x192.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v5) S64x192.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v6) S1x192.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v7) S1x192.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v77) S2000x64.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S5x64x64 : Shape := ⟨3, ![5, 64, 64]⟩
abbrev S192x64 : Shape := ⟨2, ![192, 64]⟩
abbrev S192 : Shape := ⟨1, ![192]⟩
abbrev S1x800000 : Shape := ⟨2, ![1, 800000]⟩
abbrev S800000 : Shape := ⟨1, ![800000]⟩
abbrev S1x64x64 : Shape := ⟨3, ![1, 64, 64]⟩
abbrev S64x64 : Shape := ⟨2, ![64, 64]⟩
abbrev S_ : Shape := ⟨0, ![]⟩
abbrev S800000x1 : Shape := ⟨2, ![800000, 1]⟩
abbrev S800000x64 : Shape := ⟨2, ![800000, 64]⟩
abbrev S64x192 : Shape := ⟨2, ![64, 192]⟩
abbrev S50000x192 : Shape := ⟨2, ![50000, 192]⟩
abbrev S1x192 : Shape := ⟨2, ![1, 192]⟩

abbrev nBuf : Space → Nat
  | .hbm => 306
  | .vmem => 0
  | .smem => 0
  | _ => 0

abbrev hbmTy0_0 (i : Nat) : BufTy := match i % 128 with
  | 0 => ⟨S50000x64, .f32⟩
  | 1 => ⟨S2x800000, .i32⟩
  | 2 => ⟨S5x64x64, .f32⟩
  | 3 => ⟨S192x64, .f32⟩
  | 4 => ⟨S192x64, .f32⟩
  | 5 => ⟨S192, .f32⟩
  | 6 => ⟨S192, .f32⟩
  | 7 => ⟨S1x800000, .i32⟩
  | 8 => ⟨S800000, .i32⟩
  | 9 => ⟨S1x800000, .i32⟩
  | 10 => ⟨S800000, .i32⟩
  | 11 => ⟨S1x64x64, .f32⟩
  | 12 => ⟨S64x64, .f32⟩
  | 13 => ⟨S50000x64, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x64, .f32⟩
  | 23 => ⟨S_, .f32⟩
  | 24 => ⟨S50000x64, .f32⟩
  | 25 => ⟨S800000x1, .i32⟩
  | 26 => ⟨S50000x64, .f32⟩
  | 27 => ⟨S64x192, .f32⟩
  | 28 => ⟨S50000x192, .f32⟩
  | 29 => ⟨S1x192, .f32⟩
  | 30 => ⟨S50000x192, .f32⟩
  | 31 => ⟨S50000x192, .f32⟩
  | 32 => ⟨S64x192, .f32⟩
  | 33 => ⟨S50000x192, .f32⟩
  | 34 => ⟨S1x192, .f32⟩
  | 35 => ⟨S50000x192, .f32⟩
  | 36 => ⟨S50000x192, .f32⟩
  | 37 => ⟨S50000x64, .f32⟩
  | 38 => ⟨S50000x64, .f32⟩
  | 39 => ⟨S50000x64, .f32⟩
  | 40 => ⟨S50000x64, .f32⟩
  | 41 => ⟨S50000x64, .f32⟩
  | 42 => ⟨S50000x64, .f32⟩
  | 43 => ⟨S50000x64, .f32⟩
  | 44 => ⟨S50000x64, .f32⟩
  | 45 => ⟨S50000x64, .f32⟩
  | 46 => ⟨S_, .f32⟩
  | 47 => ⟨S50000x64, .f32⟩
  | 48 => ⟨S50000x64, .f32⟩
  | 49 => ⟨S_, .f32⟩
  | 50 => ⟨S50000x64, .f32⟩
  | 51 => ⟨S50000x64, .f32⟩
  | 52 => ⟨S50000x64, .f32⟩
  | 53 => ⟨S50000x64, .f32⟩
  | 54 => ⟨S50000x64, .f32⟩
  | 55 => ⟨S_, .f32⟩
  | 56 => ⟨S50000x64, .f32⟩
  | 57 => ⟨S50000x64, .f32⟩
  | 58 => ⟨S_, .f32⟩
  | 59 => ⟨S50000x64, .f32⟩
  | 60 => ⟨S50000x64, .f32⟩
  | 61 => ⟨S50000x64, .f32⟩
  | 62 => ⟨S50000x64, .f32⟩
  | 63 => ⟨S50000x64, .f32⟩
  | 64 => ⟨S_, .f32⟩
  | 65 => ⟨S50000x64, .f32⟩
  | 66 => ⟨S50000x64, .f32⟩
  | 67 => ⟨S50000x64, .f32⟩
  | 68 => ⟨S50000x64, .f32⟩
  | 69 => ⟨S50000x64, .f32⟩
  | 70 => ⟨S1x64x64, .f32⟩
  | 71 => ⟨S64x64, .f32⟩
  | 72 => ⟨S50000x64, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x64, .f32⟩
  | 82 => ⟨S_, .f32⟩
  | 83 => ⟨S50000x64, .f32⟩
  | 84 => ⟨S800000x1, .i32⟩
  | 85 => ⟨S50000x64, .f32⟩
  | 86 => ⟨S64x192, .f32⟩
  | 87 => ⟨S50000x192, .f32⟩
  | 88 => ⟨S1x192, .f32⟩
  | 89 => ⟨S50000x192, .f32⟩
  | 90 => ⟨S50000x192, .f32⟩
  | 91 => ⟨S64x192, .f32⟩
  | 92 => ⟨S50000x192, .f32⟩
  | 93 => ⟨S1x192, .f32⟩
  | 94 => ⟨S50000x192, .f32⟩
  | 95 => ⟨S50000x192, .f32⟩
  | 96 => ⟨S50000x64, .f32⟩
  | 97 => ⟨S50000x64, .f32⟩
  | 98 => ⟨S50000x64, .f32⟩
  | 99 => ⟨S50000x64, .f32⟩
  | 100 => ⟨S50000x64, .f32⟩
  | 101 => ⟨S50000x64, .f32⟩
  | 102 => ⟨S50000x64, .f32⟩
  | 103 => ⟨S50000x64, .f32⟩
  | 104 => ⟨S50000x64, .f32⟩
  | 105 => ⟨S_, .f32⟩
  | 106 => ⟨S50000x64, .f32⟩
  | 107 => ⟨S50000x64, .f32⟩
  | 108 => ⟨S_, .f32⟩
  | 109 => ⟨S50000x64, .f32⟩
  | 110 => ⟨S50000x64, .f32⟩
  | 111 => ⟨S50000x64, .f32⟩
  | 112 => ⟨S50000x64, .f32⟩
  | 113 => ⟨S50000x64, .f32⟩
  | 114 => ⟨S_, .f32⟩
  | 115 => ⟨S50000x64, .f32⟩
  | 116 => ⟨S50000x64, .f32⟩
  | 117 => ⟨S_, .f32⟩
  | 118 => ⟨S50000x64, .f32⟩
  | 119 => ⟨S50000x64, .f32⟩
  | 120 => ⟨S50000x64, .f32⟩
  | 121 => ⟨S50000x64, .f32⟩
  | 122 => ⟨S50000x64, .f32⟩
  | 123 => ⟨S_, .f32⟩
  | 124 => ⟨S50000x64, .f32⟩
  | 125 => ⟨S50000x64, .f32⟩
  | 126 => ⟨S50000x64, .f32⟩
  | 127 => ⟨S50000x64, .f32⟩
  | _ => ⟨S50000x64, .f32⟩

abbrev hbmTy0_1 (i : Nat) : BufTy := match i % 128 with
  | 0 => ⟨S50000x64, .f32⟩
  | 1 => ⟨S1x64x64, .f32⟩
  | 2 => ⟨S64x64, .f32⟩
  | 3 => ⟨S50000x64, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x64, .f32⟩
  | 13 => ⟨S_, .f32⟩
  | 14 => ⟨S50000x64, .f32⟩
  | 15 => ⟨S800000x1, .i32⟩
  | 16 => ⟨S50000x64, .f32⟩
  | 17 => ⟨S64x192, .f32⟩
  | 18 => ⟨S50000x192, .f32⟩
  | 19 => ⟨S1x192, .f32⟩
  | 20 => ⟨S50000x192, .f32⟩
  | 21 => ⟨S50000x192, .f32⟩
  | 22 => ⟨S64x192, .f32⟩
  | 23 => ⟨S50000x192, .f32⟩
  | 24 => ⟨S1x192, .f32⟩
  | 25 => ⟨S50000x192, .f32⟩
  | 26 => ⟨S50000x192, .f32⟩
  | 27 => ⟨S50000x64, .f32⟩
  | 28 => ⟨S50000x64, .f32⟩
  | 29 => ⟨S50000x64, .f32⟩
  | 30 => ⟨S50000x64, .f32⟩
  | 31 => ⟨S50000x64, .f32⟩
  | 32 => ⟨S50000x64, .f32⟩
  | 33 => ⟨S50000x64, .f32⟩
  | 34 => ⟨S50000x64, .f32⟩
  | 35 => ⟨S50000x64, .f32⟩
  | 36 => ⟨S_, .f32⟩
  | 37 => ⟨S50000x64, .f32⟩
  | 38 => ⟨S50000x64, .f32⟩
  | 39 => ⟨S_, .f32⟩
  | 40 => ⟨S50000x64, .f32⟩
  | 41 => ⟨S50000x64, .f32⟩
  | 42 => ⟨S50000x64, .f32⟩
  | 43 => ⟨S50000x64, .f32⟩
  | 44 => ⟨S50000x64, .f32⟩
  | 45 => ⟨S_, .f32⟩
  | 46 => ⟨S50000x64, .f32⟩
  | 47 => ⟨S50000x64, .f32⟩
  | 48 => ⟨S_, .f32⟩
  | 49 => ⟨S50000x64, .f32⟩
  | 50 => ⟨S50000x64, .f32⟩
  | 51 => ⟨S50000x64, .f32⟩
  | 52 => ⟨S50000x64, .f32⟩
  | 53 => ⟨S50000x64, .f32⟩
  | 54 => ⟨S_, .f32⟩
  | 55 => ⟨S50000x64, .f32⟩
  | 56 => ⟨S50000x64, .f32⟩
  | 57 => ⟨S50000x64, .f32⟩
  | 58 => ⟨S50000x64, .f32⟩
  | 59 => ⟨S50000x64, .f32⟩
  | 60 => ⟨S1x64x64, .f32⟩
  | 61 => ⟨S64x64, .f32⟩
  | 62 => ⟨S50000x64, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x64, .f32⟩
  | 72 => ⟨S_, .f32⟩
  | 73 => ⟨S50000x64, .f32⟩
  | 74 => ⟨S800000x1, .i32⟩
  | 75 => ⟨S50000x64, .f32⟩
  | 76 => ⟨S64x192, .f32⟩
  | 77 => ⟨S50000x192, .f32⟩
  | 78 => ⟨S1x192, .f32⟩
  | 79 => ⟨S50000x192, .f32⟩
  | 80 => ⟨S50000x192, .f32⟩
  | 81 => ⟨S64x192, .f32⟩
  | 82 => ⟨S50000x192, .f32⟩
  | 83 => ⟨S1x192, .f32⟩
  | 84 => ⟨S50000x192, .f32⟩
  | 85 => ⟨S50000x192, .f32⟩
  | 86 => ⟨S50000x64, .f32⟩
  | 87 => ⟨S50000x64, .f32⟩
  | 88 => ⟨S50000x64, .f32⟩
  | 89 => ⟨S50000x64, .f32⟩
  | 90 => ⟨S50000x64, .f32⟩
  | 91 => ⟨S50000x64, .f32⟩
  | 92 => ⟨S50000x64, .f32⟩
  | 93 => ⟨S50000x64, .f32⟩
  | 94 => ⟨S50000x64, .f32⟩
  | 95 => ⟨S_, .f32⟩
  | 96 => ⟨S50000x64, .f32⟩
  | 97 => ⟨S50000x64, .f32⟩
  | 98 => ⟨S_, .f32⟩
  | 99 => ⟨S50000x64, .f32⟩
  | 100 => ⟨S50000x64, .f32⟩
  | 101 => ⟨S50000x64, .f32⟩
  | 102 => ⟨S50000x64, .f32⟩
  | 103 => ⟨S50000x64, .f32⟩
  | 104 => ⟨S_, .f32⟩
  | 105 => ⟨S50000x64, .f32⟩
  | 106 => ⟨S50000x64, .f32⟩
  | 107 => ⟨S_, .f32⟩
  | 108 => ⟨S50000x64, .f32⟩
  | 109 => ⟨S50000x64, .f32⟩
  | 110 => ⟨S50000x64, .f32⟩
  | 111 => ⟨S50000x64, .f32⟩
  | 112 => ⟨S50000x64, .f32⟩
  | 113 => ⟨S_, .f32⟩
  | 114 => ⟨S50000x64, .f32⟩
  | 115 => ⟨S50000x64, .f32⟩
  | 116 => ⟨S50000x64, .f32⟩
  | 117 => ⟨S50000x64, .f32⟩
  | 118 => ⟨S50000x64, .f32⟩
  | 119 => ⟨S1x64x64, .f32⟩
  | 120 => ⟨S64x64, .f32⟩
  | 121 => ⟨S50000x64, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x64, .f32⟩

abbrev hbmTy0_2 (i : Nat) : BufTy := match i % 128 with
  | 0 => ⟨S800000, .i32⟩
  | 1 => ⟨S800000x1, .i32⟩
  | 2 => ⟨S800000x64, .f32⟩
  | 3 => ⟨S_, .f32⟩
  | 4 => ⟨S50000x64, .f32⟩
  | 5 => ⟨S800000x1, .i32⟩
  | 6 => ⟨S50000x64, .f32⟩
  | 7 => ⟨S64x192, .f32⟩
  | 8 => ⟨S50000x192, .f32⟩
  | 9 => ⟨S1x192, .f32⟩
  | 10 => ⟨S50000x192, .f32⟩
  | 11 => ⟨S50000x192, .f32⟩
  | 12 => ⟨S64x192, .f32⟩
  | 13 => ⟨S50000x192, .f32⟩
  | 14 => ⟨S1x192, .f32⟩
  | 15 => ⟨S50000x192, .f32⟩
  | 16 => ⟨S50000x192, .f32⟩
  | 17 => ⟨S50000x64, .f32⟩
  | 18 => ⟨S50000x64, .f32⟩
  | 19 => ⟨S50000x64, .f32⟩
  | 20 => ⟨S50000x64, .f32⟩
  | 21 => ⟨S50000x64, .f32⟩
  | 22 => ⟨S50000x64, .f32⟩
  | 23 => ⟨S50000x64, .f32⟩
  | 24 => ⟨S50000x64, .f32⟩
  | 25 => ⟨S50000x64, .f32⟩
  | 26 => ⟨S_, .f32⟩
  | 27 => ⟨S50000x64, .f32⟩
  | 28 => ⟨S50000x64, .f32⟩
  | 29 => ⟨S_, .f32⟩
  | 30 => ⟨S50000x64, .f32⟩
  | 31 => ⟨S50000x64, .f32⟩
  | 32 => ⟨S50000x64, .f32⟩
  | 33 => ⟨S50000x64, .f32⟩
  | 34 => ⟨S50000x64, .f32⟩
  | 35 => ⟨S_, .f32⟩
  | 36 => ⟨S50000x64, .f32⟩
  | 37 => ⟨S50000x64, .f32⟩
  | 38 => ⟨S_, .f32⟩
  | 39 => ⟨S50000x64, .f32⟩
  | 40 => ⟨S50000x64, .f32⟩
  | 41 => ⟨S50000x64, .f32⟩
  | 42 => ⟨S50000x64, .f32⟩
  | 43 => ⟨S50000x64, .f32⟩
  | 44 => ⟨S_, .f32⟩
  | 45 => ⟨S50000x64, .f32⟩
  | 46 => ⟨S50000x64, .f32⟩
  | 47 => ⟨S50000x64, .f32⟩
  | 48 => ⟨S50000x64, .f32⟩
  | 49 => ⟨S50000x64, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_1 : Ref sig .tc := ⟨.hbm, 46, rfl⟩
abbrev main_v36 : Ref sig .tc := ⟨.hbm, 47, rfl⟩
abbrev main_v37 : Ref sig .tc := ⟨.hbm, 48, rfl⟩
abbrev main_cst_2 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_3 : Ref sig .tc := ⟨.hbm, 55, rfl⟩
abbrev main_v43 : Ref sig .tc := ⟨.hbm, 56, rfl⟩
abbrev main_v44 : Ref sig .tc := ⟨.hbm, 57, rfl⟩
abbrev main_cst_4 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_c_6 : Ref sig .tc := ⟨.hbm, 73, rfl⟩
abbrev main_v58 : Ref sig .tc := ⟨.hbm, 74, rfl⟩
abbrev main_v59 : Ref sig .tc := ⟨.hbm, 75, rfl⟩
abbrev main_c_7 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_8 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_cst_9 : Ref sig .tc := ⟨.hbm, 105, rfl⟩
abbrev main_v87 : Ref sig .tc := ⟨.hbm, 106, rfl⟩
abbrev main_v88 : Ref sig .tc := ⟨.hbm, 107, rfl⟩
abbrev main_cst_10 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_cst_11 : Ref sig .tc := ⟨.hbm, 114, rfl⟩
abbrev main_v94 : Ref sig .tc := ⟨.hbm, 115, rfl⟩
abbrev main_v95 : Ref sig .tc := ⟨.hbm, 116, rfl⟩
abbrev main_cst_12 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_cst_13 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_c_14 : Ref sig .tc := ⟨.hbm, 132, rfl⟩
abbrev main_v109 : Ref sig .tc := ⟨.hbm, 133, rfl⟩
abbrev main_v110 : Ref sig .tc := ⟨.hbm, 134, rfl⟩
abbrev main_c_15 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_cst_16 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_cst_17 : Ref sig .tc := ⟨.hbm, 164, rfl⟩
abbrev main_v138 : Ref sig .tc := ⟨.hbm, 165, rfl⟩
abbrev main_v139 : Ref sig .tc := ⟨.hbm, 166, rfl⟩
abbrev main_cst_18 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_cst_19 : Ref sig .tc := ⟨.hbm, 173, rfl⟩
abbrev main_v145 : Ref sig .tc := ⟨.hbm, 174, rfl⟩
abbrev main_v146 : Ref sig .tc := ⟨.hbm, 175, rfl⟩
abbrev main_cst_20 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_cst_21 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_c_22 : Ref sig .tc := ⟨.hbm, 191, rfl⟩
abbrev main_v160 : Ref sig .tc := ⟨.hbm, 192, rfl⟩
abbrev main_v161 : Ref sig .tc := ⟨.hbm, 193, rfl⟩
abbrev main_c_23 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_cst_24 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_cst_25 : Ref sig .tc := ⟨.hbm, 223, rfl⟩
abbrev main_v189 : Ref sig .tc := ⟨.hbm, 224, rfl⟩
abbrev main_v190 : Ref sig .tc := ⟨.hbm, 225, rfl⟩
abbrev main_cst_26 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_cst_27 : Ref sig .tc := ⟨.hbm, 232, rfl⟩
abbrev main_v196 : Ref sig .tc := ⟨.hbm, 233, rfl⟩
abbrev main_v197 : Ref sig .tc := ⟨.hbm, 234, rfl⟩
abbrev main_cst_28 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_cst_29 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_c_30 : Ref sig .tc := ⟨.hbm, 250, rfl⟩
abbrev main_v211 : Ref sig .tc := ⟨.hbm, 251, rfl⟩
abbrev main_v212 : Ref sig .tc := ⟨.hbm, 252, rfl⟩
abbrev main_c_31 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_cst_32 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_v227 : Ref sig .tc := ⟨.hbm, 269, rfl⟩
abbrev main_v228 : Ref sig .tc := ⟨.hbm, 270, rfl⟩
abbrev main_v229 : Ref sig .tc := ⟨.hbm, 271, rfl⟩
abbrev main_v230 : Ref sig .tc := ⟨.hbm, 272, rfl⟩
abbrev main_v231 : Ref sig .tc := ⟨.hbm, 273, rfl⟩
abbrev main_v232 : Ref sig .tc := ⟨.hbm, 274, rfl⟩
abbrev main_v233 : Ref sig .tc := ⟨.hbm, 275, rfl⟩
abbrev main_v234 : Ref sig .tc := ⟨.hbm, 276, rfl⟩
abbrev main_v235 : Ref sig .tc := ⟨.hbm, 277, rfl⟩
abbrev main_v236 : Ref sig .tc := ⟨.hbm, 278, rfl⟩
abbrev main_v237 : Ref sig .tc := ⟨.hbm, 279, rfl⟩
abbrev main_v238 : Ref sig .tc := ⟨.hbm, 280, rfl⟩
abbrev main_v239 : Ref sig .tc := ⟨.hbm, 281, rfl⟩
abbrev main_cst_33 : Ref sig .tc := ⟨.hbm, 282, rfl⟩
abbrev main_v240 : Ref sig .tc := ⟨.hbm, 283, rfl⟩
abbrev main_v241 : Ref sig .tc := ⟨.hbm, 284, rfl⟩
abbrev main_cst_34 : Ref sig .tc := ⟨.hbm, 285, rfl⟩
abbrev main_v242 : Ref sig .tc := ⟨.hbm, 286, rfl⟩
abbrev main_v243 : Ref sig .tc := ⟨.hbm, 287, rfl⟩
abbrev main_v244 : Ref sig .tc := ⟨.hbm, 288, rfl⟩
abbrev main_v245 : Ref sig .tc := ⟨.hbm, 289, rfl⟩
abbrev main_v246 : Ref sig .tc := ⟨.hbm, 290, rfl⟩
abbrev main_cst_35 : Ref sig .tc := ⟨.hbm, 291, rfl⟩
abbrev main_v247 : Ref sig .tc := ⟨.hbm, 292, rfl⟩
abbrev main_v248 : Ref sig .tc := ⟨.hbm, 293, rfl⟩
abbrev main_cst_36 : Ref sig .tc := ⟨.hbm, 294, rfl⟩
abbrev main_v249 : Ref sig .tc := ⟨.hbm, 295, rfl⟩
abbrev main_v250 : Ref sig .tc := ⟨.hbm, 296, rfl⟩
abbrev main_v251 : Ref sig .tc := ⟨.hbm, 297, rfl⟩
abbrev main_v252 : Ref sig .tc := ⟨.hbm, 298, rfl⟩
abbrev main_v253 : Ref sig .tc := ⟨.hbm, 299, rfl⟩
abbrev main_cst_37 : Ref sig .tc := ⟨.hbm, 300, rfl⟩
abbrev main_v254 : Ref sig .tc := ⟨.hbm, 301, rfl⟩
abbrev main_v255 : Ref sig .tc := ⟨.hbm, 302, rfl⟩
abbrev main_v256 : Ref sig .tc := ⟨.hbm, 303, rfl⟩
abbrev main_v257 : Ref sig .tc := ⟨.hbm, 304, rfl⟩
abbrev main_v258 : Ref sig .tc := ⟨.hbm, 305, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S5x64x64_S1x64x64_0_0_0 : S5x64x64.Slices ![0, 0, 0] S1x64x64
  shapeCasts_S1x64x64_S64x64 : S1x64x64.ShapeCasts S64x64
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  transposes_S192x64_S64x192_1_0 : S192x64.Transposes [1, 0] S64x192
  bcast_S192_S1x192_1 : S192.BroadcastsInDim S1x192 (![1] : Fin 1 → Fin S1x192.rank)
  bcast_S1x192_S50000x192_0_1 : S1x192.BroadcastsInDim S50000x192 (![0, 1] : Fin 2 → Fin S50000x192.rank)
  slices_S50000x192_S50000x64_0_0 : S50000x192.Slices ![0, 0] S50000x64
  slices_S50000x192_S50000x64_0_64 : S50000x192.Slices ![0, 64] S50000x64
  slices_S50000x192_S50000x64_0_128 : S50000x192.Slices ![0, 128] S50000x64
  slices_S5x64x64_S1x64x64_1_0_0 : S5x64x64.Slices ![1, 0, 0] S1x64x64
  slices_S5x64x64_S1x64x64_2_0_0 : S5x64x64.Slices ![2, 0, 0] S1x64x64
  slices_S5x64x64_S1x64x64_3_0_0 : S5x64x64.Slices ![3, 0, 0] S1x64x64
  slices_S5x64x64_S1x64x64_4_0_0 : S5x64x64.Slices ![4, 0, 0] S1x64x64
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x192_S50000x192_1_0_0_1_n_n_wf : DotDims.WF S50000x64 S64x192 S50000x192 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x192_S50000x192_1_0_0_1_n_n : DotDims S50000x64 S64x192 S50000x192 where
  lhsContracting := [1]
  rhsContracting := [0]
  lhsNonContracting := [0]
  rhsNonContracting := [1]
  lhsBatch := []
  rhsBatch := []
  wf := dot_S50000x64_S64x192_S50000x192_1_0_0_1_n_n_wf

class Facts : Prop extends Facts₀ where

variable [Facts]
-- ==== Proof.KernelRun.lean ====
/-
  The idealized kernel program's run, with its RESULT named.

  The program is ten kernel regions among stretches of host operations. Its run is read off segment by segment: after
  the last region every unscoped buffer of the core holds the contents of the last boundary of the fold through the
  program (each host stretch applies its operations to the buffers, each region replaces its output array by what its
  write-backs leave and keeps every other buffer). So every weakly fair execution terminates, nothing faults, the seven
  argument arrays end as launched, and the result buffer ends at the fold's last contents of that buffer.
-/
import proofs.«134775_j74517682586461_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last boundary's
    contents of the fold through the program, and the argument arrays end as launched. -/
theorem run_main : θ_run defs (onTc (τ := τ) (main (F := F))) ⟨m, fun _ => 0, ρ⟩ (fun r => ∀ c : Dev nD,
      r.2.mem ((c.tc : Thread nD τ).loc main_v77) = W20 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v77 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c)⟩)

end Cert.KernelIdeal.Run

end
-- ==== Proof.Spec.lean ====
/-
  The mathematics of one message-passing layer and of the five-layer network, as whole-array functions.

  A layer takes the node states h (50000 × 64), one 64 × 64 message matrix W, the edge list (2 × 800000, row 0
  the sources, row 1 the destinations), and the GRU parameters (w_ih, w_hh : 192 × 64; b_ih, b_hh : 192):
    m    = h · W                                        (a matrix product)
    agg  = Σ over edges e with dst e = i of m[src e]    (a row gather followed by an accumulating row scatter into zeros)
    gi   = agg · w_ihᵀ + b_ih,   gh = h · w_hhᵀ + b_hh   (both 50000 × 192; columns 0–63 the reset gate, 64–127 the update
                                                        gate, 128–191 the candidate)
    r    = 1 / (1 + exp (−(gi_r + gh_r))),  z = 1 / (1 + exp (−(gi_z + gh_z)))
    n    = tanh (gi_n + r · gh_n)
    h'   = (1 − z) · n + z · h.
  Everything is written with the array operations themselves (matrix product, gather, scatter-add, slices, pointwise
  operations), so that two programs applying the same operations to equal arrays are equal without opening any of them.
-/
import proofs.«134775_j74517682586461_1_alg».proof.ReferenceIdeal
import proofs.«134775_j74517682586461_1_alg».proof.Proof.Gen.ReferenceIdeal
import Idealize.ShloMosaic.PureOps.Ideal

noncomputable section

namespace Cert.GGNN

open Cert.ReferenceIdeal Cert.ReferenceIdeal.Gen Idealize.ShloMosaic

variable {F : FTy → Type} [FloatOps F]

/-- The array of ones, 50000 × 64. -/
def ones : FVec F S50000x64 .f32 := broadcastInDim S50000x64 ![] bcast_S_S50000x64 (constant S_ .f32 0x3F800000#32)

/-- Row `r` of the edge list as a vector of 800000 node numbers. -/
def edgeRow0 (ei : Vec F S2x800000 .i32) : Vec F S800000 .i32 :=
  shapeCast _ (extractStridedSlice S1x800000 ![0, 0] ei slices_S2x800000_S1x800000_0_0) shapeCasts_S1x800000_S800000
def edgeRow1 (ei : Vec F S2x800000 .i32) : Vec F S800000 .i32 :=
  shapeCast _ (extractStridedSlice S1x800000 ![1, 0] ei slices_S2x800000_S1x800000_1_0) shapeCasts_S1x800000_S800000

/-- The source node numbers as the gather reads them: a negative number counts from the end (50000 is added), as a
    column 800000 × 1. -/
def srcCol (s : Vec F S800000 .i32) : Vec F S800000x1 .i32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The destination node numbers as a column 800000 × 1. -/
def dstCol (d : Vec F S800000 .i32) : Vec F S800000x1 .i32 :=
  broadcastInDim S800000x1 ![0] bcast_S800000_S800000x1_0 d

/-- Message aggregation: row `i` of the result is the sum of the rows `m[src e]` over the edges `e` into `i`. -/
def aggregate (m : FVec F S50000x64 .f32) (s d : Vec F S800000 .i32) : FVec F S50000x64 .f32 :=
  Host.scatterAdd scatter_S50000x64_S800000x1_S800000x64_1_0_0_1
    (broadcastInDim S50000x64 ![] bcast_S_S50000x64 (constant S_ .f32 0x00000000#32)) (dstCol d)
    (Host.gather gather_S50000x64_S800000x1_S800000x64_1_0_n_n_0_1_164 m (srcCol s))

/-- The message product h · W. -/
def message (h : FVec F S50000x64 .f32) (W : FVec F S64x64 .f32) : FVec F S50000x64 .f32 :=
  Host.dotGeneral dot_S50000x64_S64x64_S50000x64_1_0_0_1_n_n none h W

/-- The i-th 64 × 64 message matrix out of the stack of five. -/
def weight0 (w : FVec F S5x64x64 .f32) : FVec F S64x64 .f32 :=
  shapeCast _ (extractStridedSlice S1x64x64 ![0, 0, 0] w slices_S5x64x64_S1x64x64_0_0_0) shapeCasts_S1x64x64_S64x64
def weight1 (w : FVec F S5x64x64 .f32) : FVec F S64x64 .f32 :=
  shapeCast _ (extractStridedSlice S1x64x64 ![1, 0, 0] w slices_S5x64x64_S1x64x64_1_0_0) shapeCasts_S1x64x64_S64x64
def weight2 (w : FVec F S5x64x64 .f32) : FVec F S64x64 .f32 :=
  shapeCast _ (extractStridedSlice S1x64x64 ![2, 0, 0] w slices_S5x64x64_S1x64x64_2_0_0) shapeCasts_S1x64x64_S64x64
def weight3 (w : FVec F S5x64x64 .f32) : FVec F S64x64 .f32 :=
  shapeCast _ (extractStridedSlice S1x64x64 ![3, 0, 0] w slices_S5x64x64_S1x64x64_3_0_0) shapeCasts_S1x64x64_S64x64
def weight4 (w : FVec F S5x64x64 .f32) : FVec F S64x64 .f32 :=
  shapeCast _ (extractStridedSlice S1x64x64 ![4, 0, 0] w slices_S5x64x64_S1x64x64_4_0_0) shapeCasts_S1x64x64_S64x64

/-- One affine gate map: x · wT + (the bias row repeated down the 50000 rows); wT is 64 × 192, the bias row 1 × 192. -/
def gates (x : FVec F S50000x64 .f32) (wT : FVec F S64x192 .f32) (bRow : FVec F S1x192 .f32) : FVec F S50000x192 .f32 :=
  addf (Host.dotGeneral dot_S50000x64_S64x192_S50000x192_1_0_0_1_n_n none x wT)
    (broadcastInDim S50000x192 ![0, 1] bcast_S1x192_S50000x192_0_1 bRow)

/-- The logistic function written out: 1 / (1 + exp (−x)). -/
def sigm (x : FVec F S50000x64 .f32) : FVec F S50000x64 .f32 :=
  Host.divf ones (addf ones (Host.exp (Host.negf x)))

/-- The GRU cell from the two gate arrays and the old state: h' = (1 − z) · n + z · h. -/
def cell (gi gh : FVec F S50000x192 .f32) (h : FVec F S50000x64 .f32) : FVec F S50000x64 .f32 :=
  addf
    (mulf
      (subf ones (sigm (addf (extractStridedSlice S50000x64 ![0, 64] gi slices_S50000x192_S50000x64_0_64)
        (extractStridedSlice S50000x64 ![0, 64] gh slices_S50000x192_S50000x64_0_64))))
      (Host.tanh (addf (extractStridedSlice S50000x64 ![0, 128] gi slices_S50000x192_S50000x64_0_128)
        (mulf (sigm (addf (extractStridedSlice S50000x64 ![0, 0] gi slices_S50000x192_S50000x64_0_0)
            (extractStridedSlice S50000x64 ![0, 0] gh slices_S50000x192_S50000x64_0_0)))
          (extractStridedSlice S50000x64 ![0, 128] gh slices_S50000x192_S50000x64_0_128)))))
    (mulf
      (sigm (addf (extractStridedSlice S50000x64 ![0, 64] gi slices_S50000x192_S50000x64_0_64)
        (extractStridedSlice S50000x64 ![0, 64] gh slices_S50000x192_S50000x64_0_64)))
      h)

/-- The GRU update from the aggregated messages, the old state, the two transposed weight matrices and the two bias rows. -/
def gru (agg h : FVec F S50000x64 .f32) (wihT whhT : FVec F S64x192 .f32) (biRow bhRow : FVec F S1x192 .f32) :
    FVec F S50000x64 .f32 :=
  cell (gates agg wihT biRow) (gates h whhT bhRow) h

/-- One layer: messages, aggregation over the edges, GRU update. -/
def layer (h : FVec F S50000x64 .f32) (W : FVec F S64x64 .f32) (s d : Vec F S800000 .i32)
    (wihT whhT : FVec F S64x192 .f32) (biRow bhRow : FVec F S1x192 .f32) : FVec F S50000x64 .f32 :=
  gru (aggregate (message h W) s d) h wihT whhT biRow bhRow

/-- The five layers, each with its own message matrix. -/
def net (x : FVec F S50000x64 .f32) (w : FVec F S5x64x64 .f32) (s d : Vec F S800000 .i32)
    (wihT whhT : FVec F S64x192 .f32) (biRow bhRow : FVec F S1x192 .f32) : FVec F S50000x64 .f32 :=
  layer (layer (layer (layer (layer x (weight0 w) s d wihT whhT biRow bhRow) (weight1 w) s d wihT whhT biRow bhRow)
    (weight2 w) s d wihT whhT biRow bhRow) (weight3 w) s d wihT whhT biRow bhRow) (weight4 w) s d wihT whhT biRow bhRow

end Cert.GGNN

end
-- ==== Proof.Chain.lean ====
/-
  The idealized kernel program's result buffer, read back through the program, is the five-layer network of the
  arguments.

  The program alternates host stretches and kernel regions. Reading the fold of buffer contents boundary by boundary:
  the first stretch cuts the edge list into its two rows, transposes the two GRU weight matrices, recasts the two biases
  as rows and takes the first message matrix; then, per layer, a matmul region leaves the message product of the current
  node states, a host stretch gathers the messages along the sources and adds them up at the destinations, a GRU region
  leaves the updated node states, and a short stretch takes the next message matrix. The buffers read by every layer
  (the edge rows, the transposed weights, the bias rows, the stack of message matrices) are written once and never again,
  so each layer finds them as the first stretch left them. What each region leaves in its output array is a hypothesis
  here (one per region: the array is the message product, or the GRU update, of the region's input arrays as it finds
  them); the modules that prove those facts are separate.
-/
import proofs.«134775_j74517682586461_1_alg».proof.Proof.Gen.KernelIdeal.Frame
import proofs.«134775_j74517682586461_1_alg».proof.Proof.Spec

set_option maxRecDepth 16384

noncomputable section

namespace Cert.KernelIdeal.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## The arguments, and what the first host stretch makes of them -/

/-- The node features (50000 × 64). -/
abbrev x (c : Dev nD) : FVec Ideal S50000x64 .f32 := m ((c : Thread nD τ).loc main_arg0)
/-- The stack of five message matrices. -/
abbrev w (c : Dev nD) : FVec Ideal S5x64x64 .f32 := m ((c : Thread nD τ).loc main_arg2)
/-- The source row and the destination row of the edge list. -/
abbrev src (c : Dev nD) : Vec Ideal S800000 .i32 := Cert.GGNN.edgeRow0 (F := Ideal) (m ((c : Thread nD τ).loc main_arg1))
abbrev dst (c : Dev nD) : Vec Ideal S800000 .i32 := Cert.GGNN.edgeRow1 (F := Ideal) (m ((c : Thread nD τ).loc main_arg1))
/-- The two GRU weight matrices transposed (64 × 192). -/
abbrev wihT (c : Dev nD) : FVec Ideal S64x192 .f32 :=
  transpose S64x192 [1, 0] (m ((c : Thread nD τ).loc main_arg3)) transposes_S192x64_S64x192_1_0
abbrev whhT (c : Dev nD) : FVec Ideal S64x192 .f32 :=
  transpose S64x192 [1, 0] (m ((c : Thread nD τ).loc main_arg4)) transposes_S192x64_S64x192_1_0
/-- The two biases recast as rows (1 × 192). -/
abbrev biRow (c : Dev nD) : FVec Ideal S1x192 .f32 := shapeCast _ (m ((c : Thread nD τ).loc main_arg5)) shapeCasts_S192_S1x192
abbrev bhRow (c : Dev nD) : FVec Ideal S1x192 .f32 := shapeCast _ (m ((c : Thread nD τ).loc main_arg6)) shapeCasts_S192_S1x192

/-- Two boundaries agree on the buffers every layer reads and nothing after the first stretch writes: the stack of
    message matrices, the two edge rows, the two transposed weight matrices and the two bias rows. -/
structure Same (W W' : Valuation τ sig (Elt Ideal)) : Prop where
  arg2 : W' (Proc.devRef .tc main_arg2) = W (Proc.devRef .tc main_arg2)
  v1 : W' (Proc.devRef .tc main_v1) = W (Proc.devRef .tc main_v1)
  v3 : W' (Proc.devRef .tc main_v3) = W (Proc.devRef .tc main_v3)
  v4 : W' (Proc.devRef .tc main_v4) = W (Proc.devRef .tc main_v4)
  v5 : W' (Proc.devRef .tc main_v5) = W (Proc.devRef .tc main_v5)
  v6 : W' (Proc.devRef .tc main_v6) = W (Proc.devRef .tc main_v6)
  v7 : W' (Proc.devRef .tc main_v7) = W (Proc.devRef .tc main_v7)

theorem Same.trans {W W' W'' : Valuation τ sig (Elt Ideal)} (h : Same W W') (h' : Same W' W'') : Same W W'' :=
  ⟨h'.arg2.trans h.arg2, h'.v1.trans h.v1, h'.v3.trans h.v3, h'.v4.trans h.v4, h'.v5.trans h.v5, h'.v6.trans h.v6, h'.v7.trans h.v7⟩

/-- A host stretch none of whose operations writes one of those buffers keeps them all. -/
macro "host_keeps" ops:ident : tactic => `(tactic| (
  refine ⟨?_, ?_, ?_, ?_, ?_, ?_, ?_⟩ <;>
  exact StableHlo.after_of_forall_not_mem _ _ (List.forall_iff_forall_mem.mp (by
    simp only [$ops:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))))

/-- A region none of whose arrays is one of those buffers keeps them all. -/
macro "region_keeps" lem:ident : tactic => `(tactic| (
  refine ⟨?_, ?_, ?_, ?_, ?_, ?_, ?_⟩ <;> exact $lem:ident _ _ _ _ (by decide)))

/-! ## After the first stretch -/

theorem w1_arg0 (c : Dev nD) : W1 m ρ c (Proc.devRef .tc main_arg0) = x m c := by
  show StableHlo.after hostOps0 (W0 m ρ c) (Proc.devRef .tc main_arg0) = _
  after_results
  all_goals rfl
theorem w1_arg2 (c : Dev nD) : W1 m ρ c (Proc.devRef .tc main_arg2) = w m c := by
  show StableHlo.after hostOps0 (W0 m ρ c) (Proc.devRef .tc main_arg2) = _
  after_results
  all_goals rfl
theorem w1_v1 (c : Dev nD) : W1 m ρ c (Proc.devRef .tc main_v1) = src m c := by
  show StableHlo.after hostOps0 (W0 m ρ c) (Proc.devRef .tc main_v1) = _
  after_results
  all_goals rfl
theorem w1_v3 (c : Dev nD) : W1 m ρ c (Proc.devRef .tc main_v3) = dst m c := by
  show StableHlo.after hostOps0 (W0 m ρ c) (Proc.devRef .tc main_v3) = _
  after_results
  all_goals rfl
theorem w1_v4 (c : Dev nD) : W1 m ρ c (Proc.devRef .tc main_v4) = wihT m c := by
  show StableHlo.after hostOps0 (W0 m ρ c) (Proc.devRef .tc main_v4) = _
  after_results
  all_goals rfl
theorem w1_v5 (c : Dev nD) : W1 m ρ c (Proc.devRef .tc main_v5) = whhT m c := by
  show StableHlo.after hostOps0 (W0 m ρ c) (Proc.devRef .tc main_v5) = _
  after_results
  all_goals rfl
theorem w1_v6 (c : Dev nD) : W1 m ρ c (Proc.devRef .tc main_v6) = biRow m c := by
  show StableHlo.after hostOps0 (W0 m ρ c) (Proc.devRef .tc main_v6) = _
  after_results
  all_goals rfl
theorem w1_v7 (c : Dev nD) : W1 m ρ c (Proc.devRef .tc main_v7) = bhRow m c := by
  show StableHlo.after hostOps0 (W0 m ρ c) (Proc.devRef .tc main_v7) = _
  after_results
  all_goals rfl
theorem w1_v9 (c : Dev nD) : W1 m ρ c (Proc.devRef .tc main_v9) = Cert.GGNN.weight0 (F := Ideal) (w m c) := by
  show StableHlo.after hostOps0 (W0 m ρ c) (Proc.devRef .tc main_v9) = _
  after_results
  all_goals rfl

/-! ## What each region leaves: the hypotheses -/

/-- What each of the ten regions leaves in its output array, for any contents `V` it is entered from: a matmul region
    the message product of its two input arrays, a GRU region the GRU update of its six. -/
structure RegionFacts : Prop where
  mm0 : ∀ (V : (c : Dev nD) → (b : Ref sig .tc) → Buf (Elt Ideal) ((c : Thread nD τ).loc b)) (c : Dev nD), (dat0 V c).arrAt 2 cfg0.N = Cert.GGNN.message (F := Ideal) (V c main_arg0) (V c main_v9)
  gru1 : ∀ (V : (c : Dev nD) → (b : Ref sig .tc) → Buf (Elt Ideal) ((c : Thread nD τ).loc b)) (c : Dev nD), (dat1 V c).arrAt 6 cfg1.N = Cert.GGNN.gru (F := Ideal) (V c main_v20) (V c main_arg0) (V c main_v4) (V c main_v5) (V c main_v6) (V c main_v7)
  mm2 : ∀ (V : (c : Dev nD) → (b : Ref sig .tc) → Buf (Elt Ideal) ((c : Thread nD τ).loc b)) (c : Dev nD), (dat2 V c).arrAt 2 cfg2.N = Cert.GGNN.message (F := Ideal) (V c main_v21) (V c main_v23)
  gru3 : ∀ (V : (c : Dev nD) → (b : Ref sig .tc) → Buf (Elt Ideal) ((c : Thread nD τ).loc b)) (c : Dev nD), (dat3 V c).arrAt 6 cfg3.N = Cert.GGNN.gru (F := Ideal) (V c main_v34) (V c main_v21) (V c main_v4) (V c main_v5) (V c main_v6) (V c main_v7)
  mm4 : ∀ (V : (c : Dev nD) → (b : Ref sig .tc) → Buf (Elt Ideal) ((c : Thread nD τ).loc b)) (c : Dev nD), (dat4 V c).arrAt 2 cfg4.N = Cert.GGNN.message (F := Ideal) (V c main_v35) (V c main_v37)
  gru5 : ∀ (V : (c : Dev nD) → (b : Ref sig .tc) → Buf (Elt Ideal) ((c : Thread nD τ).loc b)) (c : Dev nD), (dat5 V c).arrAt 6 cfg5.N = Cert.GGNN.gru (F := Ideal) (V c main_v48) (V c main_v35) (V c main_v4) (V c main_v5) (V c main_v6) (V c main_v7)
  mm6 : ∀ (V : (c : Dev nD) → (b : Ref sig .tc) → Buf (Elt Ideal) ((c : Thread nD τ).loc b)) (c : Dev nD), (dat6 V c).arrAt 2 cfg6.N = Cert.GGNN.message (F := Ideal) (V c main_v49) (V c main_v51)
  gru7 : ∀ (V : (c : Dev nD) → (b : Ref sig .tc) → Buf (Elt Ideal) ((c : Thread nD τ).loc b)) (c : Dev nD), (dat7 V c).arrAt 6 cfg7.N = Cert.GGNN.gru (F := Ideal) (V c main_v62) (V c main_v49) (V c main_v4) (V c main_v5) (V c main_v6) (V c main_v7)
  mm8 : ∀ (V : (c : Dev nD) → (b : Ref sig .tc) → Buf (Elt Ideal) ((c : Thread nD τ).loc b)) (c : Dev nD), (dat8 V c).arrAt 2 cfg8.N = Cert.GGNN.message (F := Ideal) (V c main_v63) (V c main_v65)
  gru9 : ∀ (V : (c : Dev nD) → (b : Ref sig .tc) → Buf (Elt Ideal) ((c : Thread nD τ).loc b)) (c : Dev nD), (dat9 V c).arrAt 6 cfg9.N = Cert.GGNN.gru (F := Ideal) (V c main_v76) (V c main_v63) (V c main_v4) (V c main_v5) (V c main_v6) (V c main_v7)

/-! ## The node states after each layer -/

/-- The node states after layers 1 … 5 (the last is the network's result). -/
abbrev hid0 (c : Dev nD) : FVec Ideal S50000x64 .f32 := x m c
abbrev hid1 (c : Dev nD) : FVec Ideal S50000x64 .f32 :=
  Cert.GGNN.layer (F := Ideal) (hid0 m c) (Cert.GGNN.weight0 (w m c)) (src m c) (dst m c) (wihT m c) (whhT m c) (biRow m c) (bhRow m c)
abbrev hid2 (c : Dev nD) : FVec Ideal S50000x64 .f32 :=
  Cert.GGNN.layer (F := Ideal) (hid1 m c) (Cert.GGNN.weight1 (w m c)) (src m c) (dst m c) (wihT m c) (whhT m c) (biRow m c) (bhRow m c)
abbrev hid3 (c : Dev nD) : FVec Ideal S50000x64 .f32 :=
  Cert.GGNN.layer (F := Ideal) (hid2 m c) (Cert.GGNN.weight2 (w m c)) (src m c) (dst m c) (wihT m c) (whhT m c) (biRow m c) (bhRow m c)
abbrev hid4 (c : Dev nD) : FVec Ideal S50000x64 .f32 :=
  Cert.GGNN.layer (F := Ideal) (hid3 m c) (Cert.GGNN.weight3 (w m c)) (src m c) (dst m c) (wihT m c) (whhT m c) (biRow m c) (bhRow m c)
abbrev hid5 (c : Dev nD) : FVec Ideal S50000x64 .f32 :=
  Cert.GGNN.layer (F := Ideal) (hid4 m c) (Cert.GGNN.weight4 (w m c)) (src m c) (dst m c) (wihT m c) (whhT m c) (biRow m c) (bhRow m c)

/-- Up to the first boundary nothing has happened to the buffers every layer reads. -/
theorem upto_1 (c : Dev nD) : Same (W1 m ρ c) (W1 m ρ c) := ⟨rfl, rfl, rfl, rfl, rfl, rfl, rfl⟩

/-! ## Layer 1: boundaries 1 … 4 -/

theorem w1_hprev (R : RegionFacts) (c : Dev nD) : W1 m ρ c (Proc.devRef .tc main_arg0) = hid0 m c := w1_arg0 m ρ c
theorem w1_wbuf (c : Dev nD) : W1 m ρ c (Proc.devRef .tc main_v9) = Cert.GGNN.weight0 (F := Ideal) (w m c) := w1_v9 m ρ c
theorem same_1_2 (c : Dev nD) : Same (W1 m ρ c) (W2 m ρ c) := by region_keeps W2_of_ne
theorem upto_2 (c : Dev nD) : Same (W1 m ρ c) (W2 m ρ c) := (upto_1 m ρ c).trans (same_1_2 m ρ c)
/-- The matmul region leaves the message product of the node states and the layer's matrix. -/
theorem w2_mbuf (R : RegionFacts) (c : Dev nD) :
    W2 m ρ c (Proc.devRef .tc main_v10) = Cert.GGNN.message (F := Ideal) (hid0 m c) (Cert.GGNN.weight0 (w m c)) := by
  refine (W2_arr m ρ c 2).trans ?_
  rw [R.mm0]
  show Cert.GGNN.message (F := Ideal) (W1 m ρ c (Proc.devRef .tc main_arg0)) (W1 m ρ c (Proc.devRef .tc main_v9)) = _
  rw [w1_hprev m ρ R c, w1_wbuf m ρ c]
/-- … and its input array, the node states, ends as it was entered. -/
theorem w2_hprev (R : RegionFacts) (c : Dev nD) : W2 m ρ c (Proc.devRef .tc main_arg0) = hid0 m c :=
  ((W2_arr m ρ c 0).trans (((dat0 (V1 m ρ) c).arrAt_in 0 rfl _).trans (A_eq0 (V1 m ρ) c 0))).trans (w1_hprev m ρ R c)
/-- The aggregation stretch, from any contents: it keeps the node states and leaves the messages gathered along the sources
    and added up at the destinations. -/
theorem host1_hprev (W : Valuation τ sig (Elt Ideal)) :
    StableHlo.after hostOps1 W (Proc.devRef .tc main_arg0) = W (Proc.devRef .tc main_arg0) := by
  after_results
  all_goals rfl
set_option maxHeartbeats 4000000 in
theorem host1_agg (W : Valuation τ sig (Elt Ideal)) :
    StableHlo.after hostOps1 W (Proc.devRef .tc main_v20) = Cert.GGNN.aggregate (F := Ideal) (W (Proc.devRef .tc main_v10))
      (W (Proc.devRef .tc main_v1)) (W (Proc.devRef .tc main_v3)) := by
  after_results
  all_goals rfl
theorem same_2_3 (c : Dev nD) : Same (W2 m ρ c) (W3 m ρ c) := by host_keeps hostOps1
theorem upto_3 (c : Dev nD) : Same (W1 m ρ c) (W3 m ρ c) := (upto_2 m ρ c).trans (same_2_3 m ρ c)
theorem w3_hprev (R : RegionFacts) (c : Dev nD) : W3 m ρ c (Proc.devRef .tc main_arg0) = hid0 m c :=
  (host1_hprev (W2 m ρ c)).trans (w2_hprev m ρ R c)
theorem w3_agg (R : RegionFacts) (c : Dev nD) :
    W3 m ρ c (Proc.devRef .tc main_v20) = Cert.GGNN.aggregate (F := Ideal)
      (Cert.GGNN.message (F := Ideal) (hid0 m c) (Cert.GGNN.weight0 (w m c))) (src m c) (dst m c) := by
  refine (host1_agg (W2 m ρ c)).trans ?_
  rw [w2_mbuf m ρ R c, (upto_2 m ρ c).v1, (upto_2 m ρ c).v3, w1_v1, w1_v3]
/-- The GRU region keeps the stack and the edge rows (not its arrays), and the transposed weights and bias rows (input
    arrays, which end as entered). -/
theorem same_3_4 (c : Dev nD) : Same (W3 m ρ c) (W4 m ρ c) :=
  ⟨W4_of_ne m ρ c main_arg2 (by decide), W4_of_ne m ρ c main_v1 (by decide), W4_of_ne m ρ c main_v3 (by decide),
   (W4_arr m ρ c 2).trans (((dat1 (V3 m ρ) c).arrAt_in 2 rfl _).trans (A_eq1 (V3 m ρ) c 2)),
   (W4_arr m ρ c 3).trans (((dat1 (V3 m ρ) c).arrAt_in 3 rfl _).trans (A_eq1 (V3 m ρ) c 3)),
   (W4_arr m ρ c 4).trans (((dat1 (V3 m ρ) c).arrAt_in 4 rfl _).trans (A_eq1 (V3 m ρ) c 4)),
   (W4_arr m ρ c 5).trans (((dat1 (V3 m ρ) c).arrAt_in 5 rfl _).trans (A_eq1 (V3 m ρ) c 5))⟩
theorem upto_4 (c : Dev nD) : Same (W1 m ρ c) (W4 m ρ c) := (upto_3 m ρ c).trans (same_3_4 m ρ c)
/-- The GRU region leaves the layer's new node states. -/
theorem w4_hout (R : RegionFacts) (c : Dev nD) : W4 m ρ c (Proc.devRef .tc main_v21) = hid1 m c := by
  refine (W4_arr m ρ c 6).trans ?_
  rw [R.gru1]
  show Cert.GGNN.gru (F := Ideal) (W3 m ρ c (Proc.devRef .tc main_v20)) (W3 m ρ c (Proc.devRef .tc main_arg0))
    (W3 m ρ c (Proc.devRef .tc main_v4)) (W3 m ρ c (Proc.devRef .tc main_v5))
    (W3 m ρ c (Proc.devRef .tc main_v6)) (W3 m ρ c (Proc.devRef .tc main_v7)) = _
  rw [w3_agg m ρ R c, w3_hprev m ρ R c, (upto_3 m ρ c).v4, (upto_3 m ρ c).v5,
    (upto_3 m ρ c).v6, (upto_3 m ρ c).v7, w1_v4, w1_v5, w1_v6, w1_v7]
  rfl

/-! ## Layer 2: boundaries 5 … 8 -/

/-- The short stretch before the matmul region, from any contents: it keeps the node states and takes this layer's
    message matrix out of the stack. -/
theorem host2_hprev (W : Valuation τ sig (Elt Ideal)) :
    StableHlo.after hostOps2 W (Proc.devRef .tc main_v21) = W (Proc.devRef .tc main_v21) := by
  after_results
  all_goals rfl
theorem host2_wbuf (W : Valuation τ sig (Elt Ideal)) :
    StableHlo.after hostOps2 W (Proc.devRef .tc main_v23) = Cert.GGNN.weight1 (F := Ideal) (W (Proc.devRef .tc main_arg2)) := by
  after_results
  all_goals rfl
theorem same_4_5 (c : Dev nD) : Same (W4 m ρ c) (W5 m ρ c) := by host_keeps hostOps2
theorem upto_5 (c : Dev nD) : Same (W1 m ρ c) (W5 m ρ c) := (upto_4 m ρ c).trans (same_4_5 m ρ c)
theorem w5_hprev (R : RegionFacts) (c : Dev nD) : W5 m ρ c (Proc.devRef .tc main_v21) = hid1 m c :=
  (host2_hprev (W4 m ρ c)).trans (w4_hout m ρ R c)
theorem w5_wbuf (c : Dev nD) : W5 m ρ c (Proc.devRef .tc main_v23) = Cert.GGNN.weight1 (F := Ideal) (w m c) :=
  (host2_wbuf (W4 m ρ c)).trans (congrArg (Cert.GGNN.weight1 (F := Ideal)) ((upto_4 m ρ c).arg2.trans (w1_arg2 m ρ c)))
theorem same_5_6 (c : Dev nD) : Same (W5 m ρ c) (W6 m ρ c) := by region_keeps W6_of_ne
theorem upto_6 (c : Dev nD) : Same (W1 m ρ c) (W6 m ρ c) := (upto_5 m ρ c).trans (same_5_6 m ρ c)
/-- The matmul region leaves the message product of the node states and the layer's matrix. -/
theorem w6_mbuf (R : RegionFacts) (c : Dev nD) :
    W6 m ρ c (Proc.devRef .tc main_v24) = Cert.GGNN.message (F := Ideal) (hid1 m c) (Cert.GGNN.weight1 (w m c)) := by
  refine (W6_arr m ρ c 2).trans ?_
  rw [R.mm2]
  show Cert.GGNN.message (F := Ideal) (W5 m ρ c (Proc.devRef .tc main_v21)) (W5 m ρ c (Proc.devRef .tc main_v23)) = _
  rw [w5_hprev m ρ R c, w5_wbuf m ρ c]
/-- … and its input array, the node states, ends as it was entered. -/
theorem w6_hprev (R : RegionFacts) (c : Dev nD) : W6 m ρ c (Proc.devRef .tc main_v21) = hid1 m c :=
  ((W6_arr m ρ c 0).trans (((dat2 (V5 m ρ) c).arrAt_in 0 rfl _).trans (A_eq2 (V5 m ρ) c 0))).trans (w5_hprev m ρ R c)
/-- The aggregation stretch, from any contents: it keeps the node states and leaves the messages gathered along the sources
    and added up at the destinations. -/
theorem host3_hprev (W : Valuation τ sig (Elt Ideal)) :
    StableHlo.after hostOps3 W (Proc.devRef .tc main_v21) = W (Proc.devRef .tc main_v21) := by
  after_results
  all_goals rfl
set_option maxHeartbeats 4000000 in
theorem host3_agg (W : Valuation τ sig (Elt Ideal)) :
    StableHlo.after hostOps3 W (Proc.devRef .tc main_v34) = Cert.GGNN.aggregate (F := Ideal) (W (Proc.devRef .tc main_v24))
      (W (Proc.devRef .tc main_v1)) (W (Proc.devRef .tc main_v3)) := by
  after_results
  all_goals rfl
theorem same_6_7 (c : Dev nD) : Same (W6 m ρ c) (W7 m ρ c) := by host_keeps hostOps3
theorem upto_7 (c : Dev nD) : Same (W1 m ρ c) (W7 m ρ c) := (upto_6 m ρ c).trans (same_6_7 m ρ c)
theorem w7_hprev (R : RegionFacts) (c : Dev nD) : W7 m ρ c (Proc.devRef .tc main_v21) = hid1 m c :=
  (host3_hprev (W6 m ρ c)).trans (w6_hprev m ρ R c)
theorem w7_agg (R : RegionFacts) (c : Dev nD) :
    W7 m ρ c (Proc.devRef .tc main_v34) = Cert.GGNN.aggregate (F := Ideal)
      (Cert.GGNN.message (F := Ideal) (hid1 m c) (Cert.GGNN.weight1 (w m c))) (src m c) (dst m c) := by
  refine (host3_agg (W6 m ρ c)).trans ?_
  rw [w6_mbuf m ρ R c, (upto_6 m ρ c).v1, (upto_6 m ρ c).v3, w1_v1, w1_v3]
/-- The GRU region keeps the stack and the edge rows (not its arrays), and the transposed weights and bias rows (input
    arrays, which end as entered). -/
theorem same_7_8 (c : Dev nD) : Same (W7 m ρ c) (W8 m ρ c) :=
  ⟨W8_of_ne m ρ c main_arg2 (by decide), W8_of_ne m ρ c main_v1 (by decide), W8_of_ne m ρ c main_v3 (by decide),
   (W8_arr m ρ c 2).trans (((dat3 (V7 m ρ) c).arrAt_in 2 rfl _).trans (A_eq3 (V7 m ρ) c 2)),
   (W8_arr m ρ c 3).trans (((dat3 (V7 m ρ) c).arrAt_in 3 rfl _).trans (A_eq3 (V7 m ρ) c 3)),
   (W8_arr m ρ c 4).trans (((dat3 (V7 m ρ) c).arrAt_in 4 rfl _).trans (A_eq3 (V7 m ρ) c 4)),
   (W8_arr m ρ c 5).trans (((dat3 (V7 m ρ) c).arrAt_in 5 rfl _).trans (A_eq3 (V7 m ρ) c 5))⟩
theorem upto_8 (c : Dev nD) : Same (W1 m ρ c) (W8 m ρ c) := (upto_7 m ρ c).trans (same_7_8 m ρ c)
/-- The GRU region leaves the layer's new node states. -/
theorem w8_hout (R : RegionFacts) (c : Dev nD) : W8 m ρ c (Proc.devRef .tc main_v35) = hid2 m c := by
  refine (W8_arr m ρ c 6).trans ?_
  rw [R.gru3]
  show Cert.GGNN.gru (F := Ideal) (W7 m ρ c (Proc.devRef .tc main_v34)) (W7 m ρ c (Proc.devRef .tc main_v21))
    (W7 m ρ c (Proc.devRef .tc main_v4)) (W7 m ρ c (Proc.devRef .tc main_v5))
    (W7 m ρ c (Proc.devRef .tc main_v6)) (W7 m ρ c (Proc.devRef .tc main_v7)) = _
  rw [w7_agg m ρ R c, w7_hprev m ρ R c, (upto_7 m ρ c).v4, (upto_7 m ρ c).v5,
    (upto_7 m ρ c).v6, (upto_7 m ρ c).v7, w1_v4, w1_v5, w1_v6, w1_v7]
  rfl

/-! ## Layer 3: boundaries 9 … 12 -/

/-- The short stretch before the matmul region, from any contents: it keeps the node states and takes this layer's
    message matrix out of the stack. -/
theorem host4_hprev (W : Valuation τ sig (Elt Ideal)) :
    StableHlo.after hostOps4 W (Proc.devRef .tc main_v35) = W (Proc.devRef .tc main_v35) := by
  after_results
  all_goals rfl
theorem host4_wbuf (W : Valuation τ sig (Elt Ideal)) :
    StableHlo.after hostOps4 W (Proc.devRef .tc main_v37) = Cert.GGNN.weight2 (F := Ideal) (W (Proc.devRef .tc main_arg2)) := by
  after_results
  all_goals rfl
theorem same_8_9 (c : Dev nD) : Same (W8 m ρ c) (W9 m ρ c) := by host_keeps hostOps4
theorem upto_9 (c : Dev nD) : Same (W1 m ρ c) (W9 m ρ c) := (upto_8 m ρ c).trans (same_8_9 m ρ c)
theorem w9_hprev (R : RegionFacts) (c : Dev nD) : W9 m ρ c (Proc.devRef .tc main_v35) = hid2 m c :=
  (host4_hprev (W8 m ρ c)).trans (w8_hout m ρ R c)
theorem w9_wbuf (c : Dev nD) : W9 m ρ c (Proc.devRef .tc main_v37) = Cert.GGNN.weight2 (F := Ideal) (w m c) :=
  (host4_wbuf (W8 m ρ c)).trans (congrArg (Cert.GGNN.weight2 (F := Ideal)) ((upto_8 m ρ c).arg2.trans (w1_arg2 m ρ c)))
theorem same_9_10 (c : Dev nD) : Same (W9 m ρ c) (W10 m ρ c) := by region_keeps W10_of_ne
theorem upto_10 (c : Dev nD) : Same (W1 m ρ c) (W10 m ρ c) := (upto_9 m ρ c).trans (same_9_10 m ρ c)
/-- The matmul region leaves the message product of the node states and the layer's matrix. -/
theorem w10_mbuf (R : RegionFacts) (c : Dev nD) :
    W10 m ρ c (Proc.devRef .tc main_v38) = Cert.GGNN.message (F := Ideal) (hid2 m c) (Cert.GGNN.weight2 (w m c)) := by
  refine (W10_arr m ρ c 2).trans ?_
  rw [R.mm4]
  show Cert.GGNN.message (F := Ideal) (W9 m ρ c (Proc.devRef .tc main_v35)) (W9 m ρ c (Proc.devRef .tc main_v37)) = _
  rw [w9_hprev m ρ R c, w9_wbuf m ρ c]
/-- … and its input array, the node states, ends as it was entered. -/
theorem w10_hprev (R : RegionFacts) (c : Dev nD) : W10 m ρ c (Proc.devRef .tc main_v35) = hid2 m c :=
  ((W10_arr m ρ c 0).trans (((dat4 (V9 m ρ) c).arrAt_in 0 rfl _).trans (A_eq4 (V9 m ρ) c 0))).trans (w9_hprev m ρ R c)
/-- The aggregation stretch, from any contents: it keeps the node states and leaves the messages gathered along the sources
    and added up at the destinations. -/
theorem host5_hprev (W : Valuation τ sig (Elt Ideal)) :
    StableHlo.after hostOps5 W (Proc.devRef .tc main_v35) = W (Proc.devRef .tc main_v35) := by
  after_results
  all_goals rfl
set_option maxHeartbeats 4000000 in
theorem host5_agg (W : Valuation τ sig (Elt Ideal)) :
    StableHlo.after hostOps5 W (Proc.devRef .tc main_v48) = Cert.GGNN.aggregate (F := Ideal) (W (Proc.devRef .tc main_v38))
      (W (Proc.devRef .tc main_v1)) (W (Proc.devRef .tc main_v3)) := by
  after_results
  all_goals rfl
theorem same_10_11 (c : Dev nD) : Same (W10 m ρ c) (W11 m ρ c) := by host_keeps hostOps5
theorem upto_11 (c : Dev nD) : Same (W1 m ρ c) (W11 m ρ c) := (upto_10 m ρ c).trans (same_10_11 m ρ c)
theorem w11_hprev (R : RegionFacts) (c : Dev nD) : W11 m ρ c (Proc.devRef .tc main_v35) = hid2 m c :=
  (host5_hprev (W10 m ρ c)).trans (w10_hprev m ρ R c)
theorem w11_agg (R : RegionFacts) (c : Dev nD) :
    W11 m ρ c (Proc.devRef .tc main_v48) = Cert.GGNN.aggregate (F := Ideal)
      (Cert.GGNN.message (F := Ideal) (hid2 m c) (Cert.GGNN.weight2 (w m c))) (src m c) (dst m c) := by
  refine (host5_agg (W10 m ρ c)).trans ?_
  rw [w10_mbuf m ρ R c, (upto_10 m ρ c).v1, (upto_10 m ρ c).v3, w1_v1, w1_v3]
/-- The GRU region keeps the stack and the edge rows (not its arrays), and the transposed weights and bias rows (input
    arrays, which end as entered). -/
theorem same_11_12 (c : Dev nD) : Same (W11 m ρ c) (W12 m ρ c) :=
  ⟨W12_of_ne m ρ c main_arg2 (by decide), W12_of_ne m ρ c main_v1 (by decide), W12_of_ne m ρ c main_v3 (by decide),
   (W12_arr m ρ c 2).trans (((dat5 (V11 m ρ) c).arrAt_in 2 rfl _).trans (A_eq5 (V11 m ρ) c 2)),
   (W12_arr m ρ c 3).trans (((dat5 (V11 m ρ) c).arrAt_in 3 rfl _).trans (A_eq5 (V11 m ρ) c 3)),
   (W12_arr m ρ c 4).trans (((dat5 (V11 m ρ) c).arrAt_in 4 rfl _).trans (A_eq5 (V11 m ρ) c 4)),
   (W12_arr m ρ c 5).trans (((dat5 (V11 m ρ) c).arrAt_in 5 rfl _).trans (A_eq5 (V11 m ρ) c 5))⟩
theorem upto_12 (c : Dev nD) : Same (W1 m ρ c) (W12 m ρ c) := (upto_11 m ρ c).trans (same_11_12 m ρ c)
/-- The GRU region leaves the layer's new node states. -/
theorem w12_hout (R : RegionFacts) (c : Dev nD) : W12 m ρ c (Proc.devRef .tc main_v49) = hid3 m c := by
  refine (W12_arr m ρ c 6).trans ?_
  rw [R.gru5]
  show Cert.GGNN.gru (F := Ideal) (W11 m ρ c (Proc.devRef .tc main_v48)) (W11 m ρ c (Proc.devRef .tc main_v35))
    (W11 m ρ c (Proc.devRef .tc main_v4)) (W11 m ρ c (Proc.devRef .tc main_v5))
    (W11 m ρ c (Proc.devRef .tc main_v6)) (W11 m ρ c (Proc.devRef .tc main_v7)) = _
  rw [w11_agg m ρ R c, w11_hprev m ρ R c, (upto_11 m ρ c).v4, (upto_11 m ρ c).v5,
    (upto_11 m ρ c).v6, (upto_11 m ρ c).v7, w1_v4, w1_v5, w1_v6, w1_v7]
  rfl

/-! ## Layer 4: boundaries 13 … 16 -/

/-- The short stretch before the matmul region, from any contents: it keeps the node states and takes this layer's
    message matrix out of the stack. -/
theorem host6_hprev (W : Valuation τ sig (Elt Ideal)) :
    StableHlo.after hostOps6 W (Proc.devRef .tc main_v49) = W (Proc.devRef .tc main_v49) := by
  after_results
  all_goals rfl
theorem host6_wbuf (W : Valuation τ sig (Elt Ideal)) :
    StableHlo.after hostOps6 W (Proc.devRef .tc main_v51) = Cert.GGNN.weight3 (F := Ideal) (W (Proc.devRef .tc main_arg2)) := by
  after_results
  all_goals rfl
theorem same_12_13 (c : Dev nD) : Same (W12 m ρ c) (W13 m ρ c) := by host_keeps hostOps6
theorem upto_13 (c : Dev nD) : Same (W1 m ρ c) (W13 m ρ c) := (upto_12 m ρ c).trans (same_12_13 m ρ c)
theorem w13_hprev (R : RegionFacts) (c : Dev nD) : W13 m ρ c (Proc.devRef .tc main_v49) = hid3 m c :=
  (host6_hprev (W12 m ρ c)).trans (w12_hout m ρ R c)
theorem w13_wbuf (c : Dev nD) : W13 m ρ c (Proc.devRef .tc main_v51) = Cert.GGNN.weight3 (F := Ideal) (w m c) :=
  (host6_wbuf (W12 m ρ c)).trans (congrArg (Cert.GGNN.weight3 (F := Ideal)) ((upto_12 m ρ c).arg2.trans (w1_arg2 m ρ c)))
theorem same_13_14 (c : Dev nD) : Same (W13 m ρ c) (W14 m ρ c) := by region_keeps W14_of_ne
theorem upto_14 (c : Dev nD) : Same (W1 m ρ c) (W14 m ρ c) := (upto_13 m ρ c).trans (same_13_14 m ρ c)
/-- The matmul region leaves the message product of the node states and the layer's matrix. -/
theorem w14_mbuf (R : RegionFacts) (c : Dev nD) :
    W14 m ρ c (Proc.devRef .tc main_v52) = Cert.GGNN.message (F := Ideal) (hid3 m c) (Cert.GGNN.weight3 (w m c)) := by
  refine (W14_arr m ρ c 2).trans ?_
  rw [R.mm6]
  show Cert.GGNN.message (F := Ideal) (W13 m ρ c (Proc.devRef .tc main_v49)) (W13 m ρ c (Proc.devRef .tc main_v51)) = _
  rw [w13_hprev m ρ R c, w13_wbuf m ρ c]
/-- … and its input array, the node states, ends as it was entered. -/
theorem w14_hprev (R : RegionFacts) (c : Dev nD) : W14 m ρ c (Proc.devRef .tc main_v49) = hid3 m c :=
  ((W14_arr m ρ c 0).trans (((dat6 (V13 m ρ) c).arrAt_in 0 rfl _).trans (A_eq6 (V13 m ρ) c 0))).trans (w13_hprev m ρ R c)
/-- The aggregation stretch, from any contents: it keeps the node states and leaves the messages gathered along the sources
    and added up at the destinations. -/
theorem host7_hprev (W : Valuation τ sig (Elt Ideal)) :
    StableHlo.after hostOps7 W (Proc.devRef .tc main_v49) = W (Proc.devRef .tc main_v49) := by
  after_results
  all_goals rfl
set_option maxHeartbeats 4000000 in
theorem host7_agg (W : Valuation τ sig (Elt Ideal)) :
    StableHlo.after hostOps7 W (Proc.devRef .tc main_v62) = Cert.GGNN.aggregate (F := Ideal) (W (Proc.devRef .tc main_v52))
      (W (Proc.devRef .tc main_v1)) (W (Proc.devRef .tc main_v3)) := by
  after_results
  all_goals rfl
theorem same_14_15 (c : Dev nD) : Same (W14 m ρ c) (W15 m ρ c) := by host_keeps hostOps7
theorem upto_15 (c : Dev nD) : Same (W1 m ρ c) (W15 m ρ c) := (upto_14 m ρ c).trans (same_14_15 m ρ c)
theorem w15_hprev (R : RegionFacts) (c : Dev nD) : W15 m ρ c (Proc.devRef .tc main_v49) = hid3 m c :=
  (host7_hprev (W14 m ρ c)).trans (w14_hprev m ρ R c)
theorem w15_agg (R : RegionFacts) (c : Dev nD) :
    W15 m ρ c (Proc.devRef .tc main_v62) = Cert.GGNN.aggregate (F := Ideal)
      (Cert.GGNN.message (F := Ideal) (hid3 m c) (Cert.GGNN.weight3 (w m c))) (src m c) (dst m c) := by
  refine (host7_agg (W14 m ρ c)).trans ?_
  rw [w14_mbuf m ρ R c, (upto_14 m ρ c).v1, (upto_14 m ρ c).v3, w1_v1, w1_v3]
/-- The GRU region keeps the stack and the edge rows (not its arrays), and the transposed weights and bias rows (input
    arrays, which end as entered). -/
theorem same_15_16 (c : Dev nD) : Same (W15 m ρ c) (W16 m ρ c) :=
  ⟨W16_of_ne m ρ c main_arg2 (by decide), W16_of_ne m ρ c main_v1 (by decide), W16_of_ne m ρ c main_v3 (by decide),
   (W16_arr m ρ c 2).trans (((dat7 (V15 m ρ) c).arrAt_in 2 rfl _).trans (A_eq7 (V15 m ρ) c 2)),
   (W16_arr m ρ c 3).trans (((dat7 (V15 m ρ) c).arrAt_in 3 rfl _).trans (A_eq7 (V15 m ρ) c 3)),
   (W16_arr m ρ c 4).trans (((dat7 (V15 m ρ) c).arrAt_in 4 rfl _).trans (A_eq7 (V15 m ρ) c 4)),
   (W16_arr m ρ c 5).trans (((dat7 (V15 m ρ) c).arrAt_in 5 rfl _).trans (A_eq7 (V15 m ρ) c 5))⟩
theorem upto_16 (c : Dev nD) : Same (W1 m ρ c) (W16 m ρ c) := (upto_15 m ρ c).trans (same_15_16 m ρ c)
/-- The GRU region leaves the layer's new node states. -/
theorem w16_hout (R : RegionFacts) (c : Dev nD) : W16 m ρ c (Proc.devRef .tc main_v63) = hid4 m c := by
  refine (W16_arr m ρ c 6).trans ?_
  rw [R.gru7]
  show Cert.GGNN.gru (F := Ideal) (W15 m ρ c (Proc.devRef .tc main_v62)) (W15 m ρ c (Proc.devRef .tc main_v49))
    (W15 m ρ c (Proc.devRef .tc main_v4)) (W15 m ρ c (Proc.devRef .tc main_v5))
    (W15 m ρ c (Proc.devRef .tc main_v6)) (W15 m ρ c (Proc.devRef .tc main_v7)) = _
  rw [w15_agg m ρ R c, w15_hprev m ρ R c, (upto_15 m ρ c).v4, (upto_15 m ρ c).v5,
    (upto_15 m ρ c).v6, (upto_15 m ρ c).v7, w1_v4, w1_v5, w1_v6, w1_v7]
  rfl

/-! ## Layer 5: boundaries 17 … 20 -/

/-- The short stretch before the matmul region, from any contents: it keeps the node states and takes this layer's
    message matrix out of the stack. -/
theorem host8_hprev (W : Valuation τ sig (Elt Ideal)) :
    StableHlo.after hostOps8 W (Proc.devRef .tc main_v63) = W (Proc.devRef .tc main_v63) := by
  after_results
  all_goals rfl
theorem host8_wbuf (W : Valuation τ sig (Elt Ideal)) :
    StableHlo.after hostOps8 W (Proc.devRef .tc main_v65) = Cert.GGNN.weight4 (F := Ideal) (W (Proc.devRef .tc main_arg2)) := by
  after_results
  all_goals rfl
theorem same_16_17 (c : Dev nD) : Same (W16 m ρ c) (W17 m ρ c) := by host_keeps hostOps8
theorem upto_17 (c : Dev nD) : Same (W1 m ρ c) (W17 m ρ c) := (upto_16 m ρ c).trans (same_16_17 m ρ c)
theorem w17_hprev (R : RegionFacts) (c : Dev nD) : W17 m ρ c (Proc.devRef .tc main_v63) = hid4 m c :=
  (host8_hprev (W16 m ρ c)).trans (w16_hout m ρ R c)
theorem w17_wbuf (c : Dev nD) : W17 m ρ c (Proc.devRef .tc main_v65) = Cert.GGNN.weight4 (F := Ideal) (w m c) :=
  (host8_wbuf (W16 m ρ c)).trans (congrArg (Cert.GGNN.weight4 (F := Ideal)) ((upto_16 m ρ c).arg2.trans (w1_arg2 m ρ c)))
theorem same_17_18 (c : Dev nD) : Same (W17 m ρ c) (W18 m ρ c) := by region_keeps W18_of_ne
theorem upto_18 (c : Dev nD) : Same (W1 m ρ c) (W18 m ρ c) := (upto_17 m ρ c).trans (same_17_18 m ρ c)
/-- The matmul region leaves the message product of the node states and the layer's matrix. -/
theorem w18_mbuf (R : RegionFacts) (c : Dev nD) :
    W18 m ρ c (Proc.devRef .tc main_v66) = Cert.GGNN.message (F := Ideal) (hid4 m c) (Cert.GGNN.weight4 (w m c)) := by
  refine (W18_arr m ρ c 2).trans ?_
  rw [R.mm8]
  show Cert.GGNN.message (F := Ideal) (W17 m ρ c (Proc.devRef .tc main_v63)) (W17 m ρ c (Proc.devRef .tc main_v65)) = _
  rw [w17_hprev m ρ R c, w17_wbuf m ρ c]
/-- … and its input array, the node states, ends as it was entered. -/
theorem w18_hprev (R : RegionFacts) (c : Dev nD) : W18 m ρ c (Proc.devRef .tc main_v63) = hid4 m c :=
  ((W18_arr m ρ c 0).trans (((dat8 (V17 m ρ) c).arrAt_in 0 rfl _).trans (A_eq8 (V17 m ρ) c 0))).trans (w17_hprev m ρ R c)
/-- The aggregation stretch, from any contents: it keeps the node states and leaves the messages gathered along the sources
    and added up at the destinations. -/
theorem host9_hprev (W : Valuation τ sig (Elt Ideal)) :
    StableHlo.after hostOps9 W (Proc.devRef .tc main_v63) = W (Proc.devRef .tc main_v63) := by
  after_results
  all_goals rfl
set_option maxHeartbeats 4000000 in
theorem host9_agg (W : Valuation τ sig (Elt Ideal)) :
    StableHlo.after hostOps9 W (Proc.devRef .tc main_v76) = Cert.GGNN.aggregate (F := Ideal) (W (Proc.devRef .tc main_v66))
      (W (Proc.devRef .tc main_v1)) (W (Proc.devRef .tc main_v3)) := by
  after_results
  all_goals rfl
theorem same_18_19 (c : Dev nD) : Same (W18 m ρ c) (W19 m ρ c) := by host_keeps hostOps9
theorem upto_19 (c : Dev nD) : Same (W1 m ρ c) (W19 m ρ c) := (upto_18 m ρ c).trans (same_18_19 m ρ c)
theorem w19_hprev (R : RegionFacts) (c : Dev nD) : W19 m ρ c (Proc.devRef .tc main_v63) = hid4 m c :=
  (host9_hprev (W18 m ρ c)).trans (w18_hprev m ρ R c)
theorem w19_agg (R : RegionFacts) (c : Dev nD) :
    W19 m ρ c (Proc.devRef .tc main_v76) = Cert.GGNN.aggregate (F := Ideal)
      (Cert.GGNN.message (F := Ideal) (hid4 m c) (Cert.GGNN.weight4 (w m c))) (src m c) (dst m c) := by
  refine (host9_agg (W18 m ρ c)).trans ?_
  rw [w18_mbuf m ρ R c, (upto_18 m ρ c).v1, (upto_18 m ρ c).v3, w1_v1, w1_v3]
/-- The GRU region keeps the stack and the edge rows (not its arrays), and the transposed weights and bias rows (input
    arrays, which end as entered). -/
theorem same_19_20 (c : Dev nD) : Same (W19 m ρ c) (W20 m ρ c) :=
  ⟨W20_of_ne m ρ c main_arg2 (by decide), W20_of_ne m ρ c main_v1 (by decide), W20_of_ne m ρ c main_v3 (by decide),
   (W20_arr m ρ c 2).trans (((dat9 (V19 m ρ) c).arrAt_in 2 rfl _).trans (A_eq9 (V19 m ρ) c 2)),
   (W20_arr m ρ c 3).trans (((dat9 (V19 m ρ) c).arrAt_in 3 rfl _).trans (A_eq9 (V19 m ρ) c 3)),
   (W20_arr m ρ c 4).trans (((dat9 (V19 m ρ) c).arrAt_in 4 rfl _).trans (A_eq9 (V19 m ρ) c 4)),
   (W20_arr m ρ c 5).trans (((dat9 (V19 m ρ) c).arrAt_in 5 rfl _).trans (A_eq9 (V19 m ρ) c 5))⟩
theorem upto_20 (c : Dev nD) : Same (W1 m ρ c) (W20 m ρ c) := (upto_19 m ρ c).trans (same_19_20 m ρ c)
/-- The GRU region leaves the layer's new node states. -/
theorem w20_hout (R : RegionFacts) (c : Dev nD) : W20 m ρ c (Proc.devRef .tc main_v77) = hid5 m c := by
  refine (W20_arr m ρ c 6).trans ?_
  rw [R.gru9]
  show Cert.GGNN.gru (F := Ideal) (W19 m ρ c (Proc.devRef .tc main_v76)) (W19 m ρ c (Proc.devRef .tc main_v63))
    (W19 m ρ c (Proc.devRef .tc main_v4)) (W19 m ρ c (Proc.devRef .tc main_v5))
    (W19 m ρ c (Proc.devRef .tc main_v6)) (W19 m ρ c (Proc.devRef .tc main_v7)) = _
  rw [w19_agg m ρ R c, w19_hprev m ρ R c, (upto_19 m ρ c).v4, (upto_19 m ρ c).v5,
    (upto_19 m ρ c).v6, (upto_19 m ρ c).v7, w1_v4, w1_v5, w1_v6, w1_v7]
  rfl

/-! ## The result -/

/-- The result buffer at the last boundary is the five-layer network of the arguments. -/
theorem result (R : RegionFacts) (c : Dev nD) :
    W20 m ρ c (Proc.devRef .tc main_v77) = Cert.GGNN.net (F := Ideal) (x m c) (w m c) (src m c) (dst m c) (wihT m c) (whhT m c) (biRow m c) (bhRow m c) :=
  w20_hout m ρ R c

end Cert.KernelIdeal.Chain

end
-- ==== Proof.RefValue.lean ====
/-
  The reference program's result is the five-layer network of its arguments.

  The reference's run names the node states after each layer. Each is the layer function of the previous one: the same
  message product, gather, accumulating scatter, two affine gate maps, logistic gates written out as 1 / (1 + exp (−x)),
  and the convex combination (1 − z) · n + z · h — operation for operation the text of the layer function, so the
  equations hold by unfolding the definitions.
-/
import proofs.«134775_j74517682586461_1_alg».proof.Proof.Gen.ReferenceIdeal.Run
import proofs.«134775_j74517682586461_1_alg».proof.Proof.Spec

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo

variable (V0 : Valuation τ sig (Elt Ideal))

/-- The arguments as the layer function takes them. -/
abbrev x : FVec Ideal S50000x64 .f32 := V0 (Proc.devRef .tc main_arg0)
abbrev w : FVec Ideal S5x64x64 .f32 := V0 (Proc.devRef .tc main_arg2)
abbrev src : Vec Ideal S800000 .i32 := Cert.GGNN.edgeRow0 (F := Ideal) (V0 (Proc.devRef .tc main_arg1))
abbrev dst : Vec Ideal S800000 .i32 := Cert.GGNN.edgeRow1 (F := Ideal) (V0 (Proc.devRef .tc main_arg1))
abbrev wihT : FVec Ideal S64x192 .f32 := transpose S64x192 [1, 0] (V0 (Proc.devRef .tc main_arg3)) transposes_S192x64_S64x192_1_0
abbrev whhT : FVec Ideal S64x192 .f32 := transpose S64x192 [1, 0] (V0 (Proc.devRef .tc main_arg4)) transposes_S192x64_S64x192_1_0
abbrev biRow : FVec Ideal S1x192 .f32 := broadcastInDim S1x192 ![1] bcast_S192_S1x192_1 (V0 (Proc.devRef .tc main_arg5))
abbrev bhRow : FVec Ideal S1x192 .f32 := broadcastInDim S1x192 ![1] bcast_S192_S1x192_1 (V0 (Proc.devRef .tc main_arg6))

/-- The source and destination rows are the run's two named index vectors. -/
theorem src_eq : res_main_v1 V0 = src V0 := rfl
theorem dst_eq : res_main_v3 V0 = dst V0 := rfl

/-- The node states after the first layer. -/
theorem hid1 : res_main_v54 V0 = Cert.GGNN.layer (F := Ideal) (x V0) (Cert.GGNN.weight0 (w V0)) (src V0) (dst V0)
    (wihT V0) (whhT V0) (biRow V0) (bhRow V0) := rfl
/-- After the second layer. -/
theorem hid2 : res_main_v105 V0 = Cert.GGNN.layer (F := Ideal) (res_main_v54 V0) (Cert.GGNN.weight1 (w V0)) (src V0) (dst V0)
    (wihT V0) (whhT V0) (biRow V0) (bhRow V0) := rfl
/-- After the third layer. -/
theorem hid3 : res_main_v156 V0 = Cert.GGNN.layer (F := Ideal) (res_main_v105 V0) (Cert.GGNN.weight2 (w V0)) (src V0) (dst V0)
    (wihT V0) (whhT V0) (biRow V0) (bhRow V0) := rfl
/-- After the fourth layer. -/
theorem hid4 : res_main_v207 V0 = Cert.GGNN.layer (F := Ideal) (res_main_v156 V0) (Cert.GGNN.weight3 (w V0)) (src V0) (dst V0)
    (wihT V0) (whhT V0) (biRow V0) (bhRow V0) := rfl

/-- The run's result term — the fifth layer spelt over the fourth layer's node states — is the five-layer network. -/
theorem result :
    addf (mulf (subf (broadcastInDim S50000x64 ![] bcast_S_S50000x64 (constant S_ .f32 0x3F800000#32)) (res_main_v250 V0)) (Host.tanh (addf (extractStridedSlice S50000x64 ![0, 128] (res_main_v225 V0) slices_S50000x192_S50000x64_0_128) (mulf (Host.divf (broadcastInDim S50000x64 ![] bcast_S_S50000x64 (constant S_ .f32 0x3F800000#32)) (addf (broadcastInDim S50000x64 ![] bcast_S_S50000x64 (constant S_ .f32 0x3F800000#32)) (Host.exp (Host.negf (addf (extractStridedSlice S50000x64 ![0, 0] (res_main_v225 V0) slices_S50000x192_S50000x64_0_0) (extractStridedSlice S50000x64 ![0, 0] (res_main_v230 V0) slices_S50000x192_S50000x64_0_0)))))) (extractStridedSlice S50000x64 ![0, 128] (res_main_v230 V0) slices_S50000x192_S50000x64_0_128))))) (mulf (res_main_v250 V0) (res_main_v207 V0))
    = Cert.GGNN.net (F := Ideal) (x V0) (w V0) (src V0) (dst V0) (wihT V0) (whhT V0) (biRow V0) (bhRow V0) := by
  have h5 : addf (mulf (subf (broadcastInDim S50000x64 ![] bcast_S_S50000x64 (constant S_ .f32 0x3F800000#32)) (res_main_v250 V0)) (Host.tanh (addf (extractStridedSlice S50000x64 ![0, 128] (res_main_v225 V0) slices_S50000x192_S50000x64_0_128) (mulf (Host.divf (broadcastInDim S50000x64 ![] bcast_S_S50000x64 (constant S_ .f32 0x3F800000#32)) (addf (broadcastInDim S50000x64 ![] bcast_S_S50000x64 (constant S_ .f32 0x3F800000#32)) (Host.exp (Host.negf (addf (extractStridedSlice S50000x64 ![0, 0] (res_main_v225 V0) slices_S50000x192_S50000x64_0_0) (extractStridedSlice S50000x64 ![0, 0] (res_main_v230 V0) slices_S50000x192_S50000x64_0_0)))))) (extractStridedSlice S50000x64 ![0, 128] (res_main_v230 V0) slices_S50000x192_S50000x64_0_128))))) (mulf (res_main_v250 V0) (res_main_v207 V0))
      = Cert.GGNN.layer (F := Ideal) (res_main_v207 V0) (Cert.GGNN.weight4 (w V0)) (src V0) (dst V0)
        (wihT V0) (whhT V0) (biRow V0) (bhRow V0) := rfl
  rw [h5, hid4, hid3, hid2, hid1]
  rfl

end Cert.ReferenceIdeal.RefValue

end
-- ==== Proof.BiasRow.lean ====
/-
  A vector of 192 numbers made into a row 1 × 192 in two ways — broadcast along a new leading axis of extent one, or
  recast to the shape with that leading axis — is the same row: entry (0, j) of either is entry j of the vector.
-/
import proofs.«134775_j74517682586461_1_alg».proof.Proof.Spec
import Idealize.ShloMosaic.Lib.Pipeline.Value

noncomputable section

namespace Cert.GGNN

open Cert.ReferenceIdeal Cert.ReferenceIdeal.Gen Idealize.ShloMosaic

/-- Broadcasting a vector to a one-row matrix is recasting it as that row. -/
theorem biasRow_eq {α : Type} (b : S192.Idx → α) (hb : S192.BroadcastsInDim S1x192 (![1] : Fin 1 → Fin S1x192.rank))
    (hc : S192.ShapeCasts S1x192) :
    broadcastInDim S1x192 ![1] hb b = shapeCast S1x192 b hc := by
  funext j
  have hr : shapeCast S1x192 b hc j = b (fun a => j a.succ) := shapeCast_addUnit_apply ![192] b hc j
  rw [hr]
  refine broadcastInDim_apply ![1] hb b j (fun a => j a.succ) fun a => ?_
  have ha : a = 0 := Subsingleton.elim _ _
  subst ha
  show (j (Fin.succ 0)).val = if (192 : ℕ) = 1 then 0 else (j 1).val
  rw [if_neg (by decide)]
  rfl

end Cert.GGNN

end
-- ==== Proof.Assembly.lean ====
/-
  The two idealized programs compute one function.

  From memories that agree on the seven arguments, the idealized kernel program ends with its result buffer at the
  five-layer network of its arguments (its run, read back through the ten regions and the host stretches between them),
  and the idealized reference ends with its result at the same network of its own arguments (its run, read back layer by
  layer). The arguments agree, and the one difference in how the two programs prepare them — the kernel program recasts
  each bias vector as a row, the reference broadcasts it to a row — makes the same row. No law of arithmetic is used:
  both programs apply the same operations, in the same order, to equal arrays.
-/
import proofs.«134775_j74517682586461_1_alg».proof.Defs
import proofs.«134775_j74517682586461_1_alg».proof.Proof.Gen.Pre_finite_inputs
import proofs.«134775_j74517682586461_1_alg».proof.Proof.KernelRun
import proofs.«134775_j74517682586461_1_alg».proof.Proof.Chain
import proofs.«134775_j74517682586461_1_alg».proof.Proof.RefValue
import proofs.«134775_j74517682586461_1_alg».proof.Proof.BiasRow

noncomputable section

namespace Cert.Proof.Assembly

open Idealize.ShloMosaic Idealize.ShloMosaic.TcCoe Idealize.SL.Sem

/-- Given what each of the ten regions leaves in its output array, the idealized kernel program and the idealized
    reference, run from memories agreeing on the arguments, both end with the five-layer network of the arguments. -/
theorem algebraic_of (R : Cert.KernelIdeal.Chain.RegionFacts) : Cert.algebraic_KernelIdeal_ReferenceIdeal := by
  intro m ρ m' ρ' _ hagree
  refine ⟨fun c => Cert.GGNN.net (F := Ideal) (Cert.KernelIdeal.Chain.x m c) (Cert.KernelIdeal.Chain.w m c)
    (Cert.KernelIdeal.Chain.src m c) (Cert.KernelIdeal.Chain.dst m c) (Cert.KernelIdeal.Chain.wihT m c)
    (Cert.KernelIdeal.Chain.whhT m c) (Cert.KernelIdeal.Chain.biRow m c) (Cert.KernelIdeal.Chain.bhRow m c), ?_, ?_⟩
  · exact (θ_run Cert.KernelIdeal.defs _ _).mono
      (fun _ h c => ⟨(h c).1.trans (Cert.KernelIdeal.Chain.result m ρ R c), (h c).2⟩)
      (Cert.KernelIdeal.Run.run_main m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6⟩ := hagree c
    rw [Cert.ReferenceIdeal.RefValue.result]
    have hx : Cert.ReferenceIdeal.RefValue.x (StableHlo.launchContents m' c) = Cert.KernelIdeal.Chain.x m c := e0
    have hw : Cert.ReferenceIdeal.RefValue.w (StableHlo.launchContents m' c) = Cert.KernelIdeal.Chain.w m c := e2
    have hs : Cert.ReferenceIdeal.RefValue.src (StableHlo.launchContents m' c) = Cert.KernelIdeal.Chain.src m c :=
      congrArg (Cert.GGNN.edgeRow0 (F := Ideal)) e1
    have hd : Cert.ReferenceIdeal.RefValue.dst (StableHlo.launchContents m' c) = Cert.KernelIdeal.Chain.dst m c :=
      congrArg (Cert.GGNN.edgeRow1 (F := Ideal)) e1
    have hwi : Cert.ReferenceIdeal.RefValue.wihT (StableHlo.launchContents m' c) = Cert.KernelIdeal.Chain.wihT m c :=
      congrArg (fun a : FVec Ideal Cert.ReferenceIdeal.S192x64 .f32 =>
        transpose Cert.ReferenceIdeal.S64x192 [1, 0] a Cert.ReferenceIdeal.Gen.transposes_S192x64_S64x192_1_0) e3
    have hwh : Cert.ReferenceIdeal.RefValue.whhT (StableHlo.launchContents m' c) = Cert.KernelIdeal.Chain.whhT m c :=
      congrArg (fun a : FVec Ideal Cert.ReferenceIdeal.S192x64 .f32 =>
        transpose Cert.ReferenceIdeal.S64x192 [1, 0] a Cert.ReferenceIdeal.Gen.transposes_S192x64_S64x192_1_0) e4
    have hbi : Cert.ReferenceIdeal.RefValue.biRow (StableHlo.launchContents m' c) = Cert.KernelIdeal.Chain.biRow m c :=
      (congrArg (fun a : FVec Ideal Cert.ReferenceIdeal.S192 .f32 =>
        broadcastInDim Cert.ReferenceIdeal.S1x192 ![1] Cert.ReferenceIdeal.Gen.bcast_S192_S1x192_1 a) e5).trans
        (Cert.GGNN.biasRow_eq _ _ _)
    have hbh : Cert.ReferenceIdeal.RefValue.bhRow (StableHlo.launchContents m' c) = Cert.KernelIdeal.Chain.bhRow m c :=
      (congrArg (fun a : FVec Ideal Cert.ReferenceIdeal.S192 .f32 =>
        broadcastInDim Cert.ReferenceIdeal.S1x192 ![1] Cert.ReferenceIdeal.Gen.bcast_S192_S1x192_1 a) e6).trans
        (Cert.GGNN.biasRow_eq _ _ _)
    rw [hx, hw, hs, hd, hwi, hwh, hbi, hbh]

end Cert.Proof.Assembly

end
-- ==== Proof.MMBody.lean ====
/-
  The matrix-product tile read entry by entry.

  Each message kernel computes, for one tile of 2000 rows of the node states x and the whole 64 × 64 matrix w, the
  product x · w accumulated from zero; both operands pass through a change of float format, which is the identity on
  exact values. Entry (p, q) of the tile is therefore Σ_k x[p, k] · w[k, q]. The whole-array message product h · W of
  the layer's mathematics has the same entries: (h · W)[r, q] = Σ_k h[r, k] · W[k, q].
-/
import proofs.«134775_j74517682586461_1_alg».proof.Proof.Gen.KernelIdeal.Skeleton
import proofs.«134775_j74517682586461_1_alg».proof.Proof.Gen.ReferenceIdeal
import proofs.«134775_j74517682586461_1_alg».proof.Proof.Spec
import Idealize.ShloMosaic.Lib.ValueIdx
import Idealize.ShloMosaic.Lib.Pipeline.Value
import Idealize.ShloMosaic.PureOps.Ideal.Laws

noncomputable section

namespace Cert.KernelIdeal.MM

open Idealize.ShloMosaic Idealize.ShloMosaic.ValueIdx Cert.KernelIdeal Cert.KernelIdeal.Gen

/-- The offset (0, 0) of a whole-tile access is the zero offset on both axes. -/
theorem zeroOffsets : (![0, 0] : Fin 2 → Nat) = fun _ => 0 := funext fun a => by fin_cases a <;> rfl

/-- The tile product accumulated from zero, at entry (p, q): the sum over the contracted coordinate k of
    a[p, k] · b[k, q]. -/
theorem tileProduct_apply (a : FVec Ideal S2000x64 .bf16) (b : FVec Ideal S64x64 .bf16) (p : Fin 2000) (q : Fin 64) :
    matmul dot_S2000x64_S64x64_S2000x64_1_0_0_1_n_n none a b (constant S2000x64 .f32 0x00000000#32) (ix2 p q)
      = ∑ k : Fin 64, a (ix2 p k) * b (ix2 k q) := by
  show FloatOps.matmul dot_S2000x64_S64x64_S2000x64_1_0_0_1_n_n none a b (constant S2000x64 .f32 0x00000000#32) (ix2 p q) = _
  rw [Ideal.matmul_constant_zero_apply,
    ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have hl : dot_S2000x64_S64x64_S2000x64_1_0_0_1_n_n.lhsIdx (ix2 p q) ((contrEquiv1 _ 64 rfl rfl).symm k) = ix2 p k := by
    funext ax; apply Fin.ext
    match ax with
    | ⟨0, _⟩ => simp [DotDims.lhsIdx, dot_S2000x64_S64x64_S2000x64_1_0_0_1_n_n]; rfl
    | ⟨1, _⟩ => simp [DotDims.lhsIdx, dot_S2000x64_S64x64_S2000x64_1_0_0_1_n_n]; exact hk
  have hr : dot_S2000x64_S64x64_S2000x64_1_0_0_1_n_n.rhsIdx (ix2 p q) ((contrEquiv1 _ 64 rfl rfl).symm k) = ix2 k q := by
    funext ax; apply Fin.ext
    match ax with
    | ⟨0, _⟩ => simp [DotDims.rhsIdx, dot_S2000x64_S64x64_S2000x64_1_0_0_1_n_n]; exact hk
    | ⟨1, _⟩ => simp [DotDims.rhsIdx, dot_S2000x64_S64x64_S2000x64_1_0_0_1_n_n]; rfl
  rw [hl, hr]

/-- The first layer's kernel body at entry (p, q) of its tile: Σ_k x[p, k] · w[k, q]. -/
theorem k0_pay1_apply (x0 : Vec Ideal S2000x64 .f32) (x1 : Vec Ideal S64x64 .f32) (p : Fin 2000) (q : Fin 64) :
    k0_pay1 x0 x1 (ix2 p q) = ∑ k : Fin 64, x0 (ix2 p k) * x1 (ix2 k q) := by
  unfold k0_pay1
  refine (tileProduct_apply _ _ p q).trans ?_
  refine Finset.sum_congr rfl fun k _ => ?_
  rw [shapeCast_self]
  rfl

/-- The second layer's kernel body at entry (p, q) of its tile: Σ_k x[p, k] · w[k, q] (both operands pass through an
    identity reshape as well). -/
theorem k2_pay1_apply (x0 : Vec Ideal S2000x64 .f32) (x1 : Vec Ideal S64x64 .f32) (p : Fin 2000) (q : Fin 64) :
    k2_pay1 x0 x1 (ix2 p q) = ∑ k : Fin 64, x0 (ix2 p k) * x1 (ix2 k q) := by
  unfold k2_pay1
  refine (tileProduct_apply _ _ p q).trans ?_
  refine Finset.sum_congr rfl fun k _ => ?_
  rw [shapeCast_self, shapeCast_self]
  rfl

/-- The third layer's kernel body at entry (p, q) of its tile: Σ_k x[p, k] · w[k, q] (both operands pass through an
    identity reshape as well). -/
theorem k4_pay1_apply (x0 : Vec Ideal S2000x64 .f32) (x1 : Vec Ideal S64x64 .f32) (p : Fin 2000) (q : Fin 64) :
    k4_pay1 x0 x1 (ix2 p q) = ∑ k : Fin 64, x0 (ix2 p k) * x1 (ix2 k q) := by
  unfold k4_pay1
  refine (tileProduct_apply _ _ p q).trans ?_
  refine Finset.sum_congr rfl fun k _ => ?_
  rw [shapeCast_self, shapeCast_self]
  rfl

/-- The fourth layer's kernel body at entry (p, q) of its tile: Σ_k x[p, k] · w[k, q] (both operands pass through an
    identity reshape as well). -/
theorem k6_pay1_apply (x0 : Vec Ideal S2000x64 .f32) (x1 : Vec Ideal S64x64 .f32) (p : Fin 2000) (q : Fin 64) :
    k6_pay1 x0 x1 (ix2 p q) = ∑ k : Fin 64, x0 (ix2 p k) * x1 (ix2 k q) := by
  unfold k6_pay1
  refine (tileProduct_apply _ _ p q).trans ?_
  refine Finset.sum_congr rfl fun k _ => ?_
  rw [shapeCast_self, shapeCast_self]
  rfl

/-- The fifth layer's kernel body at entry (p, q) of its tile: Σ_k x[p, k] · w[k, q] (both operands pass through an
    identity reshape as well). -/
theorem k8_pay1_apply (x0 : Vec Ideal S2000x64 .f32) (x1 : Vec Ideal S64x64 .f32) (p : Fin 2000) (q : Fin 64) :
    k8_pay1 x0 x1 (ix2 p q) = ∑ k : Fin 64, x0 (ix2 p k) * x1 (ix2 k q) := by
  unfold k8_pay1
  refine (tileProduct_apply _ _ p q).trans ?_
  refine Finset.sum_congr rfl fun k _ => ?_
  rw [shapeCast_self, shapeCast_self]
  rfl

/-- The message product of the layer's mathematics at entry (r, q): Σ_k h[r, k] · W[k, q]. -/
theorem message_apply (H : FVec Ideal Cert.ReferenceIdeal.S50000x64 .f32) (W : FVec Ideal Cert.ReferenceIdeal.S64x64 .f32)
    (r : Fin 50000) (q : Fin 64) :
    Cert.GGNN.message (F := Ideal) H W (ix2 r q) = ∑ k : Fin 64, H (ix2 r k) * W (ix2 k q) := by
  unfold Cert.GGNN.message
  show FloatOps.dotGeneral Cert.ReferenceIdeal.dot_S50000x64_S64x64_S50000x64_1_0_0_1_n_n none _ H W (ix2 r q) = _
  rw [Ideal.dotGeneral_apply,
    ← Equiv.sum_comp (contrEquiv1 Cert.ReferenceIdeal.dot_S50000x64_S64x64_S50000x64_1_0_0_1_n_n 64 rfl rfl).symm]
  refine Finset.sum_congr rfl fun k _ => ?_
  have hk := contrEquiv1_symm_val Cert.ReferenceIdeal.dot_S50000x64_S64x64_S50000x64_1_0_0_1_n_n 64 rfl rfl k
  have hl : Cert.ReferenceIdeal.dot_S50000x64_S64x64_S50000x64_1_0_0_1_n_n.lhsIdx (ix2 r q) ((contrEquiv1 _ 64 rfl rfl).symm k) = ix2 r k := by
    funext ax; apply Fin.ext
    match ax with
    | ⟨0, _⟩ => simp [DotDims.lhsIdx, Cert.ReferenceIdeal.dot_S50000x64_S64x64_S50000x64_1_0_0_1_n_n]; rfl
    | ⟨1, _⟩ => simp [DotDims.lhsIdx, Cert.ReferenceIdeal.dot_S50000x64_S64x64_S50000x64_1_0_0_1_n_n]; exact hk
  have hr : Cert.ReferenceIdeal.dot_S50000x64_S64x64_S50000x64_1_0_0_1_n_n.rhsIdx (ix2 r q) ((contrEquiv1 _ 64 rfl rfl).symm k) = ix2 k q := by
    funext ax; apply Fin.ext
    match ax with
    | ⟨0, _⟩ => simp [DotDims.rhsIdx, Cert.ReferenceIdeal.dot_S50000x64_S64x64_S50000x64_1_0_0_1_n_n]; exact hk
    | ⟨1, _⟩ => simp [DotDims.rhsIdx, Cert.ReferenceIdeal.dot_S50000x64_S64x64_S50000x64_1_0_0_1_n_n]; rfl
  rw [hl, hr]

/-- A tile entry is an entry of the whole product: when row p of the tile x is row r of the states h, and the tile's
    matrix w is the matrix W, the sum Σ_k x[p, k] · w[k, q] is (h · W)[r, q]. -/
theorem tileEntry_eq_message (H : FVec Ideal Cert.ReferenceIdeal.S50000x64 .f32) (W : FVec Ideal Cert.ReferenceIdeal.S64x64 .f32)
    (x0 : Vec Ideal S2000x64 .f32) (x1 : Vec Ideal S64x64 .f32) (p : Fin 2000) (q : Fin 64) (r : Fin 50000)
    (h0 : ∀ k : Fin 64, x0 (ix2 p k) = H (ix2 r k)) (h1 : ∀ k : Fin 64, x1 (ix2 k q) = W (ix2 k q)) :
    ∑ k : Fin 64, x0 (ix2 p k) * x1 (ix2 k q) = Cert.GGNN.message (F := Ideal) H W (ix2 r q) := by
  rw [message_apply]
  exact Finset.sum_congr rfl fun k _ => by rw [h0 k, h1 k]

end Cert.KernelIdeal.MM

end
-- ==== Proof.MMArr0.lean ====
/-
  Message region 0: the array the kernel leaves is the message product of the two arrays it found.

  The grid has 25 points; point t fetches rows 2000·t … 2000·t + 1999 of the node states and the whole 64 × 64 matrix,
  and writes back the same rows of the output. Each written entry is the tile product's entry, which is the whole
  product's entry at that row; the 25 row tiles cover all 50000 rows, so the output array is the whole product.
-/
import proofs.«134775_j74517682586461_1_alg».proof.Proof.MMBody
import proofs.«134775_j74517682586461_1_alg».proof.Proof.Gen.KernelIdeal.Frame
import proofs.«134775_j74517682586461_1_alg».proof.Proof.Spec
import Idealize.ShloMosaic.Lib.Pipeline.Value

noncomputable section

namespace Cert.KernelIdeal.MM

open Idealize.ShloMosaic Idealize.ShloMosaic.TcCoe Idealize.SL.Sem Idealize.ShloMosaic.ValueIdx
open Idealize.ShloMosaic.Pipeline (Dat)
open Cert.KernelIdeal Cert.KernelIdeal.Gen

/-- The printed index maps over the 25 grid points: the state tile and the output tile of point t are tile t down the
    rows (block index (t, 0)); the matrix window is the whole matrix (block index (0, 0)). -/
theorem tileIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is tile t of the message product of the two arrays the region found. -/
theorem flushed0 (c : Dev nD) (t : Fin cfg0.N) :
    (dat0 V c).flushed 2 t
      = ((cfg0.win 2).blk t).view.read (Elt Ideal) (Cert.GGNN.message (F := Ideal) (V c main_arg0) (V c main_v9)) := by
  show (cfg0.win 2).cut (grid0.coords t) ((dat0 V c).after 2 t) = _
  rw [after0_2]
  unfold out0_2
  rw [View.canon_unit_zero zeroOffsets]
  simp only [View.ld_unit_zero (S := S2000x64) zeroOffsets, View.ld_unit_zero (S := S64x64) zeroOffsets]
  obtain ⟨e0, e1, e2, e3, e4, e5⟩ := tileIndex0 t
  have hN : cfg0.N = 25 := N_0
  have ht : t.val < 25 := by have := t.isLt; omega
  refine funext fun (j : S2000x64.Idx) => ?_
  obtain ⟨p, q, rfl⟩ : ∃ (p : Fin 2000) (q : Fin 64), j = ix2 p q := ⟨j 0, j 1, eq_ix2 j⟩
  have hp : p.val < 2000 := p.isLt
  have hr : t.val * 2000 + p.val < 50000 := by omega
  show k0_pay1 (iblk0 V c 0 t) (iblk0 V c 1 t) (ix2 p q)
      = Cert.GGNN.message (F := Ideal) (V c main_arg0) (V c main_v9) (((cfg0.win 2).blk t).view.emb (ix2 p q))
  have hemb : ((cfg0.win 2).blk t).view.emb (ix2 p q) = ix2 (⟨t.val * 2000 + p.val, hr⟩ : Fin 50000) q := by
    funext a; apply Fin.ext
    match a with
    | ⟨0, _⟩ => show win0_2.index t (0 : Fin 2) * 2000 + 1 * p.val = t.val * 2000 + p.val; omega
    | ⟨1, _⟩ => show win0_2.index t (1 : Fin 2) * 64 + 1 * q.val = q.val; omega
  rw [hemb]
  refine (k0_pay1_apply (iblk0 V c 0 t) (iblk0 V c 1 t) p q).trans
    (tileEntry_eq_message (V c main_arg0) (V c main_v9) (iblk0 V c 0 t) (iblk0 V c 1 t) p q ⟨t.val * 2000 + p.val, hr⟩
      (fun k => ?_) (fun k => ?_))
  · show V c main_arg0 (((cfg0.win 0).blk t).view.emb (ix2 p k)) = V c main_arg0 (ix2 (⟨t.val * 2000 + p.val, hr⟩ : Fin 50000) k)
    refine congrArg (V c main_arg0) ?_
    funext a; apply Fin.ext
    match a with
    | ⟨0, _⟩ => show win0_0.index t (0 : Fin 2) * 2000 + 1 * p.val = t.val * 2000 + p.val; omega
    | ⟨1, _⟩ => show win0_0.index t (1 : Fin 2) * 64 + 1 * k.val = k.val; omega
  · show V c main_v9 (((cfg0.win 1).blk t).view.emb (ix2 k q)) = V c main_v9 (ix2 k q)
    refine congrArg (V c main_v9) ?_
    funext a; apply Fin.ext
    match a with
    | ⟨0, _⟩ => show win0_1.index t (0 : Fin 2) * 64 + 1 * k.val = k.val; omega
    | ⟨1, _⟩ => show win0_1.index t (1 : Fin 2) * 64 + 1 * q.val = q.val; omega

/-- An index of the output array lies in point t's tile iff its coordinates lie in the tile's ranges. -/
theorem mem_tile0 (t : Fin cfg0.N) (i : S50000x64.Idx) :
    i ∈ ((cfg0.win 2).blk t).view.set
      ↔ ∀ a : Fin 2, win0_2.index t a * S2000x64.size a ≤ (i a).val ∧ (i a).val < win0_2.index t a * S2000x64.size a + S2000x64.size a := by
  show i ∈ ((View.whole main_v10).slice (win0_2.rect t)).set ↔ _
  rw [View.set_slice_whole, Rect.mem_set_unit]
  exact Iff.rfl

/-- Every index of the output array is written back by some point: row r lies in tile r / 2000, and
    25 · 2000 = 50000. -/
theorem cover0 (i : S50000x64.Idx) :
    ∃ t : Fin cfg0.N, (cfg0.win 2).flush t = true ∧ i ∈ ((cfg0.win 2).blk t).view.set := by
  have hN : cfg0.N = 25 := N_0
  have hi0 : (i 0).val < 50000 := (i 0).isLt
  have hi1 : (i 1).val < 64 := (i 1).isLt
  let t : Fin cfg0.N := ⟨(i 0).val / 2000, by omega⟩
  obtain ⟨e0, e1, e2, e3, e4, e5⟩ := tileIndex0 t
  have e4' : win0_2.index t (0 : Fin 2) = (i 0).val / 2000 := e4
  refine ⟨t, flush0_2 t, ?_⟩
  rw [mem_tile0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- The output array after region 0's run is the message product of the region's two input arrays as the region
    finds them. -/
theorem arr0 (V : (c : Dev nD) → (b : Ref sig .tc) → Buf (Elt Ideal) ((c : Thread nD τ).loc b)) (c : Dev nD) :
    (Gen.dat0 V c).arrAt 2 cfg0.N = Cert.GGNN.message (F := Ideal) (V c main_arg0) (V c main_v9) :=
  (dat0 V c).arrAt_eq_of_cover 2 (Cert.GGNN.message (F := Ideal) (V c main_arg0) (V c main_v9))
    (fun t _ => flushed0 V c t) cover0

end Cert.KernelIdeal.MM

end
-- ==== Proof.MMArr2.lean ====
/-
  Message region 2: the array the kernel leaves is the message product of the two arrays it found.

  The grid has 25 points; point t fetches rows 2000·t … 2000·t + 1999 of the node states and the whole 64 × 64 matrix,
  and writes back the same rows of the output. Each written entry is the tile product's entry, which is the whole
  product's entry at that row; the 25 row tiles cover all 50000 rows, so the output array is the whole product.
-/
import proofs.«134775_j74517682586461_1_alg».proof.Proof.MMBody
import proofs.«134775_j74517682586461_1_alg».proof.Proof.Gen.KernelIdeal.Frame
import proofs.«134775_j74517682586461_1_alg».proof.Proof.Spec
import Idealize.ShloMosaic.Lib.Pipeline.Value

noncomputable section

namespace Cert.KernelIdeal.MM

open Idealize.ShloMosaic Idealize.ShloMosaic.TcCoe Idealize.SL.Sem Idealize.ShloMosaic.ValueIdx
open Idealize.ShloMosaic.Pipeline (Dat)
open Cert.KernelIdeal Cert.KernelIdeal.Gen

/-- The printed index maps over the 25 grid points: the state tile and the output tile of point t are tile t down the
    rows (block index (t, 0)); the matrix window is the whole matrix (block index (0, 0)). -/
theorem tileIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point t writes back is tile t of the message product of the two arrays the region found. -/
theorem flushed2 (c : Dev nD) (t : Fin cfg2.N) :
    (dat2 V c).flushed 2 t
      = ((cfg2.win 2).blk t).view.read (Elt Ideal) (Cert.GGNN.message (F := Ideal) (V c main_v21) (V c main_v23)) := by
  show (cfg2.win 2).cut (grid2.coords t) ((dat2 V c).after 2 t) = _
  rw [after2_2]
  unfold out2_2
  rw [View.canon_unit_zero zeroOffsets]
  simp only [View.ld_unit_zero (S := S2000x64) zeroOffsets, View.ld_unit_zero (S := S64x64) zeroOffsets]
  obtain ⟨e0, e1, e2, e3, e4, e5⟩ := tileIndex2 t
  have hN : cfg2.N = 25 := N_2
  have ht : t.val < 25 := by have := t.isLt; omega
  refine funext fun (j : S2000x64.Idx) => ?_
  obtain ⟨p, q, rfl⟩ : ∃ (p : Fin 2000) (q : Fin 64), j = ix2 p q := ⟨j 0, j 1, eq_ix2 j⟩
  have hp : p.val < 2000 := p.isLt
  have hr : t.val * 2000 + p.val < 50000 := by omega
  show k2_pay1 (iblk2 V c 0 t) (iblk2 V c 1 t) (ix2 p q)
      = Cert.GGNN.message (F := Ideal) (V c main_v21) (V c main_v23) (((cfg2.win 2).blk t).view.emb (ix2 p q))
  have hemb : ((cfg2.win 2).blk t).view.emb (ix2 p q) = ix2 (⟨t.val * 2000 + p.val, hr⟩ : Fin 50000) q := by
    funext a; apply Fin.ext
    match a with
    | ⟨0, _⟩ => show win2_2.index t (0 : Fin 2) * 2000 + 1 * p.val = t.val * 2000 + p.val; omega
    | ⟨1, _⟩ => show win2_2.index t (1 : Fin 2) * 64 + 1 * q.val = q.val; omega
  rw [hemb]
  refine (k2_pay1_apply (iblk2 V c 0 t) (iblk2 V c 1 t) p q).trans
    (tileEntry_eq_message (V c main_v21) (V c main_v23) (iblk2 V c 0 t) (iblk2 V c 1 t) p q ⟨t.val * 2000 + p.val, hr⟩
      (fun k => ?_) (fun k => ?_))
  · show V c main_v21 (((cfg2.win 0).blk t).view.emb (ix2 p k)) = V c main_v21 (ix2 (⟨t.val * 2000 + p.val, hr⟩ : Fin 50000) k)
    refine congrArg (V c main_v21) ?_
    funext a; apply Fin.ext
    match a with
    | ⟨0, _⟩ => show win2_0.index t (0 : Fin 2) * 2000 + 1 * p.val = t.val * 2000 + p.val; omega
    | ⟨1, _⟩ => show win2_0.index t (1 : Fin 2) * 64 + 1 * k.val = k.val; omega
  · show V c main_v23 (((cfg2.win 1).blk t).view.emb (ix2 k q)) = V c main_v23 (ix2 k q)
    refine congrArg (V c main_v23) ?_
    funext a; apply Fin.ext
    match a with
    | ⟨0, _⟩ => show win2_1.index t (0 : Fin 2) * 64 + 1 * k.val = k.val; omega
    | ⟨1, _⟩ => show win2_1.index t (1 : Fin 2) * 64 + 1 * q.val = q.val; omega

/-- An index of the output array lies in point t's tile iff its coordinates lie in the tile's ranges. -/
theorem mem_tile2 (t : Fin cfg2.N) (i : S50000x64.Idx) :
    i ∈ ((cfg2.win 2).blk t).view.set
      ↔ ∀ a : Fin 2, win2_2.index t a * S2000x64.size a ≤ (i a).val ∧ (i a).val < win2_2.index t a * S2000x64.size a + S2000x64.size a := by
  show i ∈ ((View.whole main_v24).slice (win2_2.rect t)).set ↔ _
  rw [View.set_slice_whole, Rect.mem_set_unit]
  exact Iff.rfl

/-- Every index of the output array is written back by some point: row r lies in tile r / 2000, and
    25 · 2000 = 50000. -/
theorem cover2 (i : S50000x64.Idx) :
    ∃ t : Fin cfg2.N, (cfg2.win 2).flush t = true ∧ i ∈ ((cfg2.win 2).blk t).view.set := by
  have hN : cfg2.N = 25 := N_2
  have hi0 : (i 0).val < 50000 := (i 0).isLt
  have hi1 : (i 1).val < 64 := (i 1).isLt
  let t : Fin cfg2.N := ⟨(i 0).val / 2000, by omega⟩
  obtain ⟨e0, e1, e2, e3, e4, e5⟩ := tileIndex2 t
  have e4' : win2_2.index t (0 : Fin 2) = (i 0).val / 2000 := e4
  refine ⟨t, flush2_2 t, ?_⟩
  rw [mem_tile2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- The output array after region 2's run is the message product of the region's two input arrays as the region
    finds them. -/
theorem arr2 (V : (c : Dev nD) → (b : Ref sig .tc) → Buf (Elt Ideal) ((c : Thread nD τ).loc b)) (c : Dev nD) :
    (Gen.dat2 V c).arrAt 2 cfg2.N = Cert.GGNN.message (F := Ideal) (V c main_v21) (V c main_v23) :=
  (dat2 V c).arrAt_eq_of_cover 2 (Cert.GGNN.message (F := Ideal) (V c main_v21) (V c main_v23))
    (fun t _ => flushed2 V c t) cover2

end Cert.KernelIdeal.MM

end
-- ==== Proof.MMArr4.lean ====
/-
  Message region 4: the array the kernel leaves is the message product of the two arrays it found.

  The grid has 25 points; point t fetches rows 2000·t … 2000·t + 1999 of the node states and the whole 64 × 64 matrix,
  and writes back the same rows of the output. Each written entry is the tile product's entry, which is the whole
  product's entry at that row; the 25 row tiles cover all 50000 rows, so the output array is the whole product.
-/
import proofs.«134775_j74517682586461_1_alg».proof.Proof.MMBody
import proofs.«134775_j74517682586461_1_alg».proof.Proof.Gen.KernelIdeal.Frame
import proofs.«134775_j74517682586461_1_alg».proof.Proof.Spec
import Idealize.ShloMosaic.Lib.Pipeline.Value

noncomputable section

namespace Cert.KernelIdeal.MM

open Idealize.ShloMosaic Idealize.ShloMosaic.TcCoe Idealize.SL.Sem Idealize.ShloMosaic.ValueIdx
open Idealize.ShloMosaic.Pipeline (Dat)
open Cert.KernelIdeal Cert.KernelIdeal.Gen

/-- The printed index maps over the 25 grid points: the state tile and the output tile of point t are tile t down the
    rows (block index (t, 0)); the matrix window is the whole matrix (block index (0, 0)). -/
theorem tileIndex4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

/-- What point t writes back is tile t of the message product of the two arrays the region found. -/
theorem flushed4 (c : Dev nD) (t : Fin cfg4.N) :
    (dat4 V c).flushed 2 t
      = ((cfg4.win 2).blk t).view.read (Elt Ideal) (Cert.GGNN.message (F := Ideal) (V c main_v35) (V c main_v37)) := by
  show (cfg4.win 2).cut (grid4.coords t) ((dat4 V c).after 2 t) = _
  rw [after4_2]
  unfold out4_2
  rw [View.canon_unit_zero zeroOffsets]
  simp only [View.ld_unit_zero (S := S2000x64) zeroOffsets, View.ld_unit_zero (S := S64x64) zeroOffsets]
  obtain ⟨e0, e1, e2, e3, e4, e5⟩ := tileIndex4 t
  have hN : cfg4.N = 25 := N_4
  have ht : t.val < 25 := by have := t.isLt; omega
  refine funext fun (j : S2000x64.Idx) => ?_
  obtain ⟨p, q, rfl⟩ : ∃ (p : Fin 2000) (q : Fin 64), j = ix2 p q := ⟨j 0, j 1, eq_ix2 j⟩
  have hp : p.val < 2000 := p.isLt
  have hr : t.val * 2000 + p.val < 50000 := by omega
  show k4_pay1 (iblk4 V c 0 t) (iblk4 V c 1 t) (ix2 p q)
      = Cert.GGNN.message (F := Ideal) (V c main_v35) (V c main_v37) (((cfg4.win 2).blk t).view.emb (ix2 p q))
  have hemb : ((cfg4.win 2).blk t).view.emb (ix2 p q) = ix2 (⟨t.val * 2000 + p.val, hr⟩ : Fin 50000) q := by
    funext a; apply Fin.ext
    match a with
    | ⟨0, _⟩ => show win4_2.index t (0 : Fin 2) * 2000 + 1 * p.val = t.val * 2000 + p.val; omega
    | ⟨1, _⟩ => show win4_2.index t (1 : Fin 2) * 64 + 1 * q.val = q.val; omega
  rw [hemb]
  refine (k4_pay1_apply (iblk4 V c 0 t) (iblk4 V c 1 t) p q).trans
    (tileEntry_eq_message (V c main_v35) (V c main_v37) (iblk4 V c 0 t) (iblk4 V c 1 t) p q ⟨t.val * 2000 + p.val, hr⟩
      (fun k => ?_) (fun k => ?_))
  · show V c main_v35 (((cfg4.win 0).blk t).view.emb (ix2 p k)) = V c main_v35 (ix2 (⟨t.val * 2000 + p.val, hr⟩ : Fin 50000) k)
    refine congrArg (V c main_v35) ?_
    funext a; apply Fin.ext
    match a with
    | ⟨0, _⟩ => show win4_0.index t (0 : Fin 2) * 2000 + 1 * p.val = t.val * 2000 + p.val; omega
    | ⟨1, _⟩ => show win4_0.index t (1 : Fin 2) * 64 + 1 * k.val = k.val; omega
  · show V c main_v37 (((cfg4.win 1).blk t).view.emb (ix2 k q)) = V c main_v37 (ix2 k q)
    refine congrArg (V c main_v37) ?_
    funext a; apply Fin.ext
    match a with
    | ⟨0, _⟩ => show win4_1.index t (0 : Fin 2) * 64 + 1 * k.val = k.val; omega
    | ⟨1, _⟩ => show win4_1.index t (1 : Fin 2) * 64 + 1 * q.val = q.val; omega

/-- An index of the output array lies in point t's tile iff its coordinates lie in the tile's ranges. -/
theorem mem_tile4 (t : Fin cfg4.N) (i : S50000x64.Idx) :
    i ∈ ((cfg4.win 2).blk t).view.set
      ↔ ∀ a : Fin 2, win4_2.index t a * S2000x64.size a ≤ (i a).val ∧ (i a).val < win4_2.index t a * S2000x64.size a + S2000x64.size a := by
  show i ∈ ((View.whole main_v38).slice (win4_2.rect t)).set ↔ _
  rw [View.set_slice_whole, Rect.mem_set_unit]
  exact Iff.rfl

/-- Every index of the output array is written back by some point: row r lies in tile r / 2000, and
    25 · 2000 = 50000. -/
theorem cover4 (i : S50000x64.Idx) :
    ∃ t : Fin cfg4.N, (cfg4.win 2).flush t = true ∧ i ∈ ((cfg4.win 2).blk t).view.set := by
  have hN : cfg4.N = 25 := N_4
  have hi0 : (i 0).val < 50000 := (i 0).isLt
  have hi1 : (i 1).val < 64 := (i 1).isLt
  let t : Fin cfg4.N := ⟨(i 0).val / 2000, by omega⟩
  obtain ⟨e0, e1, e2, e3, e4, e5⟩ := tileIndex4 t
  have e4' : win4_2.index t (0 : Fin 2) = (i 0).val / 2000 := e4
  refine ⟨t, flush4_2 t, ?_⟩
  rw [mem_tile4]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 64 ≤ (i 1).val ∧ (i 1).val < win4_2.index t (1 : Fin 2) * 64 + 64; omega

/-- The output array after region 4's run is the message product of the region's two input arrays as the region
    finds them. -/
theorem arr4 (V : (c : Dev nD) → (b : Ref sig .tc) → Buf (Elt Ideal) ((c : Thread nD τ).loc b)) (c : Dev nD) :
    (Gen.dat4 V c).arrAt 2 cfg4.N = Cert.GGNN.message (F := Ideal) (V c main_v35) (V c main_v37) :=
  (dat4 V c).arrAt_eq_of_cover 2 (Cert.GGNN.message (F := Ideal) (V c main_v35) (V c main_v37))
    (fun t _ => flushed4 V c t) cover4

end Cert.KernelIdeal.MM

end
-- ==== Proof.MMArr6.lean ====
/-
  Message region 6: the array the kernel leaves is the message product of the two arrays it found.

  The grid has 25 points; point t fetches rows 2000·t … 2000·t + 1999 of the node states and the whole 64 × 64 matrix,
  and writes back the same rows of the output. Each written entry is the tile product's entry, which is the whole
  product's entry at that row; the 25 row tiles cover all 50000 rows, so the output array is the whole product.
-/
import proofs.«134775_j74517682586461_1_alg».proof.Proof.MMBody
import proofs.«134775_j74517682586461_1_alg».proof.Proof.Gen.KernelIdeal.Frame
import proofs.«134775_j74517682586461_1_alg».proof.Proof.Spec
import Idealize.ShloMosaic.Lib.Pipeline.Value

noncomputable section

namespace Cert.KernelIdeal.MM

open Idealize.ShloMosaic Idealize.ShloMosaic.TcCoe Idealize.SL.Sem Idealize.ShloMosaic.ValueIdx
open Idealize.ShloMosaic.Pipeline (Dat)
open Cert.KernelIdeal Cert.KernelIdeal.Gen

/-- The printed index maps over the 25 grid points: the state tile and the output tile of point t are tile t down the
    rows (block index (t, 0)); the matrix window is the whole matrix (block index (0, 0)). -/
theorem tileIndex6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

variable (V : (c : Dev nD) → (b : Ref sig .tc) → Buf (Elt Ideal) ((c : Thread nD τ).loc b))

/-- What point t writes back is tile t of the message product of the two arrays the region found. -/
theorem flushed6 (c : Dev nD) (t : Fin cfg6.N) :
    (dat6 V c).flushed 2 t
      = ((cfg6.win 2).blk t).view.read (Elt Ideal) (Cert.GGNN.message (F := Ideal) (V c main_v49) (V c main_v51)) := by
  show (cfg6.win 2).cut (grid6.coords t) ((dat6 V c).after 2 t) = _
  rw [after6_2]
  unfold out6_2
  rw [View.canon_unit_zero zeroOffsets]
  simp only [View.ld_unit_zero (S := S2000x64) zeroOffsets, View.ld_unit_zero (S := S64x64) zeroOffsets]
  obtain ⟨e0, e1, e2, e3, e4, e5⟩ := tileIndex6 t
  have hN : cfg6.N = 25 := N_6
  have ht : t.val < 25 := by have := t.isLt; omega
  refine funext fun (j : S2000x64.Idx) => ?_
  obtain ⟨p, q, rfl⟩ : ∃ (p : Fin 2000) (q : Fin 64), j = ix2 p q := ⟨j 0, j 1, eq_ix2 j⟩
  have hp : p.val < 2000 := p.isLt
  have hr : t.val * 2000 + p.val < 50000 := by omega
  show k6_pay1 (iblk6 V c 0 t) (iblk6 V c 1 t) (ix2 p q)
      = Cert.GGNN.message (F := Ideal) (V c main_v49) (V c main_v51) (((cfg6.win 2).blk t).view.emb (ix2 p q))
  have hemb : ((cfg6.win 2).blk t).view.emb (ix2 p q) = ix2 (⟨t.val * 2000 + p.val, hr⟩ : Fin 50000) q := by
    funext a; apply Fin.ext
    match a with
    | ⟨0, _⟩ => show win6_2.index t (0 : Fin 2) * 2000 + 1 * p.val = t.val * 2000 + p.val; omega
    | ⟨1, _⟩ => show win6_2.index t (1 : Fin 2) * 64 + 1 * q.val = q.val; omega
  rw [hemb]
  refine (k6_pay1_apply (iblk6 V c 0 t) (iblk6 V c 1 t) p q).trans
    (tileEntry_eq_message (V c main_v49) (V c main_v51) (iblk6 V c 0 t) (iblk6 V c 1 t) p q ⟨t.val * 2000 + p.val, hr⟩
      (fun k => ?_) (fun k => ?_))
  · show V c main_v49 (((cfg6.win 0).blk t).view.emb (ix2 p k)) = V c main_v49 (ix2 (⟨t.val * 2000 + p.val, hr⟩ : Fin 50000) k)
    refine congrArg (V c main_v49) ?_
    funext a; apply Fin.ext
    match a with
    | ⟨0, _⟩ => show win6_0.index t (0 : Fin 2) * 2000 + 1 * p.val = t.val * 2000 + p.val; omega
    | ⟨1, _⟩ => show win6_0.index t (1 : Fin 2) * 64 + 1 * k.val = k.val; omega
  · show V c main_v51 (((cfg6.win 1).blk t).view.emb (ix2 k q)) = V c main_v51 (ix2 k q)
    refine congrArg (V c main_v51) ?_
    funext a; apply Fin.ext
    match a with
    | ⟨0, _⟩ => show win6_1.index t (0 : Fin 2) * 64 + 1 * k.val = k.val; omega
    | ⟨1, _⟩ => show win6_1.index t (1 : Fin 2) * 64 + 1 * q.val = q.val; omega

/-- An index of the output array lies in point t's tile iff its coordinates lie in the tile's ranges. -/
theorem mem_tile6 (t : Fin cfg6.N) (i : S50000x64.Idx) :
    i ∈ ((cfg6.win 2).blk t).view.set
      ↔ ∀ a : Fin 2, win6_2.index t a * S2000x64.size a ≤ (i a).val ∧ (i a).val < win6_2.index t a * S2000x64.size a + S2000x64.size a := by
  show i ∈ ((View.whole main_v52).slice (win6_2.rect t)).set ↔ _
  rw [View.set_slice_whole, Rect.mem_set_unit]
  exact Iff.rfl

/-- Every index of the output array is written back by some point: row r lies in tile r / 2000, and
    25 · 2000 = 50000. -/
theorem cover6 (i : S50000x64.Idx) :
    ∃ t : Fin cfg6.N, (cfg6.win 2).flush t = true ∧ i ∈ ((cfg6.win 2).blk t).view.set := by
  have hN : cfg6.N = 25 := N_6
  have hi0 : (i 0).val < 50000 := (i 0).isLt
  have hi1 : (i 1).val < 64 := (i 1).isLt
  let t : Fin cfg6.N := ⟨(i 0).val / 2000, by omega⟩
  obtain ⟨e0, e1, e2, e3, e4, e5⟩ := tileIndex6 t
  have e4' : win6_2.index t (0 : Fin 2) = (i 0).val / 2000 := e4
  refine ⟨t, flush6_2 t, ?_⟩
  rw [mem_tile6]
  intro a
  match a with
  | ⟨0, _⟩ => show win6_2.index t (0 : Fin 2) * 2000 ≤ (i 0).val ∧ (i 0).val < win6_2.index t (0 : Fin 2) * 2000 + 2000; omega
  | ⟨1, _⟩ => show win6_2.index t (1 : Fin 2) * 64 ≤ (i 1).val ∧ (i 1).val < win6_2.index t (1 : Fin 2) * 64 + 64; omega

/-- The output array after region 6's run is the message product of the region's two input arrays as the region
    finds them. -/
theorem arr6 (V : (c : Dev nD) → (b : Ref sig .tc) → Buf (Elt Ideal) ((c : Thread nD τ).loc b)) (c : Dev nD) :
    (Gen.dat6 V c).arrAt 2 cfg6.N = Cert.GGNN.message (F := Ideal) (V c main_v49) (V c main_v51) :=
  (dat6 V c).arrAt_eq_of_cover 2 (Cert.GGNN.message (F := Ideal) (V c main_v49) (V c main_v51))
    (fun t _ => flushed6 V c t) cover6

end Cert.KernelIdeal.MM

end
-- ==== Proof.MMArr8.lean ====
/-
  Message region 8: the array the kernel leaves is the message product of the two arrays it found.

  The grid has 25 points; point t fetches rows 2000·t … 2000·t + 1999 of the node states and the whole 64 × 64 matrix,
  and writes back the same rows of the output. Each written entry is the tile product's entry, which is the whole
  product's entry at that row; the 25 row tiles cover all 50000 rows, so the output array is the whole product.
-/
import proofs.«134775_j74517682586461_1_alg».proof.Proof.MMBody
import proofs.«134775_j74517682586461_1_alg».proof.Proof.Gen.KernelIdeal.Frame
import proofs.«134775_j74517682586461_1_alg».proof.Proof.Spec
import Idealize.ShloMosaic.Lib.Pipeline.Value

noncomputable section

namespace Cert.KernelIdeal.MM

open Idealize.ShloMosaic Idealize.ShloMosaic.TcCoe Idealize.SL.Sem Idealize.ShloMosaic.ValueIdx
open Idealize.ShloMosaic.Pipeline (Dat)
open Cert.KernelIdeal Cert.KernelIdeal.Gen

/-- The printed index maps over the 25 grid points: the state tile and the output tile of point t are tile t down the
    rows (block index (t, 0)); the matrix window is the whole matrix (block index (0, 0)). -/
theorem tileIndex8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

variable (V : (c : Dev nD) → (b : Ref sig .tc) → Buf (Elt Ideal) ((c : Thread nD τ).loc b))

/-- What point t writes back is tile t of the message product of the two arrays the region found. -/
theorem flushed8 (c : Dev nD) (t : Fin cfg8.N) :
    (dat8 V c).flushed 2 t
      = ((cfg8.win 2).blk t).view.read (Elt Ideal) (Cert.GGNN.message (F := Ideal) (V c main_v63) (V c main_v65)) := by
  show (cfg8.win 2).cut (grid8.coords t) ((dat8 V c).after 2 t) = _
  rw [after8_2]
  unfold out8_2
  rw [View.canon_unit_zero zeroOffsets]
  simp only [View.ld_unit_zero (S := S2000x64) zeroOffsets, View.ld_unit_zero (S := S64x64) zeroOffsets]
  obtain ⟨e0, e1, e2, e3, e4, e5⟩ := tileIndex8 t
  have hN : cfg8.N = 25 := N_8
  have ht : t.val < 25 := by have := t.isLt; omega
  refine funext fun (j : S2000x64.Idx) => ?_
  obtain ⟨p, q, rfl⟩ : ∃ (p : Fin 2000) (q : Fin 64), j = ix2 p q := ⟨j 0, j 1, eq_ix2 j⟩
  have hp : p.val < 2000 := p.isLt
  have hr : t.val * 2000 + p.val < 50000 := by omega
  show k8_pay1 (iblk8 V c 0 t) (iblk8 V c 1 t) (ix2 p q)
      = Cert.GGNN.message (F := Ideal) (V c main_v63) (V c main_v65) (((cfg8.win 2).blk t).view.emb (ix2 p q))
  have hemb : ((cfg8.win 2).blk t).view.emb (ix2 p q) = ix2 (⟨t.val * 2000 + p.val, hr⟩ : Fin 50000) q := by
    funext a; apply Fin.ext
    match a with
    | ⟨0, _⟩ => show win8_2.index t (0 : Fin 2) * 2000 + 1 * p.val = t.val * 2000 + p.val; omega
    | ⟨1, _⟩ => show win8_2.index t (1 : Fin 2) * 64 + 1 * q.val = q.val; omega
  rw [hemb]
  refine (k8_pay1_apply (iblk8 V c 0 t) (iblk8 V c 1 t) p q).trans
    (tileEntry_eq_message (V c main_v63) (V c main_v65) (iblk8 V c 0 t) (iblk8 V c 1 t) p q ⟨t.val * 2000 + p.val, hr⟩
      (fun k => ?_) (fun k => ?_))
  · show V c main_v63 (((cfg8.win 0).blk t).view.emb (ix2 p k)) = V c main_v63 (ix2 (⟨t.val * 2000 + p.val, hr⟩ : Fin 50000) k)
    refine congrArg (V c main_v63) ?_
    funext a; apply Fin.ext
    match a with
    | ⟨0, _⟩ => show win8_0.index t (0 : Fin 2) * 2000 + 1 * p.val = t.val * 2000 + p.val; omega
    | ⟨1, _⟩ => show win8_0.index t (1 : Fin 2) * 64 + 1 * k.val = k.val; omega
  · show V c main_v65 (((cfg8.win 1).blk t).view.emb (ix2 k q)) = V c main_v65 (ix2 k q)
    refine congrArg (V c main_v65) ?_
    funext a; apply Fin.ext
    match a with
    | ⟨0, _⟩ => show win8_1.index t (0 : Fin 2) * 64 + 1 * k.val = k.val; omega
    | ⟨1, _⟩ => show win8_1.index t (1 : Fin 2) * 64 + 1 * q.val = q.val; omega

/-- An index of the output array lies in point t's tile iff its coordinates lie in the tile's ranges. -/
theorem mem_tile8 (t : Fin cfg8.N) (i : S50000x64.Idx) :
    i ∈ ((cfg8.win 2).blk t).view.set
      ↔ ∀ a : Fin 2, win8_2.index t a * S2000x64.size a ≤ (i a).val ∧ (i a).val < win8_2.index t a * S2000x64.size a + S2000x64.size a := by
  show i ∈ ((View.whole main_v66).slice (win8_2.rect t)).set ↔ _
  rw [View.set_slice_whole, Rect.mem_set_unit]
  exact Iff.rfl

/-- Every index of the output array is written back by some point: row r lies in tile r / 2000, and
    25 · 2000 = 50000. -/
theorem cover8 (i : S50000x64.Idx) :
    ∃ t : Fin cfg8.N, (cfg8.win 2).flush t = true ∧ i ∈ ((cfg8.win 2).blk t).view.set := by
  have hN : cfg8.N = 25 := N_8
  have hi0 : (i 0).val < 50000 := (i 0).isLt
  have hi1 : (i 1).val < 64 := (i 1).isLt
  let t : Fin cfg8.N := ⟨(i 0).val / 2000, by omega⟩
  obtain ⟨e0, e1, e2, e3, e4, e5⟩ := tileIndex8 t
  have e4' : win8_2.index t (0 : Fin 2) = (i 0).val / 2000 := e4
  refine ⟨t, flush8_2 t, ?_⟩
  rw [mem_tile8]
  intro a
  match a with
  | ⟨0, _⟩ => show win8_2.index t (0 : Fin 2) * 2000 ≤ (i 0).val ∧ (i 0).val < win8_2.index t (0 : Fin 2) * 2000 + 2000; omega
  | ⟨1, _⟩ => show win8_2.index t (1 : Fin 2) * 64 ≤ (i 1).val ∧ (i 1).val < win8_2.index t (1 : Fin 2) * 64 + 64; omega

/-- The output array after region 8's run is the message product of the region's two input arrays as the region
    finds them. -/
theorem arr8 (V : (c : Dev nD) → (b : Ref sig .tc) → Buf (Elt Ideal) ((c : Thread nD τ).loc b)) (c : Dev nD) :
    (Gen.dat8 V c).arrAt 2 cfg8.N = Cert.GGNN.message (F := Ideal) (V c main_v63) (V c main_v65) :=
  (dat8 V c).arrAt_eq_of_cover 2 (Cert.GGNN.message (F := Ideal) (V c main_v63) (V c main_v65))
    (fun t _ => flushed8 V c t) cover8

end Cert.KernelIdeal.MM

end
-- ==== Proof.GRUCell.lean ====
/-
  The GRU cell at ONE entry, over the extended reals.

  For a row `a` of aggregated messages and a row `h` of node states (each 64 long), two transposed weight matrices
  `wihT`, `whhT` (64 × 192) and two bias rows `bi`, `bh` (1 × 192):
    gi j = (Σ_k a k · wihT[k, j]) + bi[0, j],   gh j = (Σ_k h k · whhT[k, j]) + bh[0, j]      (j < 192)
    r = logistic (gi q + gh q),   z = logistic (gi (64 + q) + gh (64 + q)),   n = tanh (gi (128 + q) + r · gh (128 + q))
    h' q = (1 − z) · n + z · h q                                                            (q < 64).
  Both the tiled kernel body (on a 2000-row block) and the whole-array update (on 50000 rows) are this function of the
  row they sit in; the two are compared entry by entry through it.
-/
import Idealize.ShloMosaic.Lib.ValueIdx

noncomputable section

open scoped BigOperators

namespace Cert.KernelIdeal.GRU

open Idealize.ShloMosaic Idealize.ShloMosaic.ValueIdx

/-- One entry of an affine gate map: the row `x` against column `j` of `wT`, plus entry `j` of the bias row. -/
def gate (x : Fin 64 → EReal) (wT : (⟨2, ![64, 192]⟩ : Shape).Idx → EReal) (b : (⟨2, ![1, 192]⟩ : Shape).Idx → EReal)
    (j : Fin 192) : EReal :=
  (∑ k : Fin 64, x k * wT (ix2 k j)) + b (ix2 (0 : Fin 1) j)

/-- Column `q` of the reset-gate third of the 192 gate columns. -/
def colR (q : Fin 64) : Fin 192 := ⟨q.val, by have := q.isLt; omega⟩
/-- Column `q` of the update-gate third: `64 + q`. -/
def colZ (q : Fin 64) : Fin 192 := ⟨64 + q.val, by have := q.isLt; omega⟩
/-- Column `q` of the candidate third: `128 + q`. -/
def colN (q : Fin 64) : Fin 192 := ⟨128 + q.val, by have := q.isLt; omega⟩

/-- The updated state at column `q` of a node whose aggregated-message row is `a` and whose old state row is `h`:
    `(1 − z) · n + z · h q` with the gates `r`, `z`, `n` as in the header. -/
def cell (a h : Fin 64 → EReal) (wihT whhT : (⟨2, ![64, 192]⟩ : Shape).Idx → EReal)
    (bi bh : (⟨2, ![1, 192]⟩ : Shape).Idx → EReal) (q : Fin 64) : EReal :=
  (1 - Ideal.logistic (gate a wihT bi (colZ q) + gate h whhT bh (colZ q)))
      * Ideal.tanh (gate a wihT bi (colN q)
          + Ideal.logistic (gate a wihT bi (colR q) + gate h whhT bh (colR q)) * gate h whhT bh (colN q))
    + Ideal.logistic (gate a wihT bi (colZ q) + gate h whhT bh (colZ q)) * h q

/-- The cell depends only on its two rows, the two matrices and the two bias rows: equal data give equal cells. -/
theorem cell_congr {a a' h h' : Fin 64 → EReal} {w1 w1' w2 w2' : (⟨2, ![64, 192]⟩ : Shape).Idx → EReal}
    {b1 b1' b2 b2' : (⟨2, ![1, 192]⟩ : Shape).Idx → EReal} (ea : a = a') (eh : h = h') (e1 : w1 = w1') (e2 : w2 = w2')
    (e3 : b1 = b1') (e4 : b2 = b2') (q : Fin 64) : cell a h w1 w2 b1 b2 q = cell a' h' w1' w2' b1' b2' q := by
  subst ea eh e1 e2 e3 e4; rfl

/-- The zero offset of a rank-2 access, as the constant function. -/
theorem hz : (![0, 0] : Fin 2 → Nat) = fun _ => 0 := funext fun a => by fin_cases a <;> rfl

end Cert.KernelIdeal.GRU

end
-- ==== Proof.GRUBody.lean ====
/-
  The tiled GRU body at one entry.

  On a block of 2000 rows the body forms the two gate arrays gi = agg · wihT + bi, gh = h · whhT + bh (2000 × 192; the
  products accumulate into zero, the bias row is laid down the rows), cuts each into its three 64-column thirds, and
  combines them with the old state: r = logistic (gi_r + gh_r), z = logistic (gi_z + gh_z), n = tanh (gi_n + r · gh_n),
  h' = (1 − z) · n + z · h. Read at row p, column q this is `cell` of row p of the two blocks: a product entry is
  Σ_k x[p,k] · w[k,j], a bias entry is b[0,j], a third's column q is column q, 64 + q or 128 + q of the gate array, and
  the pointwise operations are the extended reals' own.
-/
import proofs.«134775_j74517682586461_1_alg».proof.Proof.Gen.KernelIdeal.Skeleton
import proofs.«134775_j74517682586461_1_alg».proof.Proof.GRUCell
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.KernelIdeal.GRU

open Idealize.ShloMosaic Idealize.ShloMosaic.ValueIdx Cert.KernelIdeal Cert.KernelIdeal.Gen

/-! ## The block product's operand indices: rows × contraction against contraction × columns -/

/-- The left operand's row is the output's row. -/
theorem lhs_row (i : S2000x192.Idx) (q : dot_S2000x64_S64x192_S2000x192_1_0_0_1_n_n.contr.Idx) :
    (dot_S2000x64_S64x192_S2000x192_1_0_0_1_n_n.lhsIdx i q 0).val = (i 0).val := by
  unfold DotDims.lhsIdx
  rw [dif_neg (show ¬(0 : Fin S2000x64.rank) ∈ dot_S2000x64_S64x192_S2000x192_1_0_0_1_n_n.lhsBatch by decide),
    dif_pos (show (0 : Fin S2000x64.rank) ∈ dot_S2000x64_S64x192_S2000x192_1_0_0_1_n_n.lhsNonContracting by decide)]
  rfl

/-- The left operand's column is the contraction position. -/
theorem lhs_col (i : S2000x192.Idx) (q : dot_S2000x64_S64x192_S2000x192_1_0_0_1_n_n.contr.Idx) :
    (dot_S2000x64_S64x192_S2000x192_1_0_0_1_n_n.lhsIdx i q 1).val = (q ⟨0, by decide⟩).val :=
  dot_S2000x64_S64x192_S2000x192_1_0_0_1_n_n.lhsIdx_val_of_single rfl i q

/-- The right operand's row is the contraction position. -/
theorem rhs_row (i : S2000x192.Idx) (q : dot_S2000x64_S64x192_S2000x192_1_0_0_1_n_n.contr.Idx) :
    (dot_S2000x64_S64x192_S2000x192_1_0_0_1_n_n.rhsIdx i q 0).val = (q ⟨0, by decide⟩).val :=
  dot_S2000x64_S64x192_S2000x192_1_0_0_1_n_n.rhsIdx_val_of_single rfl i q

/-- The right operand's column is the output's column. -/
theorem rhs_col (i : S2000x192.Idx) (q : dot_S2000x64_S64x192_S2000x192_1_0_0_1_n_n.contr.Idx) :
    (dot_S2000x64_S64x192_S2000x192_1_0_0_1_n_n.rhsIdx i q 1).val = (i 1).val := by
  unfold DotDims.rhsIdx
  rw [dif_neg (show ¬(1 : Fin S64x192.rank) ∈ dot_S2000x64_S64x192_S2000x192_1_0_0_1_n_n.rhsBatch by decide),
    dif_pos (show (1 : Fin S64x192.rank) ∈ dot_S2000x64_S64x192_S2000x192_1_0_0_1_n_n.rhsNonContracting by decide)]
  rfl

/-- The block product into the zero accumulator, at row `p` and column `j`: Σ_k x[p,k] · w[k,j]. -/
theorem matmul_at (x : FVec Ideal S2000x64 .bf16) (w : FVec Ideal S64x192 .bf16) (p : Fin 2000) (j : Fin 192) :
    matmul dot_S2000x64_S64x192_S2000x192_1_0_0_1_n_n none x w (constant S2000x192 .f32 0x00000000#32) (ix2 p j)
      = ∑ k : Fin 64, x (ix2 p k) * w (ix2 k j) := by
  show FloatOps.matmul dot_S2000x64_S64x192_S2000x192_1_0_0_1_n_n none x w (constant S2000x192 .f32 0x00000000#32) (ix2 p j) = _
  rw [Ideal.matmul_constant_zero_apply, ← Equiv.sum_comp (contrEquiv1 dot_S2000x64_S64x192_S2000x192_1_0_0_1_n_n 64 rfl rfl).symm]
  refine Finset.sum_congr rfl fun k _ => ?_
  have hk := contrEquiv1_symm_val dot_S2000x64_S64x192_S2000x192_1_0_0_1_n_n 64 rfl rfl k
  have el : dot_S2000x64_S64x192_S2000x192_1_0_0_1_n_n.lhsIdx (ix2 p j) ((contrEquiv1 dot_S2000x64_S64x192_S2000x192_1_0_0_1_n_n 64 rfl rfl).symm k) = ix2 p k :=
    funext fun a => Fin.ext (by
      match a with
      | ⟨0, _⟩ => exact lhs_row _ _
      | ⟨1, _⟩ => exact (lhs_col _ _).trans hk)
  have er : dot_S2000x64_S64x192_S2000x192_1_0_0_1_n_n.rhsIdx (ix2 p j) ((contrEquiv1 dot_S2000x64_S64x192_S2000x192_1_0_0_1_n_n 64 rfl rfl).symm k) = ix2 k j :=
    funext fun a => Fin.ext (by
      match a with
      | ⟨0, _⟩ => exact (rhs_row _ _).trans hk
      | ⟨1, _⟩ => exact rhs_col _ _)
  rw [el, er]

/-! ## The pointwise operations and the three thirds at an entry -/

/-- The logistic of a vector at an entry is the logistic of the entry. -/
theorem logistic_apply {s : Shape} {φ : FTy} (x : FVec Ideal s φ) (i : s.Idx) : logistic x i = Ideal.logistic (x i) := rfl
/-- The hyperbolic tangent of a vector at an entry is that of the entry. -/
theorem tanh_apply {s : Shape} {φ : FTy} (x : FVec Ideal s φ) (i : s.Idx) : tanh x i = Ideal.tanh (x i) := rfl

/-- Column `q` of the first third of a gate array is its column `q`. -/
theorem sliceR_at (X : FVec Ideal S2000x192 .f32) (p : Fin 2000) (q : Fin 64) :
    extractStridedSlice S2000x64 ![0, 0] X slices_S2000x192_o0_0_S2000x64 (ix2 p q) = X (ix2 p (colR q)) :=
  slice2_axis1_apply 0 X _ p q (colR q) (Nat.zero_add _).symm
/-- Column `q` of the second third of a gate array is its column `64 + q`. -/
theorem sliceZ_at (X : FVec Ideal S2000x192 .f32) (p : Fin 2000) (q : Fin 64) :
    extractStridedSlice S2000x64 ![0, 64] X slices_S2000x192_o0_64_S2000x64 (ix2 p q) = X (ix2 p (colZ q)) :=
  slice2_axis1_apply 64 X _ p q (colZ q) rfl
/-- Column `q` of the last third of a gate array is its column `128 + q`. -/
theorem sliceN_at (X : FVec Ideal S2000x192 .f32) (p : Fin 2000) (q : Fin 64) :
    extractStridedSlice S2000x64 ![0, 128] X slices_S2000x192_o0_128_S2000x64 (ix2 p q) = X (ix2 p (colN q)) :=
  slice2_axis1_apply 128 X _ p q (colN q) rfl

/-! ## The five bodies (one function, printed five times) -/

/-- The body of GRU region 1 at row `p`, column `q` of its block: the cell of row `p` of the aggregate block and of the
    old-state block (the body's changes of float format and identity reshapes read through). -/
theorem k1_pay1_at (h agg : Vec Ideal S2000x64 .f32) (wih whh : Vec Ideal S64x192 .f32) (bi bh : Vec Ideal S1x192 .f32)
    (p : Fin 2000) (q : Fin 64) :
    k1_pay1 h agg wih whh bi bh (ix2 p q)
      = cell (fun k => agg (ix2 p k)) (fun k => h (ix2 p k)) wih whh bi bh q := by
  unfold k1_pay1
  simp only [shapeCast_self]
  simp only [addf_apply, mulf_apply, subf_apply, broadcast_apply, logistic_apply, tanh_apply, sliceR_at, sliceZ_at,
    sliceN_at, matmul_at, truncf_apply, broadcastTo_1b_ab_apply, Ideal.ofBits_def, Ideal.ofBits_one_f32]
  rfl

/-- The body of GRU region 3 at row `p`, column `q` of its block: the cell of row `p` of the aggregate block and of the
    old-state block (the body's changes of float format and identity reshapes read through). -/
theorem k3_pay1_at (h agg : Vec Ideal S2000x64 .f32) (wih whh : Vec Ideal S64x192 .f32) (bi bh : Vec Ideal S1x192 .f32)
    (p : Fin 2000) (q : Fin 64) :
    k3_pay1 h agg wih whh bi bh (ix2 p q)
      = cell (fun k => agg (ix2 p k)) (fun k => h (ix2 p k)) wih whh bi bh q := by
  unfold k3_pay1
  simp only [shapeCast_self]
  simp only [addf_apply, mulf_apply, subf_apply, broadcast_apply, logistic_apply, tanh_apply, sliceR_at, sliceZ_at,
    sliceN_at, matmul_at, truncf_apply, broadcastTo_1b_ab_apply, Ideal.ofBits_def, Ideal.ofBits_one_f32]
  rfl

/-- The body of GRU region 5 at row `p`, column `q` of its block: the cell of row `p` of the aggregate block and of the
    old-state block (the body's changes of float format and identity reshapes read through). -/
theorem k5_pay1_at (h agg : Vec Ideal S2000x64 .f32) (wih whh : Vec Ideal S64x192 .f32) (bi bh : Vec Ideal S1x192 .f32)
    (p : Fin 2000) (q : Fin 64) :
    k5_pay1 h agg wih whh bi bh (ix2 p q)
      = cell (fun k => agg (ix2 p k)) (fun k => h (ix2 p k)) wih whh bi bh q := by
  unfold k5_pay1
  simp only [shapeCast_self]
  simp only [addf_apply, mulf_apply, subf_apply, broadcast_apply, logistic_apply, tanh_apply, sliceR_at, sliceZ_at,
    sliceN_at, matmul_at, truncf_apply, broadcastTo_1b_ab_apply, Ideal.ofBits_def, Ideal.ofBits_one_f32]
  rfl

/-- The body of GRU region 7 at row `p`, column `q` of its block: the cell of row `p` of the aggregate block and of the
    old-state block (the body's changes of float format and identity reshapes read through). -/
theorem k7_pay1_at (h agg : Vec Ideal S2000x64 .f32) (wih whh : Vec Ideal S64x192 .f32) (bi bh : Vec Ideal S1x192 .f32)
    (p : Fin 2000) (q : Fin 64) :
    k7_pay1 h agg wih whh bi bh (ix2 p q)
      = cell (fun k => agg (ix2 p k)) (fun k => h (ix2 p k)) wih whh bi bh q := by
  unfold k7_pay1
  simp only [shapeCast_self]
  simp only [addf_apply, mulf_apply, subf_apply, broadcast_apply, logistic_apply, tanh_apply, sliceR_at, sliceZ_at,
    sliceN_at, matmul_at, truncf_apply, broadcastTo_1b_ab_apply, Ideal.ofBits_def, Ideal.ofBits_one_f32]
  rfl

/-- The body of GRU region 9 at row `p`, column `q` of its block: the cell of row `p` of the aggregate block and of the
    old-state block (the body's changes of float format and identity reshapes read through). -/
theorem k9_pay1_at (h agg : Vec Ideal S2000x64 .f32) (wih whh : Vec Ideal S64x192 .f32) (bi bh : Vec Ideal S1x192 .f32)
    (p : Fin 2000) (q : Fin 64) :
    k9_pay1 h agg wih whh bi bh (ix2 p q)
      = cell (fun k => agg (ix2 p k)) (fun k => h (ix2 p k)) wih whh bi bh q := by
  unfold k9_pay1
  simp only [shapeCast_self]
  simp only [addf_apply, mulf_apply, subf_apply, broadcast_apply, logistic_apply, tanh_apply, sliceR_at, sliceZ_at,
    sliceN_at, matmul_at, truncf_apply, broadcastTo_1b_ab_apply, Ideal.ofBits_def, Ideal.ofBits_one_f32]
  rfl

end Cert.KernelIdeal.GRU

end
-- ==== Proof.GRURef.lean ====
/-
  The whole-array GRU update at one entry.

  On the 50000-row arrays the update forms gi = agg · wihT + bi, gh = h · whhT + bh (50000 × 192; the bias row
  repeated down the rows), cuts each into its three 64-column thirds and combines them with the old state, the
  logistic spelled 1 / (1 + exp (−x)) over the array of ones. Read at row r, column q this is `cell` of row r of the
  two arrays: a product entry is Σ_k x[r,k] · w[k,j], a bias entry is b[0,j], the array of ones reads the extended
  real one, so the spelled-out logistic is the logistic, and the pointwise operations are the extended reals' own.
-/
import proofs.«134775_j74517682586461_1_alg».proof.Proof.Spec
import proofs.«134775_j74517682586461_1_alg».proof.Proof.GRUCell
import Idealize.ShloMosaic.Lib.Pipeline.Value
import Idealize.ShloMosaic.Lib.ValueLayout
import Idealize.ShloMosaic.Lib.IdealHost
import Idealize.ShloMosaic.Lib.KernelVsHost
import Idealize.ShloMosaic.PureOps.Ideal.Laws

noncomputable section

open scoped BigOperators

namespace Cert.KernelIdeal.GRU

open Idealize.ShloMosaic Idealize.ShloMosaic.ValueIdx Cert.ReferenceIdeal Cert.ReferenceIdeal.Gen

/-! ## The whole-array product's operand indices: rows × contraction against contraction × columns -/

/-- The left operand's row is the output's row. -/
theorem ref_lhs_row (i : S50000x192.Idx) (q : dot_S50000x64_S64x192_S50000x192_1_0_0_1_n_n.contr.Idx) :
    (dot_S50000x64_S64x192_S50000x192_1_0_0_1_n_n.lhsIdx i q 0).val = (i 0).val := by
  unfold DotDims.lhsIdx
  rw [dif_neg (show ¬(0 : Fin S50000x64.rank) ∈ dot_S50000x64_S64x192_S50000x192_1_0_0_1_n_n.lhsBatch by decide),
    dif_pos (show (0 : Fin S50000x64.rank) ∈ dot_S50000x64_S64x192_S50000x192_1_0_0_1_n_n.lhsNonContracting by decide)]
  rfl

/-- The left operand's column is the contraction position. -/
theorem ref_lhs_col (i : S50000x192.Idx) (q : dot_S50000x64_S64x192_S50000x192_1_0_0_1_n_n.contr.Idx) :
    (dot_S50000x64_S64x192_S50000x192_1_0_0_1_n_n.lhsIdx i q 1).val = (q ⟨0, by decide⟩).val :=
  dot_S50000x64_S64x192_S50000x192_1_0_0_1_n_n.lhsIdx_val_of_single rfl i q

/-- The right operand's row is the contraction position. -/
theorem ref_rhs_row (i : S50000x192.Idx) (q : dot_S50000x64_S64x192_S50000x192_1_0_0_1_n_n.contr.Idx) :
    (dot_S50000x64_S64x192_S50000x192_1_0_0_1_n_n.rhsIdx i q 0).val = (q ⟨0, by decide⟩).val :=
  dot_S50000x64_S64x192_S50000x192_1_0_0_1_n_n.rhsIdx_val_of_single rfl i q

/-- The right operand's column is the output's column. -/
theorem ref_rhs_col (i : S50000x192.Idx) (q : dot_S50000x64_S64x192_S50000x192_1_0_0_1_n_n.contr.Idx) :
    (dot_S50000x64_S64x192_S50000x192_1_0_0_1_n_n.rhsIdx i q 1).val = (i 1).val := by
  unfold DotDims.rhsIdx
  rw [dif_neg (show ¬(1 : Fin S64x192.rank) ∈ dot_S50000x64_S64x192_S50000x192_1_0_0_1_n_n.rhsBatch by decide),
    dif_pos (show (1 : Fin S64x192.rank) ∈ dot_S50000x64_S64x192_S50000x192_1_0_0_1_n_n.rhsNonContracting by decide)]
  rfl

/-- The whole-array product at row `r` and column `j`: Σ_k x[r,k] · w[k,j]. -/
theorem dot_at (x : FVec Ideal S50000x64 .f32) (w : FVec Ideal S64x192 .f32) (r : Fin 50000) (j : Fin 192) :
    Host.dotGeneral dot_S50000x64_S64x192_S50000x192_1_0_0_1_n_n none x w (ix2 r j) = ∑ k : Fin 64, x (ix2 r k) * w (ix2 k j) := by
  show FloatOps.dotGeneral dot_S50000x64_S64x192_S50000x192_1_0_0_1_n_n none .single x w (ix2 r j) = _
  rw [Ideal.dotGeneral_apply, ← Equiv.sum_comp (contrEquiv1 dot_S50000x64_S64x192_S50000x192_1_0_0_1_n_n 64 rfl rfl).symm]
  refine Finset.sum_congr rfl fun k _ => ?_
  have hk := contrEquiv1_symm_val dot_S50000x64_S64x192_S50000x192_1_0_0_1_n_n 64 rfl rfl k
  have el : dot_S50000x64_S64x192_S50000x192_1_0_0_1_n_n.lhsIdx (ix2 r j) ((contrEquiv1 dot_S50000x64_S64x192_S50000x192_1_0_0_1_n_n 64 rfl rfl).symm k) = ix2 r k :=
    funext fun a => Fin.ext (by
      match a with
      | ⟨0, _⟩ => exact ref_lhs_row _ _
      | ⟨1, _⟩ => exact (ref_lhs_col _ _).trans hk)
  have er : dot_S50000x64_S64x192_S50000x192_1_0_0_1_n_n.rhsIdx (ix2 r j) ((contrEquiv1 dot_S50000x64_S64x192_S50000x192_1_0_0_1_n_n 64 rfl rfl).symm k) = ix2 k j :=
    funext fun a => Fin.ext (by
      match a with
      | ⟨0, _⟩ => exact (ref_rhs_row _ _).trans hk
      | ⟨1, _⟩ => exact ref_rhs_col _ _)
  rw [el, er]

/-! ## The gate arrays, the ones, the logistic and the thirds at an entry -/

/-- One gate array of the whole update at row `r`, column `j`: the gate of row `r`. -/
theorem gates_at (x : FVec Ideal S50000x64 .f32) (w : FVec Ideal S64x192 .f32) (b : FVec Ideal S1x192 .f32)
    (r : Fin 50000) (j : Fin 192) :
    Cert.GGNN.gates (F := Ideal) x w b (ix2 r j) = gate (fun k => x (ix2 r k)) w b j := by
  unfold Cert.GGNN.gates
  rw [addf_apply, dot_at, broadcastInDim_oneRow_apply]
  rfl

/-- The array of ones reads the extended real one. -/
theorem ones_at (i : S50000x64.Idx) : Cert.GGNN.ones (F := Ideal) i = 1 := by
  unfold Cert.GGNN.ones
  rw [broadcastInDim_scalar_apply]
  exact Ideal.ofBits_one_f32

/-- The spelled-out logistic 1 / (1 + exp (−x)) at an entry is the logistic of the entry. -/
theorem sigm_at (x : FVec Ideal S50000x64 .f32) (i : S50000x64.Idx) :
    Cert.GGNN.sigm (F := Ideal) x i = Ideal.logistic (x i) := by
  unfold Cert.GGNN.sigm
  show Ideal.div (Cert.GGNN.ones (F := Ideal) i) (Cert.GGNN.ones (F := Ideal) i + Ideal.exp (-(x i)))
    = Ideal.div 1 (1 + Ideal.exp (-(x i)))
  rw [ones_at]

/-- Column `q` of the first third of a gate array is its column `q`. -/
theorem refSliceR_at (X : FVec Ideal S50000x192 .f32) (r : Fin 50000) (q : Fin 64) :
    extractStridedSlice S50000x64 ![0, 0] X slices_S50000x192_S50000x64_0_0 (ix2 r q) = X (ix2 r (colR q)) :=
  slice2_axis1_apply 0 X _ r q (colR q) (Nat.zero_add _).symm
/-- Column `q` of the second third of a gate array is its column `64 + q`. -/
theorem refSliceZ_at (X : FVec Ideal S50000x192 .f32) (r : Fin 50000) (q : Fin 64) :
    extractStridedSlice S50000x64 ![0, 64] X slices_S50000x192_S50000x64_0_64 (ix2 r q) = X (ix2 r (colZ q)) :=
  slice2_axis1_apply 64 X _ r q (colZ q) rfl
/-- Column `q` of the last third of a gate array is its column `128 + q`. -/
theorem refSliceN_at (X : FVec Ideal S50000x192 .f32) (r : Fin 50000) (q : Fin 64) :
    extractStridedSlice S50000x64 ![0, 128] X slices_S50000x192_S50000x64_0_128 (ix2 r q) = X (ix2 r (colN q)) :=
  slice2_axis1_apply 128 X _ r q (colN q) rfl

/-- The hyperbolic tangent of an array at an entry is that of the entry. -/
theorem hostTanh_apply {s : Shape} {φ : FTy} (x : FVec Ideal s φ) (i : s.Idx) : Host.tanh x i = Ideal.tanh (x i) := rfl

/-! ## The update at an entry -/

/-- The whole-array GRU update at row `r`, column `q` is the cell of row `r` of the aggregate and of the old state. -/
theorem gru_at (agg h : FVec Ideal S50000x64 .f32) (wihT whhT : FVec Ideal S64x192 .f32) (bi bh : FVec Ideal S1x192 .f32)
    (r : Fin 50000) (q : Fin 64) :
    Cert.GGNN.gru (F := Ideal) agg h wihT whhT bi bh (ix2 r q)
      = cell (fun k => agg (ix2 r k)) (fun k => h (ix2 r k)) wihT whhT bi bh q := by
  unfold Cert.GGNN.gru Cert.GGNN.cell
  simp only [addf_apply, mulf_apply, subf_apply, sigm_at, ones_at, hostTanh_apply, refSliceR_at, refSliceZ_at,
    refSliceN_at, gates_at]
  rfl

end Cert.KernelIdeal.GRU

end
-- ==== Proof.GRUArr1.lean ====
/-
  GRU region 1: from the 25 row tiles to the whole array.

  The region's grid has 25 points; at point t the aggregate window and the old-state window hold rows 2000·t … 2000·t + 1999
  of their arrays, the two weight matrices and the two bias rows are staged whole, and the output window's block is
  written back to rows 2000·t … 2000·t + 1999 of the output array. The body leaves in that block, at row p and column q, the
  GRU cell of row p of the two input blocks, which is the cell of row 2000·t + p of the two arrays, which is the whole-array
  update at (2000·t + p, q). Row r of the array lies in the block of point r / 2000, and 25 · 2000 = 50000, so the blocks
  cover the array and the array ends at the whole-array update.
-/
import proofs.«134775_j74517682586461_1_alg».proof.Proof.Gen.KernelIdeal.Frame
import proofs.«134775_j74517682586461_1_alg».proof.Proof.Spec
import proofs.«134775_j74517682586461_1_alg».proof.Proof.GRUBody
import proofs.«134775_j74517682586461_1_alg».proof.Proof.GRURef
import Idealize.ShloMosaic.Lib.Pipeline.Value

noncomputable section

namespace Cert.KernelIdeal.GRU

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b)) (c : Dev nD)

/-- The windows' block indices at point `t`, decided over the 25 points: the three row-tiled windows sit at block
    `(t, 0)`, the four whole ones at `(0, 0)`. -/
theorem tileIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The aggregate window: row `p` of the block at point `t` is row `2000 · t + p` of the array. -/
theorem aggTile1 (t : Fin cfg1.N) (p : Fin 2000) (k : Fin 64) (r : Fin 50000) (hr : r.val = t.val * 2000 + p.val) :
    (iblk1 V c 0 t : Vec Ideal S2000x64 .f32) (ix2 p k) = (V c main_v20 : S50000x64.Idx → Elt Ideal .f32) (ix2 r k) := by
  obtain ⟨e00, e01, e10, e11, -⟩ := tileIdx1 t
  unfold iblk1
  rw [View.read_apply]
  show V c main_v20 _ = V c main_v20 _
  congr 1
  funext a
  apply Fin.ext
  match a with
  | ⟨0, _⟩ => show win1_0.index t (0 : Fin 2) * 2000 + 1 * p.val = r.val; rw [e00, hr]; omega
  | ⟨1, _⟩ => show win1_0.index t (1 : Fin 2) * 64 + 1 * k.val = k.val; rw [e01]; omega

/-- The old-state window: row `p` of the block at point `t` is row `2000 · t + p` of the array. -/
theorem stateTile1 (t : Fin cfg1.N) (p : Fin 2000) (k : Fin 64) (r : Fin 50000) (hr : r.val = t.val * 2000 + p.val) :
    (iblk1 V c 1 t : Vec Ideal S2000x64 .f32) (ix2 p k) = (V c main_arg0 : S50000x64.Idx → Elt Ideal .f32) (ix2 r k) := by
  obtain ⟨e00, e01, e10, e11, -⟩ := tileIdx1 t
  unfold iblk1
  rw [View.read_apply]
  show V c main_arg0 _ = V c main_arg0 _
  congr 1
  funext a
  apply Fin.ext
  match a with
  | ⟨0, _⟩ => show win1_1.index t (0 : Fin 2) * 2000 + 1 * p.val = r.val; rw [e10, hr]; omega
  | ⟨1, _⟩ => show win1_1.index t (1 : Fin 2) * 64 + 1 * k.val = k.val; rw [e11]; omega

/-- The input-side weight matrix is staged whole at every point: its one block is the array. -/
theorem wihWhole1 (t : Fin cfg1.N) :
    (iblk1 V c 2 t : Vec Ideal S64x192 .f32) = (V c main_v4 : S64x192.Idx → Elt Ideal .f32) := by
  obtain ⟨-, -, -, -, e20, e21, e30, e31, e40, e41, e50, e51, -, -⟩ := tileIdx1 t
  funext y
  unfold iblk1
  rw [View.read_apply]
  show V c main_v4 _ = V c main_v4 y
  congr 1
  funext a
  apply Fin.ext
  match a with
  | ⟨0, _⟩ => show win1_2.index t (0 : Fin 2) * 64 + 1 * (y 0).val = (y 0).val; rw [e20]; omega
  | ⟨1, _⟩ => show win1_2.index t (1 : Fin 2) * 192 + 1 * (y 1).val = (y 1).val; rw [e21]; omega

/-- The state-side weight matrix is staged whole at every point: its one block is the array. -/
theorem whhWhole1 (t : Fin cfg1.N) :
    (iblk1 V c 3 t : Vec Ideal S64x192 .f32) = (V c main_v5 : S64x192.Idx → Elt Ideal .f32) := by
  obtain ⟨-, -, -, -, e20, e21, e30, e31, e40, e41, e50, e51, -, -⟩ := tileIdx1 t
  funext y
  unfold iblk1
  rw [View.read_apply]
  show V c main_v5 _ = V c main_v5 y
  congr 1
  funext a
  apply Fin.ext
  match a with
  | ⟨0, _⟩ => show win1_3.index t (0 : Fin 2) * 64 + 1 * (y 0).val = (y 0).val; rw [e30]; omega
  | ⟨1, _⟩ => show win1_3.index t (1 : Fin 2) * 192 + 1 * (y 1).val = (y 1).val; rw [e31]; omega

/-- The input-side bias row is staged whole at every point: its one block is the array. -/
theorem biWhole1 (t : Fin cfg1.N) :
    (iblk1 V c 4 t : Vec Ideal S1x192 .f32) = (V c main_v6 : S1x192.Idx → Elt Ideal .f32) := by
  obtain ⟨-, -, -, -, e20, e21, e30, e31, e40, e41, e50, e51, -, -⟩ := tileIdx1 t
  funext y
  unfold iblk1
  rw [View.read_apply]
  show V c main_v6 _ = V c main_v6 y
  congr 1
  funext a
  apply Fin.ext
  match a with
  | ⟨0, _⟩ => show win1_4.index t (0 : Fin 2) * 1 + 1 * (y 0).val = (y 0).val; rw [e40]; omega
  | ⟨1, _⟩ => show win1_4.index t (1 : Fin 2) * 192 + 1 * (y 1).val = (y 1).val; rw [e41]; omega

/-- The state-side bias row is staged whole at every point: its one block is the array. -/
theorem bhWhole1 (t : Fin cfg1.N) :
    (iblk1 V c 5 t : Vec Ideal S1x192 .f32) = (V c main_v7 : S1x192.Idx → Elt Ideal .f32) := by
  obtain ⟨-, -, -, -, e20, e21, e30, e31, e40, e41, e50, e51, -, -⟩ := tileIdx1 t
  funext y
  unfold iblk1
  rw [View.read_apply]
  show V c main_v7 _ = V c main_v7 y
  congr 1
  funext a
  apply Fin.ext
  match a with
  | ⟨0, _⟩ => show win1_5.index t (0 : Fin 2) * 1 + 1 * (y 0).val = (y 0).val; rw [e50]; omega
  | ⟨1, _⟩ => show win1_5.index t (1 : Fin 2) * 192 + 1 * (y 1).val = (y 1).val; rw [e51]; omega

/-- What point `t` writes back is block `t` of the whole-array update of the region's six input arrays. -/
theorem wrote1 (t : Fin cfg1.N) :
    (dat1 V c).flushed 6 t = ((cfg1.win 6).blk t).view.read (Elt Ideal)
      (Cert.GGNN.gru (F := Ideal) (V c main_v20) (V c main_arg0) (V c main_v4) (V c main_v5) (V c main_v6) (V c main_v7)) := by
  show (cfg1.win 6).cut (grid1.coords t) ((dat1 V c).after 6 t) = _
  rw [after1_6]
  unfold out1_6
  rw [View.canon_unit_zero hz]
  simp only [View.ld_unit_zero (S := S2000x64) hz, View.ld_unit_zero (S := S64x192) hz, View.ld_unit_zero (S := S1x192) hz]
  funext j
  obtain ⟨p, q, rfl⟩ : ∃ (p : Fin 2000) (q : Fin 64), j = ix2 p q := ⟨j 0, j 1, eq_ix2 j⟩
  have ht : t.val < 25 := lt_of_lt_of_eq t.isLt N_1
  have hp : p.val < 2000 := p.isLt
  obtain ⟨-, -, -, -, -, -, -, -, -, -, -, -, e60, e61⟩ := tileIdx1 t
  refine (k1_pay1_at (iblk1 V c 1 t) (iblk1 V c 0 t) (iblk1 V c 2 t) (iblk1 V c 3 t) (iblk1 V c 4 t)
    (iblk1 V c 5 t) p q).trans ?_
  rw [View.read_apply]
  have hemb : ((cfg1.win 6).blk t).view.emb (ix2 p q)
      = ix2 (⟨t.val * 2000 + p.val, by omega⟩ : Fin 50000) q := by
    funext a
    apply Fin.ext
    match a with
    | ⟨0, _⟩ => show win1_6.index t (0 : Fin 2) * 2000 + 1 * p.val = t.val * 2000 + p.val; rw [e60]; omega
    | ⟨1, _⟩ => show win1_6.index t (1 : Fin 2) * 64 + 1 * q.val = q.val; rw [e61]; omega
  rw [hemb]
  refine Eq.trans ?_ (gru_at (V c main_v20) (V c main_arg0) (V c main_v4) (V c main_v5) (V c main_v6) (V c main_v7) _ q).symm
  exact cell_congr (funext fun k => aggTile1 V c t p k _ rfl) (funext fun k => stateTile1 V c t p k _ rfl)
    (wihWhole1 V c t) (whhWhole1 V c t) (biWhole1 V c t) (bhWhole1 V c t) q

/-- An index of the output array is in point `t`'s block iff each coordinate is in the block's range on its axis. -/
theorem memTile1 (t : Fin cfg1.N) (i : S50000x64.Idx) :
    i ∈ ((cfg1.win 6).blk t).view.set ↔ ∀ a : Fin 2, win1_6.index t a * S2000x64.size a ≤ (i a).val
      ∧ (i a).val < win1_6.index t a * S2000x64.size a + S2000x64.size a := by
  show i ∈ ((View.whole main_v21).slice (win1_6.rect t)).set ↔ _
  rw [View.set_slice_whole, Rect.mem_set_unit]
  exact Iff.rfl

/-- Every index of the output array is in the block of some point: row `r` in that of point `r / 2000`. -/
theorem covered1 (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  have hN : cfg1.N = 25 := N_1
  have hlt : (i 0).val / 2000 < cfg1.N := by rw [hN]; omega
  obtain ⟨-, -, -, -, -, -, -, -, -, -, -, -, e60, e61⟩ := tileIdx1 ⟨(i 0).val / 2000, hlt⟩
  refine ⟨⟨(i 0).val / 2000, hlt⟩, flush1_6 _, ?_⟩
  rw [memTile1]
  intro a
  match a with
  | ⟨0, _⟩ =>
    show win1_6.index ⟨(i 0).val / 2000, hlt⟩ (0 : Fin 2) * 2000 ≤ (i 0).val
      ∧ (i 0).val < win1_6.index ⟨(i 0).val / 2000, hlt⟩ (0 : Fin 2) * 2000 + 2000
    rw [e60]; show (i 0).val / 2000 * 2000 ≤ (i 0).val ∧ (i 0).val < (i 0).val / 2000 * 2000 + 2000; omega
  | ⟨1, _⟩ =>
    show win1_6.index ⟨(i 0).val / 2000, hlt⟩ (1 : Fin 2) * 64 ≤ (i 1).val
      ∧ (i 1).val < win1_6.index ⟨(i 0).val / 2000, hlt⟩ (1 : Fin 2) * 64 + 64
    rw [e61]; omega

/-- The array after region 1's run is the GRU update of the region's six input arrays as the region finds them. -/
theorem arr1 (V : (c : Dev nD) → (b : Ref sig .tc) → Buf (Elt Ideal) ((c : Thread nD τ).loc b)) (c : Dev nD) :
    (Gen.dat1 V c).arrAt 6 cfg1.N = Cert.GGNN.gru (F := Ideal) (V c main_v20) (V c main_arg0) (V c main_v4) (V c main_v5) (V c main_v6) (V c main_v7) :=
  (dat1 V c).arrAt_eq_of_cover 6 _ (fun t _ => wrote1 V c t) (covered1)

end Cert.KernelIdeal.GRU

end
-- ==== Proof.GRUArr3.lean ====
/-
  GRU region 3: from the 25 row tiles to the whole array.

  The region's grid has 25 points; at point t the aggregate window and the old-state window hold rows 2000·t … 2000·t + 1999
  of their arrays, the two weight matrices and the two bias rows are staged whole, and the output window's block is
  written back to rows 2000·t … 2000·t + 1999 of the output array. The body leaves in that block, at row p and column q, the
  GRU cell of row p of the two input blocks, which is the cell of row 2000·t + p of the two arrays, which is the whole-array
  update at (2000·t + p, q). Row r of the array lies in the block of point r / 2000, and 25 · 2000 = 50000, so the blocks
  cover the array and the array ends at the whole-array update.
-/
import proofs.«134775_j74517682586461_1_alg».proof.Proof.Gen.KernelIdeal.Frame
import proofs.«134775_j74517682586461_1_alg».proof.Proof.Spec
import proofs.«134775_j74517682586461_1_alg».proof.Proof.GRUBody
import proofs.«134775_j74517682586461_1_alg».proof.Proof.GRURef
import Idealize.ShloMosaic.Lib.Pipeline.Value

noncomputable section

namespace Cert.KernelIdeal.GRU

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b)) (c : Dev nD)

/-- The windows' block indices at point `t`, decided over the 25 points: the three row-tiled windows sit at block
    `(t, 0)`, the four whole ones at `(0, 0)`. -/
theorem tileIdx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The aggregate window: row `p` of the block at point `t` is row `2000 · t + p` of the array. -/
theorem aggTile3 (t : Fin cfg3.N) (p : Fin 2000) (k : Fin 64) (r : Fin 50000) (hr : r.val = t.val * 2000 + p.val) :
    (iblk3 V c 0 t : Vec Ideal S2000x64 .f32) (ix2 p k) = (V c main_v34 : S50000x64.Idx → Elt Ideal .f32) (ix2 r k) := by
  obtain ⟨e00, e01, e10, e11, -⟩ := tileIdx3 t
  unfold iblk3
  rw [View.read_apply]
  show V c main_v34 _ = V c main_v34 _
  congr 1
  funext a
  apply Fin.ext
  match a with
  | ⟨0, _⟩ => show win3_0.index t (0 : Fin 2) * 2000 + 1 * p.val = r.val; rw [e00, hr]; omega
  | ⟨1, _⟩ => show win3_0.index t (1 : Fin 2) * 64 + 1 * k.val = k.val; rw [e01]; omega

/-- The old-state window: row `p` of the block at point `t` is row `2000 · t + p` of the array. -/
theorem stateTile3 (t : Fin cfg3.N) (p : Fin 2000) (k : Fin 64) (r : Fin 50000) (hr : r.val = t.val * 2000 + p.val) :
    (iblk3 V c 1 t : Vec Ideal S2000x64 .f32) (ix2 p k) = (V c main_v21 : S50000x64.Idx → Elt Ideal .f32) (ix2 r k) := by
  obtain ⟨e00, e01, e10, e11, -⟩ := tileIdx3 t
  unfold iblk3
  rw [View.read_apply]
  show V c main_v21 _ = V c main_v21 _
  congr 1
  funext a
  apply Fin.ext
  match a with
  | ⟨0, _⟩ => show win3_1.index t (0 : Fin 2) * 2000 + 1 * p.val = r.val; rw [e10, hr]; omega
  | ⟨1, _⟩ => show win3_1.index t (1 : Fin 2) * 64 + 1 * k.val = k.val; rw [e11]; omega

/-- The input-side weight matrix is staged whole at every point: its one block is the array. -/
theorem wihWhole3 (t : Fin cfg3.N) :
    (iblk3 V c 2 t : Vec Ideal S64x192 .f32) = (V c main_v4 : S64x192.Idx → Elt Ideal .f32) := by
  obtain ⟨-, -, -, -, e20, e21, e30, e31, e40, e41, e50, e51, -, -⟩ := tileIdx3 t
  funext y
  unfold iblk3
  rw [View.read_apply]
  show V c main_v4 _ = V c main_v4 y
  congr 1
  funext a
  apply Fin.ext
  match a with
  | ⟨0, _⟩ => show win3_2.index t (0 : Fin 2) * 64 + 1 * (y 0).val = (y 0).val; rw [e20]; omega
  | ⟨1, _⟩ => show win3_2.index t (1 : Fin 2) * 192 + 1 * (y 1).val = (y 1).val; rw [e21]; omega

/-- The state-side weight matrix is staged whole at every point: its one block is the array. -/
theorem whhWhole3 (t : Fin cfg3.N) :
    (iblk3 V c 3 t : Vec Ideal S64x192 .f32) = (V c main_v5 : S64x192.Idx → Elt Ideal .f32) := by
  obtain ⟨-, -, -, -, e20, e21, e30, e31, e40, e41, e50, e51, -, -⟩ := tileIdx3 t
  funext y
  unfold iblk3
  rw [View.read_apply]
  show V c main_v5 _ = V c main_v5 y
  congr 1
  funext a
  apply Fin.ext
  match a with
  | ⟨0, _⟩ => show win3_3.index t (0 : Fin 2) * 64 + 1 * (y 0).val = (y 0).val; rw [e30]; omega
  | ⟨1, _⟩ => show win3_3.index t (1 : Fin 2) * 192 + 1 * (y 1).val = (y 1).val; rw [e31]; omega

/-- The input-side bias row is staged whole at every point: its one block is the array. -/
theorem biWhole3 (t : Fin cfg3.N) :
    (iblk3 V c 4 t : Vec Ideal S1x192 .f32) = (V c main_v6 : S1x192.Idx → Elt Ideal .f32) := by
  obtain ⟨-, -, -, -, e20, e21, e30, e31, e40, e41, e50, e51, -, -⟩ := tileIdx3 t
  funext y
  unfold iblk3
  rw [View.read_apply]
  show V c main_v6 _ = V c main_v6 y
  congr 1
  funext a
  apply Fin.ext
  match a with
  | ⟨0, _⟩ => show win3_4.index t (0 : Fin 2) * 1 + 1 * (y 0).val = (y 0).val; rw [e40]; omega
  | ⟨1, _⟩ => show win3_4.index t (1 : Fin 2) * 192 + 1 * (y 1).val = (y 1).val; rw [e41]; omega

/-- The state-side bias row is staged whole at every point: its one block is the array. -/
theorem bhWhole3 (t : Fin cfg3.N) :
    (iblk3 V c 5 t : Vec Ideal S1x192 .f32) = (V c main_v7 : S1x192.Idx → Elt Ideal .f32) := by
  obtain ⟨-, -, -, -, e20, e21, e30, e31, e40, e41, e50, e51, -, -⟩ := tileIdx3 t
  funext y
  unfold iblk3
  rw [View.read_apply]
  show V c main_v7 _ = V c main_v7 y
  congr 1
  funext a
  apply Fin.ext
  match a with
  | ⟨0, _⟩ => show win3_5.index t (0 : Fin 2) * 1 + 1 * (y 0).val = (y 0).val; rw [e50]; omega
  | ⟨1, _⟩ => show win3_5.index t (1 : Fin 2) * 192 + 1 * (y 1).val = (y 1).val; rw [e51]; omega

/-- What point `t` writes back is block `t` of the whole-array update of the region's six input arrays. -/
theorem wrote3 (t : Fin cfg3.N) :
    (dat3 V c).flushed 6 t = ((cfg3.win 6).blk t).view.read (Elt Ideal)
      (Cert.GGNN.gru (F := Ideal) (V c main_v34) (V c main_v21) (V c main_v4) (V c main_v5) (V c main_v6) (V c main_v7)) := by
  show (cfg3.win 6).cut (grid3.coords t) ((dat3 V c).after 6 t) = _
  rw [after3_6]
  unfold out3_6
  rw [View.canon_unit_zero hz]
  simp only [View.ld_unit_zero (S := S2000x64) hz, View.ld_unit_zero (S := S64x192) hz, View.ld_unit_zero (S := S1x192) hz]
  funext j
  obtain ⟨p, q, rfl⟩ : ∃ (p : Fin 2000) (q : Fin 64), j = ix2 p q := ⟨j 0, j 1, eq_ix2 j⟩
  have ht : t.val < 25 := lt_of_lt_of_eq t.isLt N_3
  have hp : p.val < 2000 := p.isLt
  obtain ⟨-, -, -, -, -, -, -, -, -, -, -, -, e60, e61⟩ := tileIdx3 t
  refine (k3_pay1_at (iblk3 V c 1 t) (iblk3 V c 0 t) (iblk3 V c 2 t) (iblk3 V c 3 t) (iblk3 V c 4 t)
    (iblk3 V c 5 t) p q).trans ?_
  rw [View.read_apply]
  have hemb : ((cfg3.win 6).blk t).view.emb (ix2 p q)
      = ix2 (⟨t.val * 2000 + p.val, by omega⟩ : Fin 50000) q := by
    funext a
    apply Fin.ext
    match a with
    | ⟨0, _⟩ => show win3_6.index t (0 : Fin 2) * 2000 + 1 * p.val = t.val * 2000 + p.val; rw [e60]; omega
    | ⟨1, _⟩ => show win3_6.index t (1 : Fin 2) * 64 + 1 * q.val = q.val; rw [e61]; omega
  rw [hemb]
  refine Eq.trans ?_ (gru_at (V c main_v34) (V c main_v21) (V c main_v4) (V c main_v5) (V c main_v6) (V c main_v7) _ q).symm
  exact cell_congr (funext fun k => aggTile3 V c t p k _ rfl) (funext fun k => stateTile3 V c t p k _ rfl)
    (wihWhole3 V c t) (whhWhole3 V c t) (biWhole3 V c t) (bhWhole3 V c t) q

/-- An index of the output array is in point `t`'s block iff each coordinate is in the block's range on its axis. -/
theorem memTile3 (t : Fin cfg3.N) (i : S50000x64.Idx) :
    i ∈ ((cfg3.win 6).blk t).view.set ↔ ∀ a : Fin 2, win3_6.index t a * S2000x64.size a ≤ (i a).val
      ∧ (i a).val < win3_6.index t a * S2000x64.size a + S2000x64.size a := by
  show i ∈ ((View.whole main_v35).slice (win3_6.rect t)).set ↔ _
  rw [View.set_slice_whole, Rect.mem_set_unit]
  exact Iff.rfl

/-- Every index of the output array is in the block of some point: row `r` in that of point `r / 2000`. -/
theorem covered3 (i : S50000x64.Idx) :
    ∃ t : Fin cfg3.N, (cfg3.win 6).flush t = true ∧ i ∈ ((cfg3.win 6).blk t).view.set := by
  have hi0 : (i 0).val < 50000 := (i 0).isLt
  have hi1 : (i 1).val < 64 := (i 1).isLt
  have hN : cfg3.N = 25 := N_3
  have hlt : (i 0).val / 2000 < cfg3.N := by rw [hN]; omega
  obtain ⟨-, -, -, -, -, -, -, -, -, -, -, -, e60, e61⟩ := tileIdx3 ⟨(i 0).val / 2000, hlt⟩
  refine ⟨⟨(i 0).val / 2000, hlt⟩, flush3_6 _, ?_⟩
  rw [memTile3]
  intro a
  match a with
  | ⟨0, _⟩ =>
    show win3_6.index ⟨(i 0).val / 2000, hlt⟩ (0 : Fin 2) * 2000 ≤ (i 0).val
      ∧ (i 0).val < win3_6.index ⟨(i 0).val / 2000, hlt⟩ (0 : Fin 2) * 2000 + 2000
    rw [e60]; show (i 0).val / 2000 * 2000 ≤ (i 0).val ∧ (i 0).val < (i 0).val / 2000 * 2000 + 2000; omega
  | ⟨1, _⟩ =>
    show win3_6.index ⟨(i 0).val / 2000, hlt⟩ (1 : Fin 2) * 64 ≤ (i 1).val
      ∧ (i 1).val < win3_6.index ⟨(i 0).val / 2000, hlt⟩ (1 : Fin 2) * 64 + 64
    rw [e61]; omega

/-- The array after region 3's run is the GRU update of the region's six input arrays as the region finds them. -/
theorem arr3 (V : (c : Dev nD) → (b : Ref sig .tc) → Buf (Elt Ideal) ((c : Thread nD τ).loc b)) (c : Dev nD) :
    (Gen.dat3 V c).arrAt 6 cfg3.N = Cert.GGNN.gru (F := Ideal) (V c main_v34) (V c main_v21) (V c main_v4) (V c main_v5) (V c main_v6) (V c main_v7) :=
  (dat3 V c).arrAt_eq_of_cover 6 _ (fun t _ => wrote3 V c t) (covered3)

end Cert.KernelIdeal.GRU

end
-- ==== Proof.GRUArr5.lean ====
/-
  GRU region 5: from the 25 row tiles to the whole array.

  The region's grid has 25 points; at point t the aggregate window and the old-state window hold rows 2000·t … 2000·t + 1999
  of their arrays, the two weight matrices and the two bias rows are staged whole, and the output window's block is
  written back to rows 2000·t … 2000·t + 1999 of the output array. The body leaves in that block, at row p and column q, the
  GRU cell of row p of the two input blocks, which is the cell of row 2000·t + p of the two arrays, which is the whole-array
  update at (2000·t + p, q). Row r of the array lies in the block of point r / 2000, and 25 · 2000 = 50000, so the blocks
  cover the array and the array ends at the whole-array update.
-/
import proofs.«134775_j74517682586461_1_alg».proof.Proof.Gen.KernelIdeal.Frame
import proofs.«134775_j74517682586461_1_alg».proof.Proof.Spec
import proofs.«134775_j74517682586461_1_alg».proof.Proof.GRUBody
import proofs.«134775_j74517682586461_1_alg».proof.Proof.GRURef
import Idealize.ShloMosaic.Lib.Pipeline.Value

noncomputable section

namespace Cert.KernelIdeal.GRU

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b)) (c : Dev nD)

/-- The windows' block indices at point `t`, decided over the 25 points: the three row-tiled windows sit at block
    `(t, 0)`, the four whole ones at `(0, 0)`. -/
theorem tileIdx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- The aggregate window: row `p` of the block at point `t` is row `2000 · t + p` of the array. -/
theorem aggTile5 (t : Fin cfg5.N) (p : Fin 2000) (k : Fin 64) (r : Fin 50000) (hr : r.val = t.val * 2000 + p.val) :
    (iblk5 V c 0 t : Vec Ideal S2000x64 .f32) (ix2 p k) = (V c main_v48 : S50000x64.Idx → Elt Ideal .f32) (ix2 r k) := by
  obtain ⟨e00, e01, e10, e11, -⟩ := tileIdx5 t
  unfold iblk5
  rw [View.read_apply]
  show V c main_v48 _ = V c main_v48 _
  congr 1
  funext a
  apply Fin.ext
  match a with
  | ⟨0, _⟩ => show win5_0.index t (0 : Fin 2) * 2000 + 1 * p.val = r.val; rw [e00, hr]; omega
  | ⟨1, _⟩ => show win5_0.index t (1 : Fin 2) * 64 + 1 * k.val = k.val; rw [e01]; omega

/-- The old-state window: row `p` of the block at point `t` is row `2000 · t + p` of the array. -/
theorem stateTile5 (t : Fin cfg5.N) (p : Fin 2000) (k : Fin 64) (r : Fin 50000) (hr : r.val = t.val * 2000 + p.val) :
    (iblk5 V c 1 t : Vec Ideal S2000x64 .f32) (ix2 p k) = (V c main_v35 : S50000x64.Idx → Elt Ideal .f32) (ix2 r k) := by
  obtain ⟨e00, e01, e10, e11, -⟩ := tileIdx5 t
  unfold iblk5
  rw [View.read_apply]
  show V c main_v35 _ = V c main_v35 _
  congr 1
  funext a
  apply Fin.ext
  match a with
  | ⟨0, _⟩ => show win5_1.index t (0 : Fin 2) * 2000 + 1 * p.val = r.val; rw [e10, hr]; omega
  | ⟨1, _⟩ => show win5_1.index t (1 : Fin 2) * 64 + 1 * k.val = k.val; rw [e11]; omega

/-- The input-side weight matrix is staged whole at every point: its one block is the array. -/
theorem wihWhole5 (t : Fin cfg5.N) :
    (iblk5 V c 2 t : Vec Ideal S64x192 .f32) = (V c main_v4 : S64x192.Idx → Elt Ideal .f32) := by
  obtain ⟨-, -, -, -, e20, e21, e30, e31, e40, e41, e50, e51, -, -⟩ := tileIdx5 t
  funext y
  unfold iblk5
  rw [View.read_apply]
  show V c main_v4 _ = V c main_v4 y
  congr 1
  funext a
  apply Fin.ext
  match a with
  | ⟨0, _⟩ => show win5_2.index t (0 : Fin 2) * 64 + 1 * (y 0).val = (y 0).val; rw [e20]; omega
  | ⟨1, _⟩ => show win5_2.index t (1 : Fin 2) * 192 + 1 * (y 1).val = (y 1).val; rw [e21]; omega

/-- The state-side weight matrix is staged whole at every point: its one block is the array. -/
theorem whhWhole5 (t : Fin cfg5.N) :
    (iblk5 V c 3 t : Vec Ideal S64x192 .f32) = (V c main_v5 : S64x192.Idx → Elt Ideal .f32) := by
  obtain ⟨-, -, -, -, e20, e21, e30, e31, e40, e41, e50, e51, -, -⟩ := tileIdx5 t
  funext y
  unfold iblk5
  rw [View.read_apply]
  show V c main_v5 _ = V c main_v5 y
  congr 1
  funext a
  apply Fin.ext
  match a with
  | ⟨0, _⟩ => show win5_3.index t (0 : Fin 2) * 64 + 1 * (y 0).val = (y 0).val; rw [e30]; omega
  | ⟨1, _⟩ => show win5_3.index t (1 : Fin 2) * 192 + 1 * (y 1).val = (y 1).val; rw [e31]; omega

/-- The input-side bias row is staged whole at every point: its one block is the array. -/
theorem biWhole5 (t : Fin cfg5.N) :
    (iblk5 V c 4 t : Vec Ideal S1x192 .f32) = (V c main_v6 : S1x192.Idx → Elt Ideal .f32) := by
  obtain ⟨-, -, -, -, e20, e21, e30, e31, e40, e41, e50, e51, -, -⟩ := tileIdx5 t
  funext y
  unfold iblk5
  rw [View.read_apply]
  show V c main_v6 _ = V c main_v6 y
  congr 1
  funext a
  apply Fin.ext
  match a with
  | ⟨0, _⟩ => show win5_4.index t (0 : Fin 2) * 1 + 1 * (y 0).val = (y 0).val; rw [e40]; omega
  | ⟨1, _⟩ => show win5_4.index t (1 : Fin 2) * 192 + 1 * (y 1).val = (y 1).val; rw [e41]; omega

/-- The state-side bias row is staged whole at every point: its one block is the array. -/
theorem bhWhole5 (t : Fin cfg5.N) :
    (iblk5 V c 5 t : Vec Ideal S1x192 .f32) = (V c main_v7 : S1x192.Idx → Elt Ideal .f32) := by
  obtain ⟨-, -, -, -, e20, e21, e30, e31, e40, e41, e50, e51, -, -⟩ := tileIdx5 t
  funext y
  unfold iblk5
  rw [View.read_apply]
  show V c main_v7 _ = V c main_v7 y
  congr 1
  funext a
  apply Fin.ext
  match a with
  | ⟨0, _⟩ => show win5_5.index t (0 : Fin 2) * 1 + 1 * (y 0).val = (y 0).val; rw [e50]; omega
  | ⟨1, _⟩ => show win5_5.index t (1 : Fin 2) * 192 + 1 * (y 1).val = (y 1).val; rw [e51]; omega

/-- What point `t` writes back is block `t` of the whole-array update of the region's six input arrays. -/
theorem wrote5 (t : Fin cfg5.N) :
    (dat5 V c).flushed 6 t = ((cfg5.win 6).blk t).view.read (Elt Ideal)
      (Cert.GGNN.gru (F := Ideal) (V c main_v48) (V c main_v35) (V c main_v4) (V c main_v5) (V c main_v6) (V c main_v7)) := by
  show (cfg5.win 6).cut (grid5.coords t) ((dat5 V c).after 6 t) = _
  rw [after5_6]
  unfold out5_6
  rw [View.canon_unit_zero hz]
  simp only [View.ld_unit_zero (S := S2000x64) hz, View.ld_unit_zero (S := S64x192) hz, View.ld_unit_zero (S := S1x192) hz]
  funext j
  obtain ⟨p, q, rfl⟩ : ∃ (p : Fin 2000) (q : Fin 64), j = ix2 p q := ⟨j 0, j 1, eq_ix2 j⟩
  have ht : t.val < 25 := lt_of_lt_of_eq t.isLt N_5
  have hp : p.val < 2000 := p.isLt
  obtain ⟨-, -, -, -, -, -, -, -, -, -, -, -, e60, e61⟩ := tileIdx5 t
  refine (k5_pay1_at (iblk5 V c 1 t) (iblk5 V c 0 t) (iblk5 V c 2 t) (iblk5 V c 3 t) (iblk5 V c 4 t)
    (iblk5 V c 5 t) p q).trans ?_
  rw [View.read_apply]
  have hemb : ((cfg5.win 6).blk t).view.emb (ix2 p q)
      = ix2 (⟨t.val * 2000 + p.val, by omega⟩ : Fin 50000) q := by
    funext a
    apply Fin.ext
    match a with
    | ⟨0, _⟩ => show win5_6.index t (0 : Fin 2) * 2000 + 1 * p.val = t.val * 2000 + p.val; rw [e60]; omega
    | ⟨1, _⟩ => show win5_6.index t (1 : Fin 2) * 64 + 1 * q.val = q.val; rw [e61]; omega
  rw [hemb]
  refine Eq.trans ?_ (gru_at (V c main_v48) (V c main_v35) (V c main_v4) (V c main_v5) (V c main_v6) (V c main_v7) _ q).symm
  exact cell_congr (funext fun k => aggTile5 V c t p k _ rfl) (funext fun k => stateTile5 V c t p k _ rfl)
    (wihWhole5 V c t) (whhWhole5 V c t) (biWhole5 V c t) (bhWhole5 V c t) q

/-- An index of the output array is in point `t`'s block iff each coordinate is in the block's range on its axis. -/
theorem memTile5 (t : Fin cfg5.N) (i : S50000x64.Idx) :
    i ∈ ((cfg5.win 6).blk t).view.set ↔ ∀ a : Fin 2, win5_6.index t a * S2000x64.size a ≤ (i a).val
      ∧ (i a).val < win5_6.index t a * S2000x64.size a + S2000x64.size a := by
  show i ∈ ((View.whole main_v49).slice (win5_6.rect t)).set ↔ _
  rw [View.set_slice_whole, Rect.mem_set_unit]
  exact Iff.rfl

/-- Every index of the output array is in the block of some point: row `r` in that of point `r / 2000`. -/
theorem covered5 (i : S50000x64.Idx) :
    ∃ t : Fin cfg5.N, (cfg5.win 6).flush t = true ∧ i ∈ ((cfg5.win 6).blk t).view.set := by
  have hi0 : (i 0).val < 50000 := (i 0).isLt
  have hi1 : (i 1).val < 64 := (i 1).isLt
  have hN : cfg5.N = 25 := N_5
  have hlt : (i 0).val / 2000 < cfg5.N := by rw [hN]; omega
  obtain ⟨-, -, -, -, -, -, -, -, -, -, -, -, e60, e61⟩ := tileIdx5 ⟨(i 0).val / 2000, hlt⟩
  refine ⟨⟨(i 0).val / 2000, hlt⟩, flush5_6 _, ?_⟩
  rw [memTile5]
  intro a
  match a with
  | ⟨0, _⟩ =>
    show win5_6.index ⟨(i 0).val / 2000, hlt⟩ (0 : Fin 2) * 2000 ≤ (i 0).val
      ∧ (i 0).val < win5_6.index ⟨(i 0).val / 2000, hlt⟩ (0 : Fin 2) * 2000 + 2000
    rw [e60]; show (i 0).val / 2000 * 2000 ≤ (i 0).val ∧ (i 0).val < (i 0).val / 2000 * 2000 + 2000; omega
  | ⟨1, _⟩ =>
    show win5_6.index ⟨(i 0).val / 2000, hlt⟩ (1 : Fin 2) * 64 ≤ (i 1).val
      ∧ (i 1).val < win5_6.index ⟨(i 0).val / 2000, hlt⟩ (1 : Fin 2) * 64 + 64
    rw [e61]; omega

/-- The array after region 5's run is the GRU update of the region's six input arrays as the region finds them. -/
theorem arr5 (V : (c : Dev nD) → (b : Ref sig .tc) → Buf (Elt Ideal) ((c : Thread nD τ).loc b)) (c : Dev nD) :
    (Gen.dat5 V c).arrAt 6 cfg5.N = Cert.GGNN.gru (F := Ideal) (V c main_v48) (V c main_v35) (V c main_v4) (V c main_v5) (V c main_v6) (V c main_v7) :=
  (dat5 V c).arrAt_eq_of_cover 6 _ (fun t _ => wrote5 V c t) (covered5)

end Cert.KernelIdeal.GRU

end
-- ==== Proof.GRUArr7.lean ====
/-
  GRU region 7: from the 25 row tiles to the whole array.

  The region's grid has 25 points; at point t the aggregate window and the old-state window hold rows 2000·t … 2000·t + 1999
  of their arrays, the two weight matrices and the two bias rows are staged whole, and the output window's block is
  written back to rows 2000·t … 2000·t + 1999 of the output array. The body leaves in that block, at row p and column q, the
  GRU cell of row p of the two input blocks, which is the cell of row 2000·t + p of the two arrays, which is the whole-array
  update at (2000·t + p, q). Row r of the array lies in the block of point r / 2000, and 25 · 2000 = 50000, so the blocks
  cover the array and the array ends at the whole-array update.
-/
import proofs.«134775_j74517682586461_1_alg».proof.Proof.Gen.KernelIdeal.Frame
import proofs.«134775_j74517682586461_1_alg».proof.Proof.Spec
import proofs.«134775_j74517682586461_1_alg».proof.Proof.GRUBody
import proofs.«134775_j74517682586461_1_alg».proof.Proof.GRURef
import Idealize.ShloMosaic.Lib.Pipeline.Value

noncomputable section

namespace Cert.KernelIdeal.GRU

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b)) (c : Dev nD)

/-- The windows' block indices at point `t`, decided over the 25 points: the three row-tiled windows sit at block
    `(t, 0)`, the four whole ones at `(0, 0)`. -/
theorem tileIdx7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0 :=
  (by decide +kernel : ∀ t : Fin grid7.N, _)

/-- The aggregate window: row `p` of the block at point `t` is row `2000 · t + p` of the array. -/
theorem aggTile7 (t : Fin cfg7.N) (p : Fin 2000) (k : Fin 64) (r : Fin 50000) (hr : r.val = t.val * 2000 + p.val) :
    (iblk7 V c 0 t : Vec Ideal S2000x64 .f32) (ix2 p k) = (V c main_v62 : S50000x64.Idx → Elt Ideal .f32) (ix2 r k) := by
  obtain ⟨e00, e01, e10, e11, -⟩ := tileIdx7 t
  unfold iblk7
  rw [View.read_apply]
  show V c main_v62 _ = V c main_v62 _
  congr 1
  funext a
  apply Fin.ext
  match a with
  | ⟨0, _⟩ => show win7_0.index t (0 : Fin 2) * 2000 + 1 * p.val = r.val; rw [e00, hr]; omega
  | ⟨1, _⟩ => show win7_0.index t (1 : Fin 2) * 64 + 1 * k.val = k.val; rw [e01]; omega

/-- The old-state window: row `p` of the block at point `t` is row `2000 · t + p` of the array. -/
theorem stateTile7 (t : Fin cfg7.N) (p : Fin 2000) (k : Fin 64) (r : Fin 50000) (hr : r.val = t.val * 2000 + p.val) :
    (iblk7 V c 1 t : Vec Ideal S2000x64 .f32) (ix2 p k) = (V c main_v49 : S50000x64.Idx → Elt Ideal .f32) (ix2 r k) := by
  obtain ⟨e00, e01, e10, e11, -⟩ := tileIdx7 t
  unfold iblk7
  rw [View.read_apply]
  show V c main_v49 _ = V c main_v49 _
  congr 1
  funext a
  apply Fin.ext
  match a with
  | ⟨0, _⟩ => show win7_1.index t (0 : Fin 2) * 2000 + 1 * p.val = r.val; rw [e10, hr]; omega
  | ⟨1, _⟩ => show win7_1.index t (1 : Fin 2) * 64 + 1 * k.val = k.val; rw [e11]; omega

/-- The input-side weight matrix is staged whole at every point: its one block is the array. -/
theorem wihWhole7 (t : Fin cfg7.N) :
    (iblk7 V c 2 t : Vec Ideal S64x192 .f32) = (V c main_v4 : S64x192.Idx → Elt Ideal .f32) := by
  obtain ⟨-, -, -, -, e20, e21, e30, e31, e40, e41, e50, e51, -, -⟩ := tileIdx7 t
  funext y
  unfold iblk7
  rw [View.read_apply]
  show V c main_v4 _ = V c main_v4 y
  congr 1
  funext a
  apply Fin.ext
  match a with
  | ⟨0, _⟩ => show win7_2.index t (0 : Fin 2) * 64 + 1 * (y 0).val = (y 0).val; rw [e20]; omega
  | ⟨1, _⟩ => show win7_2.index t (1 : Fin 2) * 192 + 1 * (y 1).val = (y 1).val; rw [e21]; omega

/-- The state-side weight matrix is staged whole at every point: its one block is the array. -/
theorem whhWhole7 (t : Fin cfg7.N) :
    (iblk7 V c 3 t : Vec Ideal S64x192 .f32) = (V c main_v5 : S64x192.Idx → Elt Ideal .f32) := by
  obtain ⟨-, -, -, -, e20, e21, e30, e31, e40, e41, e50, e51, -, -⟩ := tileIdx7 t
  funext y
  unfold iblk7
  rw [View.read_apply]
  show V c main_v5 _ = V c main_v5 y
  congr 1
  funext a
  apply Fin.ext
  match a with
  | ⟨0, _⟩ => show win7_3.index t (0 : Fin 2) * 64 + 1 * (y 0).val = (y 0).val; rw [e30]; omega
  | ⟨1, _⟩ => show win7_3.index t (1 : Fin 2) * 192 + 1 * (y 1).val = (y 1).val; rw [e31]; omega

/-- The input-side bias row is staged whole at every point: its one block is the array. -/
theorem biWhole7 (t : Fin cfg7.N) :
    (iblk7 V c 4 t : Vec Ideal S1x192 .f32) = (V c main_v6 : S1x192.Idx → Elt Ideal .f32) := by
  obtain ⟨-, -, -, -, e20, e21, e30, e31, e40, e41, e50, e51, -, -⟩ := tileIdx7 t
  funext y
  unfold iblk7
  rw [View.read_apply]
  show V c main_v6 _ = V c main_v6 y
  congr 1
  funext a
  apply Fin.ext
  match a with
  | ⟨0, _⟩ => show win7_4.index t (0 : Fin 2) * 1 + 1 * (y 0).val = (y 0).val; rw [e40]; omega
  | ⟨1, _⟩ => show win7_4.index t (1 : Fin 2) * 192 + 1 * (y 1).val = (y 1).val; rw [e41]; omega

/-- The state-side bias row is staged whole at every point: its one block is the array. -/
theorem bhWhole7 (t : Fin cfg7.N) :
    (iblk7 V c 5 t : Vec Ideal S1x192 .f32) = (V c main_v7 : S1x192.Idx → Elt Ideal .f32) := by
  obtain ⟨-, -, -, -, e20, e21, e30, e31, e40, e41, e50, e51, -, -⟩ := tileIdx7 t
  funext y
  unfold iblk7
  rw [View.read_apply]
  show V c main_v7 _ = V c main_v7 y
  congr 1
  funext a
  apply Fin.ext
  match a with
  | ⟨0, _⟩ => show win7_5.index t (0 : Fin 2) * 1 + 1 * (y 0).val = (y 0).val; rw [e50]; omega
  | ⟨1, _⟩ => show win7_5.index t (1 : Fin 2) * 192 + 1 * (y 1).val = (y 1).val; rw [e51]; omega

/-- What point `t` writes back is block `t` of the whole-array update of the region's six input arrays. -/
theorem wrote7 (t : Fin cfg7.N) :
    (dat7 V c).flushed 6 t = ((cfg7.win 6).blk t).view.read (Elt Ideal)
      (Cert.GGNN.gru (F := Ideal) (V c main_v62) (V c main_v49) (V c main_v4) (V c main_v5) (V c main_v6) (V c main_v7)) := by
  show (cfg7.win 6).cut (grid7.coords t) ((dat7 V c).after 6 t) = _
  rw [after7_6]
  unfold out7_6
  rw [View.canon_unit_zero hz]
  simp only [View.ld_unit_zero (S := S2000x64) hz, View.ld_unit_zero (S := S64x192) hz, View.ld_unit_zero (S := S1x192) hz]
  funext j
  obtain ⟨p, q, rfl⟩ : ∃ (p : Fin 2000) (q : Fin 64), j = ix2 p q := ⟨j 0, j 1, eq_ix2 j⟩
  have ht : t.val < 25 := lt_of_lt_of_eq t.isLt N_7
  have hp : p.val < 2000 := p.isLt
  obtain ⟨-, -, -, -, -, -, -, -, -, -, -, -, e60, e61⟩ := tileIdx7 t
  refine (k7_pay1_at (iblk7 V c 1 t) (iblk7 V c 0 t) (iblk7 V c 2 t) (iblk7 V c 3 t) (iblk7 V c 4 t)
    (iblk7 V c 5 t) p q).trans ?_
  rw [View.read_apply]
  have hemb : ((cfg7.win 6).blk t).view.emb (ix2 p q)
      = ix2 (⟨t.val * 2000 + p.val, by omega⟩ : Fin 50000) q := by
    funext a
    apply Fin.ext
    match a with
    | ⟨0, _⟩ => show win7_6.index t (0 : Fin 2) * 2000 + 1 * p.val = t.val * 2000 + p.val; rw [e60]; omega
    | ⟨1, _⟩ => show win7_6.index t (1 : Fin 2) * 64 + 1 * q.val = q.val; rw [e61]; omega
  rw [hemb]
  refine Eq.trans ?_ (gru_at (V c main_v62) (V c main_v49) (V c main_v4) (V c main_v5) (V c main_v6) (V c main_v7) _ q).symm
  exact cell_congr (funext fun k => aggTile7 V c t p k _ rfl) (funext fun k => stateTile7 V c t p k _ rfl)
    (wihWhole7 V c t) (whhWhole7 V c t) (biWhole7 V c t) (bhWhole7 V c t) q

/-- An index of the output array is in point `t`'s block iff each coordinate is in the block's range on its axis. -/
theorem memTile7 (t : Fin cfg7.N) (i : S50000x64.Idx) :
    i ∈ ((cfg7.win 6).blk t).view.set ↔ ∀ a : Fin 2, win7_6.index t a * S2000x64.size a ≤ (i a).val
      ∧ (i a).val < win7_6.index t a * S2000x64.size a + S2000x64.size a := by
  show i ∈ ((View.whole main_v63).slice (win7_6.rect t)).set ↔ _
  rw [View.set_slice_whole, Rect.mem_set_unit]
  exact Iff.rfl

/-- Every index of the output array is in the block of some point: row `r` in that of point `r / 2000`. -/
theorem covered7 (i : S50000x64.Idx) :
    ∃ t : Fin cfg7.N, (cfg7.win 6).flush t = true ∧ i ∈ ((cfg7.win 6).blk t).view.set := by
  have hi0 : (i 0).val < 50000 := (i 0).isLt
  have hi1 : (i 1).val < 64 := (i 1).isLt
  have hN : cfg7.N = 25 := N_7
  have hlt : (i 0).val / 2000 < cfg7.N := by rw [hN]; omega
  obtain ⟨-, -, -, -, -, -, -, -, -, -, -, -, e60, e61⟩ := tileIdx7 ⟨(i 0).val / 2000, hlt⟩
  refine ⟨⟨(i 0).val / 2000, hlt⟩, flush7_6 _, ?_⟩
  rw [memTile7]
  intro a
  match a with
  | ⟨0, _⟩ =>
    show win7_6.index ⟨(i 0).val / 2000, hlt⟩ (0 : Fin 2) * 2000 ≤ (i 0).val
      ∧ (i 0).val < win7_6.index ⟨(i 0).val / 2000, hlt⟩ (0 : Fin 2) * 2000 + 2000
    rw [e60]; show (i 0).val / 2000 * 2000 ≤ (i 0).val ∧ (i 0).val < (i 0).val / 2000 * 2000 + 2000; omega
  | ⟨1, _⟩ =>
    show win7_6.index ⟨(i 0).val / 2000, hlt⟩ (1 : Fin 2) * 64 ≤ (i 1).val
      ∧ (i 1).val < win7_6.index ⟨(i 0).val / 2000, hlt⟩ (1 : Fin 2) * 64 + 64
    rw [e61]; omega

/-- The array after region 7's run is the GRU update of the region's six input arrays as the region finds them. -/
theorem arr7 (V : (c : Dev nD) → (b : Ref sig .tc) → Buf (Elt Ideal) ((c : Thread nD τ).loc b)) (c : Dev nD) :
    (Gen.dat7 V c).arrAt 6 cfg7.N = Cert.GGNN.gru (F := Ideal) (V c main_v62) (V c main_v49) (V c main_v4) (V c main_v5) (V c main_v6) (V c main_v7) :=
  (dat7 V c).arrAt_eq_of_cover 6 _ (fun t _ => wrote7 V c t) (covered7)

end Cert.KernelIdeal.GRU

end
-- ==== Proof.GRUArr9.lean ====
/-
  GRU region 9: from the 25 row tiles to the whole array.

  The region's grid has 25 points; at point t the aggregate window and the old-state window hold rows 2000·t … 2000·t + 1999
  of their arrays, the two weight matrices and the two bias rows are staged whole, and the output window's block is
  written back to rows 2000·t … 2000·t + 1999 of the output array. The body leaves in that block, at row p and column q, the
  GRU cell of row p of the two input blocks, which is the cell of row 2000·t + p of the two arrays, which is the whole-array
  update at (2000·t + p, q). Row r of the array lies in the block of point r / 2000, and 25 · 2000 = 50000, so the blocks
  cover the array and the array ends at the whole-array update.
-/
import proofs.«134775_j74517682586461_1_alg».proof.Proof.Gen.KernelIdeal.Frame
import proofs.«134775_j74517682586461_1_alg».proof.Proof.Spec
import proofs.«134775_j74517682586461_1_alg».proof.Proof.GRUBody
import proofs.«134775_j74517682586461_1_alg».proof.Proof.GRURef
import Idealize.ShloMosaic.Lib.Pipeline.Value

noncomputable section

namespace Cert.KernelIdeal.GRU

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b)) (c : Dev nD)

/-- The windows' block indices at point `t`, decided over the 25 points: the three row-tiled windows sit at block
    `(t, 0)`, the four whole ones at `(0, 0)`. -/
theorem tileIdx9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = t.val ∧ win9_6.index t (1 : Fin 2) = 0 :=
  (by decide +kernel : ∀ t : Fin grid9.N, _)

/-- The aggregate window: row `p` of the block at point `t` is row `2000 · t + p` of the array. -/
theorem aggTile9 (t : Fin cfg9.N) (p : Fin 2000) (k : Fin 64) (r : Fin 50000) (hr : r.val = t.val * 2000 + p.val) :
    (iblk9 V c 0 t : Vec Ideal S2000x64 .f32) (ix2 p k) = (V c main_v76 : S50000x64.Idx → Elt Ideal .f32) (ix2 r k) := by
  obtain ⟨e00, e01, e10, e11, -⟩ := tileIdx9 t
  unfold iblk9
  rw [View.read_apply]
  show V c main_v76 _ = V c main_v76 _
  congr 1
  funext a
  apply Fin.ext
  match a with
  | ⟨0, _⟩ => show win9_0.index t (0 : Fin 2) * 2000 + 1 * p.val = r.val; rw [e00, hr]; omega
  | ⟨1, _⟩ => show win9_0.index t (1 : Fin 2) * 64 + 1 * k.val = k.val; rw [e01]; omega

/-- The old-state window: row `p` of the block at point `t` is row `2000 · t + p` of the array. -/
theorem stateTile9 (t : Fin cfg9.N) (p : Fin 2000) (k : Fin 64) (r : Fin 50000) (hr : r.val = t.val * 2000 + p.val) :
    (iblk9 V c 1 t : Vec Ideal S2000x64 .f32) (ix2 p k) = (V c main_v63 : S50000x64.Idx → Elt Ideal .f32) (ix2 r k) := by
  obtain ⟨e00, e01, e10, e11, -⟩ := tileIdx9 t
  unfold iblk9
  rw [View.read_apply]
  show V c main_v63 _ = V c main_v63 _
  congr 1
  funext a
  apply Fin.ext
  match a with
  | ⟨0, _⟩ => show win9_1.index t (0 : Fin 2) * 2000 + 1 * p.val = r.val; rw [e10, hr]; omega
  | ⟨1, _⟩ => show win9_1.index t (1 : Fin 2) * 64 + 1 * k.val = k.val; rw [e11]; omega

/-- The input-side weight matrix is staged whole at every point: its one block is the array. -/
theorem wihWhole9 (t : Fin cfg9.N) :
    (iblk9 V c 2 t : Vec Ideal S64x192 .f32) = (V c main_v4 : S64x192.Idx → Elt Ideal .f32) := by
  obtain ⟨-, -, -, -, e20, e21, e30, e31, e40, e41, e50, e51, -, -⟩ := tileIdx9 t
  funext y
  unfold iblk9
  rw [View.read_apply]
  show V c main_v4 _ = V c main_v4 y
  congr 1
  funext a
  apply Fin.ext
  match a with
  | ⟨0, _⟩ => show win9_2.index t (0 : Fin 2) * 64 + 1 * (y 0).val = (y 0).val; rw [e20]; omega
  | ⟨1, _⟩ => show win9_2.index t (1 : Fin 2) * 192 + 1 * (y 1).val = (y 1).val; rw [e21]; omega

/-- The state-side weight matrix is staged whole at every point: its one block is the array. -/
theorem whhWhole9 (t : Fin cfg9.N) :
    (iblk9 V c 3 t : Vec Ideal S64x192 .f32) = (V c main_v5 : S64x192.Idx → Elt Ideal .f32) := by
  obtain ⟨-, -, -, -, e20, e21, e30, e31, e40, e41, e50, e51, -, -⟩ := tileIdx9 t
  funext y
  unfold iblk9
  rw [View.read_apply]
  show V c main_v5 _ = V c main_v5 y
  congr 1
  funext a
  apply Fin.ext
  match a with
  | ⟨0, _⟩ => show win9_3.index t (0 : Fin 2) * 64 + 1 * (y 0).val = (y 0).val; rw [e30]; omega
  | ⟨1, _⟩ => show win9_3.index t (1 : Fin 2) * 192 + 1 * (y 1).val = (y 1).val; rw [e31]; omega

/-- The input-side bias row is staged whole at every point: its one block is the array. -/
theorem biWhole9 (t : Fin cfg9.N) :
    (iblk9 V c 4 t : Vec Ideal S1x192 .f32) = (V c main_v6 : S1x192.Idx → Elt Ideal .f32) := by
  obtain ⟨-, -, -, -, e20, e21, e30, e31, e40, e41, e50, e51, -, -⟩ := tileIdx9 t
  funext y
  unfold iblk9
  rw [View.read_apply]
  show V c main_v6 _ = V c main_v6 y
  congr 1
  funext a
  apply Fin.ext
  match a with
  | ⟨0, _⟩ => show win9_4.index t (0 : Fin 2) * 1 + 1 * (y 0).val = (y 0).val; rw [e40]; omega
  | ⟨1, _⟩ => show win9_4.index t (1 : Fin 2) * 192 + 1 * (y 1).val = (y 1).val; rw [e41]; omega

/-- The state-side bias row is staged whole at every point: its one block is the array. -/
theorem bhWhole9 (t : Fin cfg9.N) :
    (iblk9 V c 5 t : Vec Ideal S1x192 .f32) = (V c main_v7 : S1x192.Idx → Elt Ideal .f32) := by
  obtain ⟨-, -, -, -, e20, e21, e30, e31, e40, e41, e50, e51, -, -⟩ := tileIdx9 t
  funext y
  unfold iblk9
  rw [View.read_apply]
  show V c main_v7 _ = V c main_v7 y
  congr 1
  funext a
  apply Fin.ext
  match a with
  | ⟨0, _⟩ => show win9_5.index t (0 : Fin 2) * 1 + 1 * (y 0).val = (y 0).val; rw [e50]; omega
  | ⟨1, _⟩ => show win9_5.index t (1 : Fin 2) * 192 + 1 * (y 1).val = (y 1).val; rw [e51]; omega

/-- What point `t` writes back is block `t` of the whole-array update of the region's six input arrays. -/
theorem wrote9 (t : Fin cfg9.N) :
    (dat9 V c).flushed 6 t = ((cfg9.win 6).blk t).view.read (Elt Ideal)
      (Cert.GGNN.gru (F := Ideal) (V c main_v76) (V c main_v63) (V c main_v4) (V c main_v5) (V c main_v6) (V c main_v7)) := by
  show (cfg9.win 6).cut (grid9.coords t) ((dat9 V c).after 6 t) = _
  rw [after9_6]
  unfold out9_6
  rw [View.canon_unit_zero hz]
  simp only [View.ld_unit_zero (S := S2000x64) hz, View.ld_unit_zero (S := S64x192) hz, View.ld_unit_zero (S := S1x192) hz]
  funext j
  obtain ⟨p, q, rfl⟩ : ∃ (p : Fin 2000) (q : Fin 64), j = ix2 p q := ⟨j 0, j 1, eq_ix2 j⟩
  have ht : t.val < 25 := lt_of_lt_of_eq t.isLt N_9
  have hp : p.val < 2000 := p.isLt
  obtain ⟨-, -, -, -, -, -, -, -, -, -, -, -, e60, e61⟩ := tileIdx9 t
  refine (k9_pay1_at (iblk9 V c 1 t) (iblk9 V c 0 t) (iblk9 V c 2 t) (iblk9 V c 3 t) (iblk9 V c 4 t)
    (iblk9 V c 5 t) p q).trans ?_
  rw [View.read_apply]
  have hemb : ((cfg9.win 6).blk t).view.emb (ix2 p q)
      = ix2 (⟨t.val * 2000 + p.val, by omega⟩ : Fin 50000) q := by
    funext a
    apply Fin.ext
    match a with
    | ⟨0, _⟩ => show win9_6.index t (0 : Fin 2) * 2000 + 1 * p.val = t.val * 2000 + p.val; rw [e60]; omega
    | ⟨1, _⟩ => show win9_6.index t (1 : Fin 2) * 64 + 1 * q.val = q.val; rw [e61]; omega
  rw [hemb]
  refine Eq.trans ?_ (gru_at (V c main_v76) (V c main_v63) (V c main_v4) (V c main_v5) (V c main_v6) (V c main_v7) _ q).symm
  exact cell_congr (funext fun k => aggTile9 V c t p k _ rfl) (funext fun k => stateTile9 V c t p k _ rfl)
    (wihWhole9 V c t) (whhWhole9 V c t) (biWhole9 V c t) (bhWhole9 V c t) q

/-- An index of the output array is in point `t`'s block iff each coordinate is in the block's range on its axis. -/
theorem memTile9 (t : Fin cfg9.N) (i : S50000x64.Idx) :
    i ∈ ((cfg9.win 6).blk t).view.set ↔ ∀ a : Fin 2, win9_6.index t a * S2000x64.size a ≤ (i a).val
      ∧ (i a).val < win9_6.index t a * S2000x64.size a + S2000x64.size a := by
  show i ∈ ((View.whole main_v77).slice (win9_6.rect t)).set ↔ _
  rw [View.set_slice_whole, Rect.mem_set_unit]
  exact Iff.rfl

/-- Every index of the output array is in the block of some point: row `r` in that of point `r / 2000`. -/
theorem covered9 (i : S50000x64.Idx) :
    ∃ t : Fin cfg9.N, (cfg9.win 6).flush t = true ∧ i ∈ ((cfg9.win 6).blk t).view.set := by
  have hi0 : (i 0).val < 50000 := (i 0).isLt
  have hi1 : (i 1).val < 64 := (i 1).isLt
  have hN : cfg9.N = 25 := N_9
  have hlt : (i 0).val / 2000 < cfg9.N := by rw [hN]; omega
  obtain ⟨-, -, -, -, -, -, -, -, -, -, -, -, e60, e61⟩ := tileIdx9 ⟨(i 0).val / 2000, hlt⟩
  refine ⟨⟨(i 0).val / 2000, hlt⟩, flush9_6 _, ?_⟩
  rw [memTile9]
  intro a
  match a with
  | ⟨0, _⟩ =>
    show win9_6.index ⟨(i 0).val / 2000, hlt⟩ (0 : Fin 2) * 2000 ≤ (i 0).val
      ∧ (i 0).val < win9_6.index ⟨(i 0).val / 2000, hlt⟩ (0 : Fin 2) * 2000 + 2000
    rw [e60]; show (i 0).val / 2000 * 2000 ≤ (i 0).val ∧ (i 0).val < (i 0).val / 2000 * 2000 + 2000; omega
  | ⟨1, _⟩ =>
    show win9_6.index ⟨(i 0).val / 2000, hlt⟩ (1 : Fin 2) * 64 ≤ (i 1).val
      ∧ (i 1).val < win9_6.index ⟨(i 0).val / 2000, hlt⟩ (1 : Fin 2) * 64 + 64
    rw [e61]; omega

/-- The array after region 9's run is the GRU update of the region's six input arrays as the region finds them. -/
theorem arr9 (V : (c : Dev nD) → (b : Ref sig .tc) → Buf (Elt Ideal) ((c : Thread nD τ).loc b)) (c : Dev nD) :
    (Gen.dat9 V c).arrAt 6 cfg9.N = Cert.GGNN.gru (F := Ideal) (V c main_v76) (V c main_v63) (V c main_v4) (V c main_v5) (V c main_v6) (V c main_v7) :=
  (dat9 V c).arrAt_eq_of_cover 6 _ (fun t _ => wrote9 V c t) (covered9)

end Cert.KernelIdeal.GRU

end
-- ==== Proof.lean ====
/-
  The claim: a five-layer gated graph network computed with Pallas kernels (per layer a message matmul kernel and a GRU-cell
  kernel, each over 25 row tiles of 2000 nodes, with the edge gather and the segment sum between them in plain array
  operations) against the same network written with array operations only.

  Frames. Each of the two kernel programs is ten kernel regions among host stretches; that every weakly fair execution
  terminates without a fault and leaves the argument arrays as launched is the generated frame of each. The reference
  has no kernel: its frame is its run with the result dropped.

  The idealization rewrote nothing, so there is nothing to preserve.

  Values. Read over the extended reals, a change of float format is the identity, a kernel matmul into a zero accumulator
  and the host's matrix product are the same sum, and the kernel's one-operation logistic is 1 / (1 + exp (−x)) as the
  reference spells it. So each matmul region leaves the message product of its two input arrays (row tile by row tile,
  the 25 tiles covering the 50000 rows), each GRU region leaves the GRU update of its six input arrays, and the host
  stretches between them are the reference's own gather and accumulating scatter. Threading these through the program
  gives the five-layer network of the arguments, which is also what the reference's run gives; the bias rows, made by a
  recast in one program and by a broadcast in the other, are the same rows. No finiteness of the inputs is used: the two
  sides are the same operations on equal arrays, and no law of arithmetic beyond reading sums index by index is needed.
-/
import proofs.«134775_j74517682586461_1_alg».proof.Defs
import proofs.«134775_j74517682586461_1_alg».proof.Proof.Gen.Kernel
import proofs.«134775_j74517682586461_1_alg».proof.Proof.Gen.Kernel.Skeleton
import proofs.«134775_j74517682586461_1_alg».proof.Proof.Gen.Kernel.Launch
import proofs.«134775_j74517682586461_1_alg».proof.Proof.Gen.Kernel.Points
import proofs.«134775_j74517682586461_1_alg».proof.Proof.Gen.Kernel.Frame
import proofs.«134775_j74517682586461_1_alg».proof.Proof.Gen.KernelIdeal
import proofs.«134775_j74517682586461_1_alg».proof.Proof.Gen.KernelIdeal.Skeleton
import proofs.«134775_j74517682586461_1_alg».proof.Proof.Gen.KernelIdeal.Launch
import proofs.«134775_j74517682586461_1_alg».proof.Proof.Gen.KernelIdeal.Points
import proofs.«134775_j74517682586461_1_alg».proof.Proof.Gen.KernelIdeal.Frame
import proofs.«134775_j74517682586461_1_alg».proof.Proof.Gen.ReferenceIdeal
import proofs.«134775_j74517682586461_1_alg».proof.Proof.Gen.Pre_finite_inputs
import proofs.«134775_j74517682586461_1_alg».proof.Proof.Gen.ReferenceIdeal.Run
import proofs.«134775_j74517682586461_1_alg».proof.Proof.Assembly
import proofs.«134775_j74517682586461_1_alg».proof.Proof.MMArr0
import proofs.«134775_j74517682586461_1_alg».proof.Proof.MMArr2
import proofs.«134775_j74517682586461_1_alg».proof.Proof.MMArr4
import proofs.«134775_j74517682586461_1_alg».proof.Proof.MMArr6
import proofs.«134775_j74517682586461_1_alg».proof.Proof.MMArr8
import proofs.«134775_j74517682586461_1_alg».proof.Proof.GRUArr1
import proofs.«134775_j74517682586461_1_alg».proof.Proof.GRUArr3
import proofs.«134775_j74517682586461_1_alg».proof.Proof.GRUArr5
import proofs.«134775_j74517682586461_1_alg».proof.Proof.GRUArr7
import proofs.«134775_j74517682586461_1_alg».proof.Proof.GRUArr9
import Idealize.ShloMosaic.Adequacy
import Idealize.ShloMosaic.Init

noncomputable section

namespace Cert.Proof

open Idealize.ShloMosaic Idealize.SL.Sem

/-- What each of the ten regions leaves in its output array: the message product (matmul regions), the GRU update (GRU
    regions), of the region's input arrays as it finds them. -/
theorem regionFacts : Cert.KernelIdeal.Chain.RegionFacts :=
  ⟨Cert.KernelIdeal.MM.arr0, Cert.KernelIdeal.GRU.arr1, Cert.KernelIdeal.MM.arr2, Cert.KernelIdeal.GRU.arr3,
   Cert.KernelIdeal.MM.arr4, Cert.KernelIdeal.GRU.arr5, Cert.KernelIdeal.MM.arr6, Cert.KernelIdeal.GRU.arr7,
   Cert.KernelIdeal.MM.arr8, Cert.KernelIdeal.GRU.arr9⟩

/-- The kernel program terminates, faults nowhere and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals both programs compute the five-layer network of the arguments. -/
theorem algebraic : Cert.algebraic_KernelIdeal_ReferenceIdeal := Cert.Proof.Assembly.algebraic_of regionFacts

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
